-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1x1x2048x2048 : Shape := ⟨4, ![1, 1, 2048, 2048]⟩
abbrev S3072x1024 : Shape := ⟨2, ![3072, 1024]⟩
abbrev S1024 : Shape := ⟨1, ![1024]⟩
abbrev S1x16x1x1 : Shape := ⟨4, ![1, 16, 1, 1]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1x16x1x1 : S_.BroadcastsInDim S1x16x1x1 (![] : Fin 0 → Fin S1x16x1x1.rank)
  reducesTo_S1x16x1x1_S_d0_1_2_3 : S1x16x1x1.ReducesTo [0, 1, 2, 3] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024 .f32) (main_arg5 : FVec F S1x16x1x1 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x16x1x1 .f32 := Host.absf main_arg5
  let main_cst_8 : FVec F S_ .f32 := constant S_ .f32 0x7F800000#32
  let main_v25 : FVec F S1x16x1x1 .f32 := broadcastInDim S1x16x1x1 ![] bcast_S_S1x16x1x1 main_cst_8
  let main_v26 : IVec S1x16x1x1 1 := cmpf .olt main_v24 main_v25
  let main_c_9 : IVec S_ 1 := constantI S_ 1 1#1
  let main_v27 : IVec S_ 1 := (fun x v => Host.reduce IntOp.andi x v reducesTo_S1x16x1x1_S_d0_1_2_3 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1x1x2048x2048 .f32) (main_arg2 : FVec F S3072x1024 .f32) (main_arg3 : FVec F S1024 .f32) (main_arg4 : FVec F S1024 .f32) (main_arg5 : FVec F S1x16x1x1 .f32) (main_arg6 : FVec F S1024x1024 .f32) (main_arg7 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1x2048x2048 .f32 := Host.absf main_arg1
  let main_cst_0 : FVec F S_ .f32 := constant S_ .f32 0x7F800000#32
  let main_v5 : FVec F S1x1x2048x2048 .f32 := broadcastInDim S1x1x2048x2048 ![] bcast_S_S1x1x2048x2048 main_cst_0
  let main_v6 : IVec S1x1x2048x2048 1 := cmpf .olt main_v4 main_v5
  let main_c_1 : IVec S_ 1 := constantI S_ 1 1#1
  let main_v7 : IVec S_ 1 := (fun x v => Host.reduce IntOp.andi x v reducesTo_S1x1x2048x2048_S_d0_1_2_3 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S1x1x2048x2048 : Shape := ⟨4, ![1, 1, 2048, 2048]⟩
abbrev S3072x1024 : Shape := ⟨2, ![3072, 1024]⟩
abbrev S1024 : Shape := ⟨1, ![1024]⟩
abbrev S1x16x1x1 : Shape := ⟨4, ![1, 16, 1, 1]⟩
abbrev S1024x1024 : Shape := ⟨2, ![1024, 1024]⟩
abbrev S1024x3072 : Shape := ⟨2, ![1024, 3072]⟩
abbrev S1x1024 : Shape := ⟨2, ![1, 1024]⟩
abbrev S_ : Shape := ⟨0, ![]⟩
abbrev S1x16 : Shape := ⟨2, ![1, 16]⟩
abbrev S1x16x1 : Shape := ⟨3, ![1, 16, 1]⟩
abbrev S1x16x64 : Shape := ⟨3, ![1, 16, 64]⟩
abbrev S16 : Shape := ⟨1, ![16]⟩
abbrev S1024x1 : Shape := ⟨2, ![1024, 1]⟩
abbrev S1024x16 : Shape := ⟨2, ![1024, 16]⟩
abbrev S16x1024 : Shape := ⟨2, ![16, 1024]⟩
abbrev S1x256x1024 : Shape := ⟨3, ![1, 256, 1024]⟩
abbrev S256x1024 : Shape := ⟨2, ![256, 1024]⟩
abbrev S256x3072 : Shape := ⟨2, ![256, 3072]⟩
abbrev S256x16 : Shape := ⟨2, ![256, 16]⟩
abbrev S2x2048x16x64 : Shape := ⟨4, ![2, 2048, 16, 64]⟩
abbrev S2x16x2048x64 : Shape := ⟨4, ![2, 16, 2048, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S4096x1024 : Shape := ⟨2, ![4096, 1024]⟩
abbrev S512x1024 : Shape := ⟨2, ![512, 1024]⟩

abbrev nBuf : Space → Nat
  | .hbm => 64
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .f32⟩
  | .hbm, ⟨2, _⟩ => ⟨S3072x1024, .f32⟩
  | .hbm, ⟨3, _⟩ => ⟨S1024, .f32⟩
  | .hbm, ⟨4, _⟩ => ⟨S1024, .f32⟩
  | .hbm, ⟨5, _⟩ => ⟨S1x16x1x1, .f32⟩
  | .hbm, ⟨6, _⟩ => ⟨S1024x1024, .f32⟩
  | .hbm, ⟨7, _⟩ => ⟨S1024, .f32⟩
  | .hbm, ⟨8, _⟩ => ⟨S1024x3072, .f32⟩
  | .hbm, ⟨9, _⟩ => ⟨S1024x3072, .bf16⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x16x1x1, .f32⟩
  | .hbm, ⟨14, _⟩ => ⟨S1x16x1x1, .f32⟩
  | .hbm, ⟨15, _⟩ => ⟨S1x16x1x1, .f32⟩
  | .hbm, ⟨16, _⟩ => ⟨S1x16, .f32⟩
  | .hbm, ⟨17, _⟩ => ⟨S1x16x1, .f32⟩
  | .hbm, ⟨18, _⟩ => ⟨S1x16x64, .f32⟩
  | .hbm, ⟨19, _⟩ => ⟨S1x1024, .f32⟩
  | .hbm, ⟨20, _⟩ => ⟨S1024, .i32⟩
  | .hbm, ⟨21, _⟩ => ⟨S_, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S16, .i32⟩
  | .hbm, ⟨40, _⟩ => ⟨S1024x1, .i32⟩
  | .hbm, ⟨41, _⟩ => ⟨S1x16, .i32⟩
  | .hbm, ⟨42, _⟩ => ⟨S1024x16, .i32⟩
  | .hbm, ⟨43, _⟩ => ⟨S1024x16, .i32⟩
  | .hbm, ⟨44, _⟩ => ⟨S1024x16, .i1⟩
  | .hbm, ⟨45, _⟩ => ⟨S1024x16, .bf16⟩
  | .hbm, ⟨46, _⟩ => ⟨S16x1024, .bf16⟩
  | .hbm, ⟨47, _⟩ => ⟨S2x2048x1024, .bf16⟩
  | .hbm, ⟨48, _⟩ => ⟨S2x2048x1024, .bf16⟩
  | .hbm, ⟨49, _⟩ => ⟨S2x2048x1024, .bf16⟩
  | .hbm, ⟨50, _⟩ => ⟨S2x2048x16x64, .bf16⟩
  | .hbm, ⟨51, _⟩ => ⟨S2x16x2048x64, .bf16⟩
  | .hbm, ⟨52, _⟩ => ⟨S2x2048x16x64, .bf16⟩
  | .hbm, ⟨53, _⟩ => ⟨S2x16x2048x64, .bf16⟩
  | .hbm, ⟨54, _⟩ => ⟨S2x2048x16x64, .bf16⟩
  | .hbm, ⟨55, _⟩ => ⟨S2x16x2048x64, .bf16⟩
  | .hbm, ⟨56, _⟩ => ⟨S2x16x2048x64, .bf16⟩
  | .hbm, ⟨57, _⟩ => ⟨S2x2048x16x64, .bf16⟩
  | .hbm, ⟨58, _⟩ => ⟨S4096x1024, .bf16⟩
  | .hbm, ⟨59, _⟩ => ⟨S1024x1024, .f32⟩
  | .hbm, ⟨60, _⟩ => ⟨S1024x1024, .bf16⟩
  | .hbm, ⟨61, _⟩ => ⟨S1x1024, .f32⟩
  | .hbm, ⟨62, _⟩ => ⟨S4096x1024, .f32⟩
  | .hbm, ⟨63, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x3072, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x16, .bf16⟩
  | .local _ .vmem, ⟨7, _⟩ => ⟨S16x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x1x512x64, .bf16⟩
  | .local _ .vmem, ⟨15, _⟩ => ⟨S1x1x512x64, .bf16⟩
  | .local _ .vmem, ⟨16, _⟩ => ⟨S1x1x2048x64, .bf16⟩
  | .local _ .vmem, ⟨17, _⟩ => ⟨S1x1x2048x64, .bf16⟩
  | .local _ .vmem, ⟨18, _⟩ => ⟨S1x1x2048x64, .bf16⟩
  | .local _ .vmem, ⟨19, _⟩ => ⟨S1x1x2048x64, .bf16⟩
  | .local _ .vmem, ⟨20, _⟩ => ⟨S1x1x2048x2048, .f32⟩
  | .local _ .vmem, ⟨21, _⟩ => ⟨S1x1x512x64, .bf16⟩
  | .local _ .vmem, ⟨22, _⟩ => ⟨S1x1x512x64, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21_0 : Ref sig .tc := ⟨.hbm, 47, rfl⟩
abbrev main_v21_1 : Ref sig .tc := ⟨.hbm, 48, rfl⟩
abbrev main_v21_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 16, 4], ![false, false, false]⟩

def k1_mult1 (i : grid1.Coords) : BitVec 32 :=
  let arg2 : BitVec 32 := BitVec.ofNat 32 (i 2).val
  let c512_i32 : BitVec 32 := 512#32
  let v0 : BitVec 32 := Scalar.muli arg2 c512_i32
  v0
def k1_off1 (i : grid1.Coords) : Fin 4 → Nat :=
  let c0_11 : Index := 0#32
  let c0_12 : Index := 0#32
  let arg2 : BitVec 32 := BitVec.ofNat 32 (i 2).val
  let c512_i32 : BitVec 32 := 512#32
  let v0 : BitVec 32 := Scalar.muli arg2 c512_i32
  let v1 : BitVec 32 := v0
  let v8 : Index := Scalar.indexCast v1
  let c0_13 : Index := 0#32
  ![0, 0, v8.toNat, 0]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1x2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1x512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S3072x1024_S1024x3072_1_0 : S3072x1024.Transposes [1, 0] S1024x3072
  bitsLt_bf16_f32 : FTy.bits .bf16 < FTy.bits .f32
  shapeCasts_S1024_S1x1024 : S1024.ShapeCasts S1x1024
  bcast_S_S1x16x1x1 : S_.BroadcastsInDim S1x16x1x1 (![] : Fin 0 → Fin S1x16x1x1.rank)
  shapeCasts_S1x16x1x1_S1x16 : S1x16x1x1.ShapeCasts S1x16
  bcast_S1x16_S1x16x1_0_1 : S1x16.BroadcastsInDim S1x16x1 (![0, 1] : Fin 2 → Fin S1x16x1.rank)
  bcast_S1x16x1_S1x16x64_0_1_2 : S1x16x1.BroadcastsInDim S1x16x64 (![0, 1, 2] : Fin 3 → Fin S1x16x64.rank)
  shapeCasts_S1x16x64_S1x1024 : S1x16x64.ShapeCasts S1x1024
  bcast_S_S1024 : S_.BroadcastsInDim S1024 (![] : Fin 0 → Fin S1024.rank)
  bcast_S1024_S1024x1_0 : S1024.BroadcastsInDim S1024x1 (![0] : Fin 1 → Fin S1024x1.rank)
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  transposes_S1024x16_S16x1024_1_0 : S1024x16.Transposes [1, 0] S16x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S256x3072_o0_0_S256x1024 : S256x3072.Slices ![0, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x3072_o0_1024_S256x1024 : S256x3072.Slices ![0, 1024] S256x1024
  slices_S256x3072_o0_2048_S256x1024 : S256x3072.Slices ![0, 2048] S256x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S2x16x2048x64_S2x2048x16x64_0_2_1_3 : S2x16x2048x64.Transposes [0, 2, 1, 3] S2x2048x16x64
  shapeCasts_S2x2048x16x64_S4096x1024 : S2x2048x16x64.ShapeCasts S4096x1024
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S512x1024 : S1x1024.Broadcasts S512x1024
  shapeCasts_S4096x1024_S2x2048x1024 : S4096x1024.ShapeCasts S2x2048x1024
  dot_S256x1024_S1024x3072_S256x3072_1_0_0_1_n_n_wf : DotDims.WF S256x1024 S1024x3072 S256x3072 [1] [0] [0] [1] [] []
  dot_S256x1024_S1024x16_S256x16_1_0_0_1_n_n_wf : DotDims.WF S256x1024 S1024x16 S256x16 [1] [0] [0] [1] [] []
  dot_S256x16_S16x1024_S256x1024_1_0_0_1_n_n_wf : DotDims.WF S256x16 S16x1024 S256x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S2x2048x1024.size a
  hwx0_0 : ∀ i : grid0.Coords, EltTy.bits .f32 = 32 ∨ (Rect.block (s := S2x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S1024x16.size a
  hwx0_5 : ∀ i : grid0.Coords, EltTy.bits .bf16 = 32 ∨ (Rect.block (s := S1024x16) S1024x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1024.size a ≤ S16x1024.size a
  hwx0_6 : ∀ i : grid0.Coords, EltTy.bits .bf16 = 32 ∨ (Rect.block (s := S16x1024) S16x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S2x2048x1024.size a
  hwx0_7 : ∀ i : grid0.Coords, EltTy.bits .bf16 = 32 ∨ (Rect.block (s := S2x2048x1024) S1x256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S2x2048x1024.size a
  hwx0_8 : ∀ i : grid0.Coords, EltTy.bits .bf16 = 32 ∨ (Rect.block (s := S2x2048x1024) S1x256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S2x2048x1024.size a
  hwx0_9 : ∀ i : grid0.Coords, EltTy.bits .bf16 = 32 ∨ (Rect.block (s := S2x2048x1024) S1x256x1024.size (cc0_transform_9 i) (hinb0_9 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x1x512x2048.size a ≤ S1x1x2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x2048x2048.size a ≤ S1x1x2048x2048.size a
  hwx1_3 : ∀ i : grid1.Coords, EltTy.bits .f32 = 32 ∨ (Rect.block (s := S1x1x2048x2048) S1x1x2048x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512x64.size a ≤ S2x16x2048x64.size a
  hwx1_4 : ∀ i : grid1.Coords, EltTy.bits .bf16 = 32 ∨ (Rect.block (s := S2x16x2048x64) S1x1x512x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1024x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S16x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21_2) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v23) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x1x512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1x1x2048x2048 : Shape := ⟨4, ![1, 1, 2048, 2048]⟩
abbrev S3072x1024 : Shape := ⟨2, ![3072, 1024]⟩
abbrev S1024 : Shape := ⟨1, ![1024]⟩
abbrev S1x16x1x1 : Shape := ⟨4, ![1, 16, 1, 1]⟩
abbrev S1024x1024 : Shape := ⟨2, ![1024, 1024]⟩
abbrev S_ : Shape := ⟨0, ![]⟩
abbrev S3072 : Shape := ⟨1, ![3072]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048 : Shape := ⟨3, ![2, 16, 2048]⟩
abbrev S2x16x2048x1 : Shape := ⟨4, ![2, 16, 2048, 1]⟩
abbrev S2x16x2048x2048 : Shape := ⟨4, ![2, 16, 2048, 2048]⟩
abbrev S2x2048x16x64 : Shape := ⟨4, ![2, 2048, 16, 64]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .f32⟩
  | .hbm, ⟨2, _⟩ => ⟨S3072x1024, .f32⟩
  | .hbm, ⟨3, _⟩ => ⟨S1024, .f32⟩
  | .hbm, ⟨4, _⟩ => ⟨S1024, .f32⟩
  | .hbm, ⟨5, _⟩ => ⟨S1x16x1x1, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S3072, .f32⟩
  | .hbm, ⟨11, _⟩ => ⟨S2x2048x3072, .f32⟩
  | .hbm, ⟨12, _⟩ => ⟨S1x1x3072, .f32⟩
  | .hbm, ⟨13, _⟩ => ⟨S2x2048x3072, .f32⟩
  | .hbm, ⟨14, _⟩ => ⟨S2x2048x3072, .f32⟩
  | .hbm, ⟨15, _⟩ => ⟨S2x2048x3x16x64, .f32⟩
  | .hbm, ⟨16, _⟩ => ⟨S3x2x16x2048x64, .f32⟩
  | .hbm, ⟨17, _⟩ => ⟨S1x2x16x2048x64, .f32⟩
  | .hbm, ⟨18, _⟩ => ⟨S2x16x2048x64, .f32⟩
  | .hbm, ⟨19, _⟩ => ⟨S1x2x16x2048x64, .f32⟩
  | .hbm, ⟨20, _⟩ => ⟨S2x16x2048x64, .f32⟩
  | .hbm, ⟨21, _⟩ => ⟨S1x2x16x2048x64, .f32⟩
  | .hbm, ⟨22, _⟩ => ⟨S2x16x2048x64, .f32⟩
  | .hbm, ⟨23, _⟩ => ⟨S_, .f32⟩
  | .hbm, ⟨24, _⟩ => ⟨S1x16x1x1, .f32⟩
  | .hbm, ⟨25, _⟩ => ⟨S1x16x1x1, .f32⟩
  | .hbm, ⟨26, _⟩ => ⟨S1x16x1x1, .f32⟩
  | .hbm, ⟨27, _⟩ => ⟨S2x16x2048x64, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x1, .f32⟩
  | .hbm, ⟨32, _⟩ => ⟨S_, .f32⟩
  | .hbm, ⟨33, _⟩ => ⟨S2x16x2048x1, .f32⟩
  | .hbm, ⟨34, _⟩ => ⟨S2x16x2048x1, .f32⟩
  | .hbm, ⟨35, _⟩ => ⟨S2x16x2048x64, .f32⟩
  | .hbm, ⟨36, _⟩ => ⟨S2x16x2048x64, .f32⟩
  | .hbm, ⟨37, _⟩ => ⟨S2x16x2048x64, .f32⟩
  | .hbm, ⟨38, _⟩ => ⟨S2x16x2048x64, .f32⟩
  | .hbm, ⟨39, _⟩ => ⟨S2x16x2048x64, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x1, .f32⟩
  | .hbm, ⟨44, _⟩ => ⟨S_, .f32⟩
  | .hbm, ⟨45, _⟩ => ⟨S2x16x2048x1, .f32⟩
  | .hbm, ⟨46, _⟩ => ⟨S2x16x2048x1, .f32⟩
  | .hbm, ⟨47, _⟩ => ⟨S2x16x2048x64, .f32⟩
  | .hbm, ⟨48, _⟩ => ⟨S2x16x2048x64, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S2x16x2048, .f32⟩
  | .hbm, ⟨54, _⟩ => ⟨S_, .f32⟩
  | .hbm, ⟨55, _⟩ => ⟨S2x16x2048, .f32⟩
  | .hbm, ⟨56, _⟩ => ⟨S2x16x2048, .f32⟩
  | .hbm, ⟨57, _⟩ => ⟨S2x16x2048x1, .f32⟩
  | .hbm, ⟨58, _⟩ => ⟨S2x16x2048x2048, .f32⟩
  | .hbm, ⟨59, _⟩ => ⟨S2x16x2048x2048, .f32⟩
  | .hbm, ⟨60, _⟩ => ⟨S2x16x2048x2048, .f32⟩
  | .hbm, ⟨61, _⟩ => ⟨S_, .f32⟩
  | .hbm, ⟨62, _⟩ => ⟨S2x16x2048, .f32⟩
  | .hbm, ⟨63, _⟩ => ⟨S2x16x2048x1, .f32⟩
  | .hbm, ⟨64, _⟩ => ⟨S2x16x2048x2048, .f32⟩
  | .hbm, ⟨65, _⟩ => ⟨S2x16x2048x2048, .f32⟩
  | .hbm, ⟨66, _⟩ => ⟨S2x16x2048x64, .f32⟩
  | .hbm, ⟨67, _⟩ => ⟨S2x2048x16x64, .f32⟩
  | .hbm, ⟨68, _⟩ => ⟨S2x2048x1024, .f32⟩
  | .hbm, ⟨69, _⟩ => ⟨S2x2048x1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  concatenates_S1024_S1024_S1024_S3072_d0 : Shape.Concatenates [S1024, S1024, S1024] S3072 0
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S1x16x1x1 : S_.BroadcastsInDim S1x16x1x1 (![] : Fin 0 → Fin S1x16x1x1.rank)
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  bcast_S1x16x1x1_S2x16x2048x64_0_1_2_3 : S1x16x1x1.BroadcastsInDim S2x16x2048x64 (![0, 1, 2, 3] : Fin 4 → Fin S2x16x2048x64.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.RunValue.lean ====
/-
  The idealized kernel's run with its result NAMED: every weakly fair execution terminates, nothing faulting, the
  arguments unchanged, and the result array holds what the last stretch of host operations leaves of the third
  call's output array — the contents obtained by folding @main's stretches and calls from the launch memory.
-/
import proofs.«123132_j13383118095010_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read at the final contents of the fold. -/
theorem run_result : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.Qkv.lean ====
/-
  The first call's fused projection, entry by entry. A block of 256 positions x (1024 lanes each) times the transposed
  weight [1024, 3072] gives, at (r, o), the sum over the 1024 lanes c of x r c · w c o. Columns 0 … 1023 are the queries,
  1024 … 2047 the keys, 2048 … 3071 the values; the query and value columns get their bias row added.
-/
import proofs.«123132_j13383118095010_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Qkv

open Cert.KernelIdeal Cert.KernelIdeal.Gen
open Idealize.ShloMosaic Idealize.ShloMosaic.TcCoe Idealize.ShloMosaic.ValueIdx

theorem lhs0 (j : S256x3072.Idx) (q : dot_S256x1024_S1024x3072_S256x3072_1_0_0_1_n_n.contr.Idx) : (dot_S256x1024_S1024x3072_S256x3072_1_0_0_1_n_n.lhsIdx j q 0).val = (j 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs1 (j : S256x3072.Idx) (q : dot_S256x1024_S1024x3072_S256x3072_1_0_0_1_n_n.contr.Idx) : (dot_S256x1024_S1024x3072_S256x3072_1_0_0_1_n_n.lhsIdx j q 1).val = (q ⟨0, by decide⟩).val :=
  dot_S256x1024_S1024x3072_S256x3072_1_0_0_1_n_n.lhsIdx_val_of_single rfl j q
theorem rhs0 (j : S256x3072.Idx) (q : dot_S256x1024_S1024x3072_S256x3072_1_0_0_1_n_n.contr.Idx) : (dot_S256x1024_S1024x3072_S256x3072_1_0_0_1_n_n.rhsIdx j q 0).val = (q ⟨0, by decide⟩).val :=
  dot_S256x1024_S1024x3072_S256x3072_1_0_0_1_n_n.rhsIdx_val_of_single rfl j q
theorem rhs1 (j : S256x3072.Idx) (q : dot_S256x1024_S1024x3072_S256x3072_1_0_0_1_n_n.contr.Idx) : (dot_S256x1024_S1024x3072_S256x3072_1_0_0_1_n_n.rhsIdx j q 1).val = (j 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The fused product at (r, o): the sum over the 1024 input lanes. -/
theorem fused_apply (v0 : Vec Ideal S1x256x1024 .f32) (v2 : Vec Ideal S1024x3072 .bf16) (r : Fin 256) (o : Fin 3072) :
    k0_pay4 (F := Ideal) v0 v2 (ix2 r o) = ∑ c : Fin 1024, v0 (ix3 (0 : Fin 1) r c) * v2 (ix2 c o) := by
  unfold k0_pay4
  refine (Ideal.matmul_constant_zero_apply (φ₁ := .bf16) (φ₂ := .bf16) dot_S256x1024_S1024x3072_S256x3072_1_0_0_1_n_n none _ _ (ix2 r o)).trans ?_
  rw [← Equiv.sum_comp (contrEquiv1 dot_S256x1024_S1024x3072_S256x3072_1_0_0_1_n_n 1024 rfl rfl).symm]
  refine Finset.sum_congr rfl fun c _ => ?_
  have hk := contrEquiv1_symm_val dot_S256x1024_S1024x3072_S256x3072_1_0_0_1_n_n 1024 rfl rfl c
  have el : dot_S256x1024_S1024x3072_S256x3072_1_0_0_1_n_n.lhsIdx (ix2 r o) ((contrEquiv1 dot_S256x1024_S1024x3072_S256x3072_1_0_0_1_n_n 1024 rfl rfl).symm c) = ix2 r c := funext fun a => Fin.ext (by
    match a with
    | ⟨0, _⟩ => exact lhs0 _ _
    | ⟨1, _⟩ => exact (lhs1 _ _).trans hk)
  have er : dot_S256x1024_S1024x3072_S256x3072_1_0_0_1_n_n.rhsIdx (ix2 r o) ((contrEquiv1 dot_S256x1024_S1024x3072_S256x3072_1_0_0_1_n_n 1024 rfl rfl).symm c) = ix2 c o := funext fun a => Fin.ext (by
    match a with
    | ⟨0, _⟩ => exact (rhs0 _ _).trans hk
    | ⟨1, _⟩ => exact rhs1 _ _)
  rw [el, er]
  refine congrArg₂ (· * ·) ?_ (congrFun (shapeCast_self v2 _) (ix2 c o))
  exact shapeCast_1ab_ab_apply v0 _ r c

/-- The value block the call stores, at (0, r, c): the fused product's column 2048 + c plus the value bias at c. -/
theorem v_apply (v0 : Vec Ideal S1x256x1024 .f32) (v2 : Vec Ideal S1024x3072 .bf16) (v13 : Vec Ideal S1x1024 .f32)
    (r : Fin 256) (c : Fin 1024) (hc : 2048 + c.val < 3072) :
    k0_pay3 (F := Ideal) (k0_pay7 (F := Ideal) v0 v2 v13) (ix3 (0 : Fin 1) r c)
      = (∑ c' : Fin 1024, v0 (ix3 (0 : Fin 1) r c') * v2 (ix2 c' (⟨2048 + c.val, hc⟩ : Fin 3072))) + v13 (ix2 (0 : Fin 1) c) := by
  unfold k0_pay3
  refine (shapeCast_ab_1ab_apply _ shapeCasts_S256x1024_S1x256x1024 (0 : Fin 1) r c).trans ?_
  show k0_pay7 (F := Ideal) v0 v2 v13 (ix2 r c) = _
  unfold k0_pay7
  refine congrArg₂ (· + ·) ?_ ?_
  · refine (slice2_axis1_apply 2048 _ slices_S256x3072_o0_2048_S256x1024 r c (⟨2048 + c.val, hc⟩ : Fin 3072) rfl).trans ?_
    exact fused_apply v0 v2 r _
  · refine (broadcastTo_1b_ab_apply _ broadcasts_S1x1024_S256x1024 r c).trans ?_
    exact congrFun (shapeCast_self v13 _) (ix2 (0 : Fin 1) c)

/-! The two small products: a [256, 1024] block times a [1024, 16] matrix, and a [256, 16] block times a [16, 1024] matrix. -/

theorem toHeads_lhs0 (j : S256x16.Idx) (q : dot_S256x1024_S1024x16_S256x16_1_0_0_1_n_n.contr.Idx) : (dot_S256x1024_S1024x16_S256x16_1_0_0_1_n_n.lhsIdx j q 0).val = (j 0).val := by
  unfold DotDims.lhsIdx
  rw [dif_neg (show ¬(0 : Fin S256x1024.rank) ∈ dot_S256x1024_S1024x16_S256x16_1_0_0_1_n_n.lhsBatch by decide), dif_pos (show (0 : Fin S256x1024.rank) ∈ dot_S256x1024_S1024x16_S256x16_1_0_0_1_n_n.lhsNonContracting by decide)]
  rfl
theorem toHeads_lhs1 (j : S256x16.Idx) (q : dot_S256x1024_S1024x16_S256x16_1_0_0_1_n_n.contr.Idx) : (dot_S256x1024_S1024x16_S256x16_1_0_0_1_n_n.lhsIdx j q 1).val = (q ⟨0, by decide⟩).val :=
  dot_S256x1024_S1024x16_S256x16_1_0_0_1_n_n.lhsIdx_val_of_single rfl j q
theorem toHeads_rhs0 (j : S256x16.Idx) (q : dot_S256x1024_S1024x16_S256x16_1_0_0_1_n_n.contr.Idx) : (dot_S256x1024_S1024x16_S256x16_1_0_0_1_n_n.rhsIdx j q 0).val = (q ⟨0, by decide⟩).val :=
  dot_S256x1024_S1024x16_S256x16_1_0_0_1_n_n.rhsIdx_val_of_single rfl j q
theorem toHeads_rhs1 (j : S256x16.Idx) (q : dot_S256x1024_S1024x16_S256x16_1_0_0_1_n_n.contr.Idx) : (dot_S256x1024_S1024x16_S256x16_1_0_0_1_n_n.rhsIdx j q 1).val = (j 1).val := by
  unfold DotDims.rhsIdx
  rw [dif_neg (show ¬(1 : Fin S1024x16.rank) ∈ dot_S256x1024_S1024x16_S256x16_1_0_0_1_n_n.rhsBatch by decide), dif_pos (show (1 : Fin S1024x16.rank) ∈ dot_S256x1024_S1024x16_S256x16_1_0_0_1_n_n.rhsNonContracting by decide)]
  rfl

theorem toHeads_apply (L : FVec Ideal S256x1024 .bf16) (R : FVec Ideal S1024x16 .bf16) (r : Fin 256) (o : Fin 16) :
    matmul dot_S256x1024_S1024x16_S256x16_1_0_0_1_n_n none L R (constant (F := Ideal) S256x16 .f32 0x00000000#32) (ix2 r o) = ∑ k : Fin 1024, L (ix2 r k) * R (ix2 k o) := by
  refine (Ideal.matmul_constant_zero_apply (φ₁ := .bf16) (φ₂ := .bf16) dot_S256x1024_S1024x16_S256x16_1_0_0_1_n_n none L R (ix2 r o)).trans ?_
  rw [← Equiv.sum_comp (contrEquiv1 dot_S256x1024_S1024x16_S256x16_1_0_0_1_n_n 1024 rfl rfl).symm]
  refine Finset.sum_congr rfl fun k _ => ?_
  have hk := contrEquiv1_symm_val dot_S256x1024_S1024x16_S256x16_1_0_0_1_n_n 1024 rfl rfl k
  have el : dot_S256x1024_S1024x16_S256x16_1_0_0_1_n_n.lhsIdx (ix2 r o) ((contrEquiv1 dot_S256x1024_S1024x16_S256x16_1_0_0_1_n_n 1024 rfl rfl).symm k) = ix2 r k := funext fun a => Fin.ext (by
    match a with
    | ⟨0, _⟩ => exact toHeads_lhs0 _ _
    | ⟨1, _⟩ => exact (toHeads_lhs1 _ _).trans hk)
  have er : dot_S256x1024_S1024x16_S256x16_1_0_0_1_n_n.rhsIdx (ix2 r o) ((contrEquiv1 dot_S256x1024_S1024x16_S256x16_1_0_0_1_n_n 1024 rfl rfl).symm k) = ix2 k o := funext fun a => Fin.ext (by
    match a with
    | ⟨0, _⟩ => exact (toHeads_rhs0 _ _).trans hk
    | ⟨1, _⟩ => exact toHeads_rhs1 _ _)
  rw [el, er]

theorem toLanes_lhs0 (j : S256x1024.Idx) (q : dot_S256x16_S16x1024_S256x1024_1_0_0_1_n_n.contr.Idx) : (dot_S256x16_S16x1024_S256x1024_1_0_0_1_n_n.lhsIdx j q 0).val = (j 0).val := by
  unfold DotDims.lhsIdx
  rw [dif_neg (show ¬(0 : Fin S256x16.rank) ∈ dot_S256x16_S16x1024_S256x1024_1_0_0_1_n_n.lhsBatch by decide), dif_pos (show (0 : Fin S256x16.rank) ∈ dot_S256x16_S16x1024_S256x1024_1_0_0_1_n_n.lhsNonContracting by decide)]
  rfl
theorem toLanes_lhs1 (j : S256x1024.Idx) (q : dot_S256x16_S16x1024_S256x1024_1_0_0_1_n_n.contr.Idx) : (dot_S256x16_S16x1024_S256x1024_1_0_0_1_n_n.lhsIdx j q 1).val = (q ⟨0, by decide⟩).val :=
  dot_S256x16_S16x1024_S256x1024_1_0_0_1_n_n.lhsIdx_val_of_single rfl j q
theorem toLanes_rhs0 (j : S256x1024.Idx) (q : dot_S256x16_S16x1024_S256x1024_1_0_0_1_n_n.contr.Idx) : (dot_S256x16_S16x1024_S256x1024_1_0_0_1_n_n.rhsIdx j q 0).val = (q ⟨0, by decide⟩).val :=
  dot_S256x16_S16x1024_S256x1024_1_0_0_1_n_n.rhsIdx_val_of_single rfl j q
theorem toLanes_rhs1 (j : S256x1024.Idx) (q : dot_S256x16_S16x1024_S256x1024_1_0_0_1_n_n.contr.Idx) : (dot_S256x16_S16x1024_S256x1024_1_0_0_1_n_n.rhsIdx j q 1).val = (j 1).val := by
  unfold DotDims.rhsIdx
  rw [dif_neg (show ¬(1 : Fin S16x1024.rank) ∈ dot_S256x16_S16x1024_S256x1024_1_0_0_1_n_n.rhsBatch by decide), dif_pos (show (1 : Fin S16x1024.rank) ∈ dot_S256x16_S16x1024_S256x1024_1_0_0_1_n_n.rhsNonContracting by decide)]
  rfl

theorem toLanes_apply (L : FVec Ideal S256x16 .bf16) (R : FVec Ideal S16x1024 .bf16) (r : Fin 256) (o : Fin 1024) :
    matmul dot_S256x16_S16x1024_S256x1024_1_0_0_1_n_n none L R (constant (F := Ideal) S256x1024 .f32 0x00000000#32) (ix2 r o) = ∑ k : Fin 16, L (ix2 r k) * R (ix2 k o) := by
  refine (Ideal.matmul_constant_zero_apply (φ₁ := .bf16) (φ₂ := .bf16) dot_S256x16_S16x1024_S256x1024_1_0_0_1_n_n none L R (ix2 r o)).trans ?_
  rw [← Equiv.sum_comp (contrEquiv1 dot_S256x16_S16x1024_S256x1024_1_0_0_1_n_n 16 rfl rfl).symm]
  refine Finset.sum_congr rfl fun k _ => ?_
  have hk := contrEquiv1_symm_val dot_S256x16_S16x1024_S256x1024_1_0_0_1_n_n 16 rfl rfl k
  have el : dot_S256x16_S16x1024_S256x1024_1_0_0_1_n_n.lhsIdx (ix2 r o) ((contrEquiv1 dot_S256x16_S16x1024_S256x1024_1_0_0_1_n_n 16 rfl rfl).symm k) = ix2 r k := funext fun a => Fin.ext (by
    match a with
    | ⟨0, _⟩ => exact toLanes_lhs0 _ _
    | ⟨1, _⟩ => exact (toLanes_lhs1 _ _).trans hk)
  have er : dot_S256x16_S16x1024_S256x1024_1_0_0_1_n_n.rhsIdx (ix2 r o) ((contrEquiv1 dot_S256x16_S16x1024_S256x1024_1_0_0_1_n_n 16 rfl rfl).symm k) = ix2 k o := funext fun a => Fin.ext (by
    match a with
    | ⟨0, _⟩ => exact (toLanes_rhs0 _ _).trans hk
    | ⟨1, _⟩ => exact toLanes_rhs1 _ _)
  rw [el, er]

end Cert.KernelIdeal.Qkv

end
-- ==== Proof.LibHeadMembership.lean ====
/-
  General facts about products with a 0/1 head-membership matrix, on the extended reals (any commutative semiring with
  x · 0 = 0 would do). Lanes 0 … H·D − 1 are grouped into H heads of D consecutive lanes: lane c belongs to head c / D.

    (a) ∑ over lanes c of x c · [c / D = h]  =  ∑ over the D lanes d of head h of x (h·D + d):
        multiplying by the membership column and summing is summing over the head's lanes.
    (b) ∑ over heads h of y h · [c / D = h]  =  y (c / D):
        multiplying by the membership row and summing selects the lane's head.
-/
import Mathlib.Algebra.BigOperators.Fin
import Mathlib.Data.EReal.Basic
import Mathlib.Tactic

noncomputable section

namespace Cert.Lib.HeadMembership

open Finset

variable {H D : ℕ}

/-- The membership indicator of lane c in head h. -/
def mem (D : ℕ) (c h : ℕ) : EReal := if c / D = h then 1 else 0

/-- A lane's head is one of the H heads. -/
theorem head_lt (c : Fin (H * D)) : c.val / D < H :=
  Nat.div_lt_of_lt_mul (Nat.lt_of_lt_of_eq c.isLt (Nat.mul_comm H D))

/-- (b): the membership row selects the lane's head. -/
theorem sum_heads_select (y : Fin H → EReal) (c : Fin (H * D)) :
    ∑ h : Fin H, y h * mem D c.val h.val = y ⟨c.val / D, head_lt c⟩ := by
  rw [Finset.sum_eq_single (⟨c.val / D, head_lt c⟩ : Fin H)]
  · simp [mem]
  · intro h _ hne
    have : ¬ c.val / D = h.val := fun e => hne (Fin.ext e.symm)
    simp [mem, this]
  · intro habs; exact absurd (Finset.mem_univ _) habs

/-- The head of lane d + D·h is h. -/
theorem head_of_pair (hD : 0 < D) (h : Fin H) (d : Fin D) : (finProdFinEquiv (h, d) : Fin (H * D)).val / D = h.val := by
  show (d.val + D * h.val) / D = h.val
  rw [Nat.add_mul_div_left _ _ hD, Nat.div_eq_of_lt d.isLt, Nat.zero_add]

/-- (a): the membership column sums the head's lanes. -/
theorem sum_lanes_of_head (hD : 0 < D) (x : Fin (H * D) → EReal) (h : Fin H) :
    ∑ c : Fin (H * D), x c * mem D c.val h.val = ∑ d : Fin D, x (finProdFinEquiv (h, d)) := by
  rw [← finProdFinEquiv.sum_comp (fun c : Fin (H * D) => x c * mem D c.val h.val), Fintype.sum_prod_type]
  rw [Finset.sum_eq_single h]
  · refine Finset.sum_congr rfl fun d _ => ?_
    show x (finProdFinEquiv (h, d)) * mem D (finProdFinEquiv (h, d) : Fin (H * D)).val h.val = _
    unfold mem
    rw [if_pos (head_of_pair hD h d), mul_one]
  · intro h' _ hne
    refine Finset.sum_eq_zero fun d _ => ?_
    have hne' : ¬ (finProdFinEquiv (h', d) : Fin (H * D)).val / D = h.val := by
      rw [head_of_pair hD h' d]; exact fun e => hne (Fin.ext e)
    show x (finProdFinEquiv (h', d)) * mem D (finProdFinEquiv (h', d) : Fin (H * D)).val h.val = 0
    unfold mem
    rw [if_neg hne', mul_zero]
  · intro habs; exact absurd (Finset.mem_univ _) habs

end Cert.Lib.HeadMembership

end
-- ==== Proof.LibFlooredNorm.lean ====
/-
  A general fact about normalising by a floored norm, on the extended reals.

  For a real ε > 0 and ANY extended real s,
      rsqrt (max s ε²) = (max (√s) ε)⁻¹,
  where √ and rsqrt are the ideal square root and reciprocal square root (−∞ on negative reals, √ ⊤ = ⊤, rsqrt ⊤ = 0,
  rsqrt 0 = ⊤). So dividing by the norm floored at ε is multiplying by the reciprocal square root of the squared norm
  floored at ε²: the square root is monotone, so flooring commutes with it, and at s = ⊤ both sides are 0.
  No finiteness of s is needed. (With any floor other than ε² under the rsqrt the two differ for 0 ≤ s below both floors.)
-/
import Idealize.ShloMosaic.PureOps.Ideal

noncomputable section

namespace Cert.Lib.FlooredNorm

open Idealize.ShloMosaic

/-- rsqrt of the squared norm floored at ε² is the inverse of the norm floored at ε. -/
theorem rsqrt_max_sq (ε : ℝ) (hε : 0 < ε) (s : EReal) :
    Ideal.rsqrt (max s ((ε ^ 2 : ℝ) : EReal)) = (max (Ideal.sqrt s) (ε : EReal))⁻¹ := by
  have hε2 : (0 : ℝ) < ε ^ 2 := by positivity
  have hsq : Real.sqrt (ε ^ 2) = ε := Real.sqrt_sq hε.le
  have hfloor : Ideal.rsqrt ((ε ^ 2 : ℝ) : EReal) = ((ε : EReal))⁻¹ := by
    rw [Ideal.rsqrt_coe, if_neg (not_lt.mpr hε2.le), if_neg hε2.ne', hsq, EReal.coe_inv]
  induction s using EReal.rec with
  | bot =>
    rw [max_eq_right bot_le, hfloor]
    show _ = (max (⊥ : EReal) (ε : EReal))⁻¹
    rw [max_eq_right bot_le]
  | top =>
    rw [max_eq_left le_top, Ideal.rsqrt_top, Ideal.sqrt_top, max_eq_left le_top, EReal.inv_top]
  | coe r =>
    by_cases hr : r < 0
    · have h1 : ((r : ℝ) : EReal) ≤ ((ε ^ 2 : ℝ) : EReal) := EReal.coe_le_coe_iff.mpr (hr.le.trans hε2.le)
      rw [max_eq_right h1, hfloor, Ideal.sqrt_coe, if_pos hr, max_eq_right bot_le]
    · have hr0 : 0 ≤ r := not_lt.mp hr
      rw [Ideal.sqrt_coe, if_neg hr]
      by_cases hle : r ≤ ε ^ 2
      · have h1 : ((r : ℝ) : EReal) ≤ ((ε ^ 2 : ℝ) : EReal) := EReal.coe_le_coe_iff.mpr hle
        have h2 : ((Real.sqrt r : ℝ) : EReal) ≤ (ε : EReal) := EReal.coe_le_coe_iff.mpr (by
          have := Real.sqrt_le_sqrt hle; rwa [hsq] at this)
        rw [max_eq_right h1, hfloor, max_eq_right h2]
      · have hgt : ε ^ 2 < r := not_le.mp hle
        have h1 : ((ε ^ 2 : ℝ) : EReal) ≤ ((r : ℝ) : EReal) := EReal.coe_le_coe_iff.mpr hgt.le
        have h2 : (ε : EReal) ≤ ((Real.sqrt r : ℝ) : EReal) := EReal.coe_le_coe_iff.mpr (by
          have := Real.sqrt_le_sqrt hgt.le; rwa [hsq] at this)
        have hrpos : 0 < r := hε2.trans hgt
        rw [max_eq_left h1, max_eq_left h2, Ideal.rsqrt_coe, if_neg hr, if_neg hrpos.ne', EReal.coe_inv]

/-- The floored norm is never zero. -/
theorem max_sqrt_ne_zero (ε : ℝ) (hε : 0 < ε) (s : EReal) : max (Ideal.sqrt s) (ε : EReal) ≠ 0 := by
  have h : (0 : EReal) < max (Ideal.sqrt s) (ε : EReal) := lt_of_lt_of_le (EReal.coe_pos.mpr hε) (le_max_right _ _)
  exact h.ne'

/-- Dividing by the norm floored at ε is multiplying by rsqrt of the squared norm floored at ε². -/
theorem div_max_sqrt (ε : ℝ) (hε : 0 < ε) (q s : EReal) :
    Ideal.div q (max (Ideal.sqrt s) (ε : EReal)) = q * Ideal.rsqrt (max s ((ε ^ 2 : ℝ) : EReal)) := by
  rw [rsqrt_max_sq ε hε s, Ideal.div, if_neg (max_sqrt_ne_zero ε hε s)]

end Cert.Lib.FlooredNorm

end
-- ==== Proof.KeyNorm.lean ====
/-
  The per-head normalisation in the first call, entry by entry. With E the 0/1 matrix whose (c, h) entry says that lane c
  belongs to head h = c / 64, a [256, 1024] block X times E is, at (r, h), the sum of X over head h's 64 lanes; a
  [256, 16] block Y times Eᵀ is, at (r, c), Y at lane c's head. So squaring, multiplying by E, flooring at ε², taking the
  reciprocal square root and multiplying by Eᵀ gives every lane 1 / max (‖its head's 64 entries‖₂, ε).
-/
import proofs.«123132_j13383118095010_2_alg».proof.Proof.Qkv
import proofs.«123132_j13383118095010_2_alg».proof.Proof.LibHeadMembership
import proofs.«123132_j13383118095010_2_alg».proof.Proof.LibFlooredNorm

noncomputable section

namespace Cert.KernelIdeal.KeyNorm

open Cert.KernelIdeal Cert.KernelIdeal.Gen Cert.Lib.HeadMembership
open Idealize.ShloMosaic Idealize.ShloMosaic.TcCoe Idealize.ShloMosaic.ValueIdx

/-- Lane d of head h, as one of the 1024 lanes. -/
def lane (h : Fin 16) (d : Fin 64) : Fin 1024 := ⟨d.val + 64 * h.val, by have := d.isLt; have := h.isLt; omega⟩

/-- The head of a lane, as one of the 16 heads. -/
def head (c : Fin 1024) : Fin 16 := ⟨c.val / 64, by have := c.isLt; omega⟩

/-- A block times the membership column, at (r, h): the sum over head h's 64 lanes. -/
theorem toHeads_mem (X : FVec Ideal S256x1024 .bf16) (E : FVec Ideal S1024x16 .bf16)
    (hE : ∀ (c : Fin 1024) (h : Fin 16), E (ix2 c h) = mem 64 c.val h.val) (r : Fin 256) (h : Fin 16) :
    matmul dot_S256x1024_S1024x16_S256x16_1_0_0_1_n_n none X E (constant (F := Ideal) S256x16 .f32 0x00000000#32) (ix2 r h) = ∑ d : Fin 64, X (ix2 r (lane h d)) := by
  refine (Qkv.toHeads_apply X E r h).trans ?_
  have h1 : ∀ c : Fin 1024, X (ix2 r c) * E (ix2 c h) = (fun c' : Fin (16 * 64) => X (ix2 r c')) c * mem 64 c.val h.val := fun c => by rw [hE c h]
  rw [Finset.sum_congr rfl fun c _ => h1 c]
  exact sum_lanes_of_head (H := 16) (D := 64) (by norm_num) (fun c' : Fin (16 * 64) => X (ix2 r c')) h

/-- A [256, 16] block times the membership row, at (r, c): the block at lane c's head. -/
theorem toLanes_mem (Y : FVec Ideal S256x16 .bf16) (ET : FVec Ideal S16x1024 .bf16)
    (hET : ∀ (h : Fin 16) (c : Fin 1024), ET (ix2 h c) = mem 64 c.val h.val) (r : Fin 256) (c : Fin 1024) :
    matmul dot_S256x16_S16x1024_S256x1024_1_0_0_1_n_n none Y ET (constant (F := Ideal) S256x1024 .f32 0x00000000#32) (ix2 r c) = Y (ix2 r (head c)) := by
  refine (Qkv.toLanes_apply Y ET r c).trans ?_
  rw [Finset.sum_congr rfl fun h _ => by rw [hET h c]]
  exact sum_heads_select (H := 16) (D := 64) (fun h => Y (ix2 r h)) c

/-- The squared-norm floor the idealized kernel names. -/
def epsSq : EReal := ((5316911940649 / 5316911983139663491615228241121378304 : ℝ) : EReal)

/-- The named constant denotes that floor. -/
theorem named_eps : Named.named (F := Ideal) Cert.KernelIdeal.κ "eps_sq" (φ := .f32) 0x179ABE15#32 = epsSq :=
  IdealRules.named_const.ideal_named_scalar _ _ _ _ rfl

/-- One lane's reciprocal floored norm from a [256, 1024] block K: square, sum per head, floor, rsqrt, spread to lanes. -/
theorem invNorm_apply (K : FVec Ideal S256x1024 .f32) (E : FVec Ideal S1024x16 .bf16) (ET : FVec Ideal S16x1024 .bf16)
    (hE : ∀ (c : Fin 1024) (h : Fin 16), E (ix2 c h) = mem 64 c.val h.val)
    (hET : ∀ (h : Fin 16) (c : Fin 1024), ET (ix2 h c) = mem 64 c.val h.val) (r : Fin 256) (c : Fin 1024) :
    matmul dot_S256x16_S16x1024_S256x1024_1_0_0_1_n_n none
        (truncf .bf16 (rsqrt (maximumf
          (matmul dot_S256x1024_S1024x16_S256x16_1_0_0_1_n_n none (truncf .bf16 (mulf K K) bitsLt_bf16_f32) E (constant (F := Ideal) S256x16 .f32 0x00000000#32))
          (broadcast S256x16 (Named.named (F := Ideal) Cert.KernelIdeal.κ "eps_sq" (φ := .f32) 0x179ABE15#32)))) bitsLt_bf16_f32)
        ET (constant (F := Ideal) S256x1024 .f32 0x00000000#32) (ix2 r c)
      = Ideal.rsqrt (max (∑ d : Fin 64, K (ix2 r (lane (head c) d)) * K (ix2 r (lane (head c) d))) epsSq) := by
  refine (toLanes_mem _ ET hET r c).trans ?_
  show Ideal.rsqrt (max (matmul dot_S256x1024_S1024x16_S256x16_1_0_0_1_n_n none (truncf .bf16 (mulf K K) bitsLt_bf16_f32) E (constant (F := Ideal) S256x16 .f32 0x00000000#32) (ix2 r (head c)))
      (Named.named (F := Ideal) Cert.KernelIdeal.κ "eps_sq" (φ := .f32) 0x179ABE15#32)) = _
  rw [named_eps]
  refine congrArg (fun s => Ideal.rsqrt (max s epsSq)) ?_
  exact toHeads_mem _ E hE r (head c)

end Cert.KernelIdeal.KeyNorm

end
-- ==== Proof.Spec.lean ====
/-
  THE SPECIFICATION both programs are proved equal to: the attention block, entry by entry, as a function of the eight argument
  arrays x [2, 2048, 1024], attn_bias [1, 1, 2048, 2048], W_qkv [3072, 1024], q_bias [1024], v_bias [1024], scale_mul [1, 16, 1, 1],
  W_proj [1024, 1024], b_proj [1024]. Lane c of the 1024 belongs to head c / 64 and is lane c mod 64 of that head.

    q b l c = ∑ c', x b l c' · W c c' + q_bias c,   k b l c = ∑ c', x b l c' · W (1024 + c) c',   v b l c = ∑ c', x b l c' · W (2048 + c) c' + v_bias c
    nrm y c = y c · rsqrt (max (∑ over the 64 lanes of c's head of y², ε²))        (= y c / max (‖head‖₂, ε), ε = 2305843 / 2^61)
    q̂ b h l d = nrm (q b l) (lane h d) · exp (min (scale_mul h, log 100 as its single-precision word)),   k̂ = nrm (k b l) (lane h d),   v̂ = v b l (lane h d)
    s l m = ∑ d, q̂ b h l d · k̂ b h m d + attn_bias l m;   e l m = exp (s l m − max over m of s l m);   a b h l d = ∑ m, (e l m / ∑ m' e l m') · v̂ b h m d
    out b l o = ∑ c, a b (c / 64) l (c mod 64) · W_proj o c + b_proj o.
-/
import proofs.«123132_j13383118095010_2_alg».proof.Proof.KeyNorm

noncomputable section

namespace Cert.Spec

open Cert.KernelIdeal Cert.KernelIdeal.KeyNorm
open Idealize.ShloMosaic Idealize.ShloMosaic.ValueIdx

/-- Lane c's position inside its head. -/
def sub (c : Fin 1024) : Fin 64 := ⟨c.val % 64, Nat.mod_lt _ (by norm_num)⟩

theorem lane_head_sub (c : Fin 1024) : lane (head c) (sub c) = c :=
  Fin.ext (by show c.val % 64 + 64 * (c.val / 64) = c.val; omega)
theorem head_lane (h : Fin 16) (d : Fin 64) : head (lane h d) = h :=
  Fin.ext (by show (d.val + 64 * h.val) / 64 = h.val; have := d.isLt; omega)
theorem sub_lane (h : Fin 16) (d : Fin 64) : sub (lane h d) = d :=
  Fin.ext (by show (d.val + 64 * h.val) % 64 = d.val; have := d.isLt; omega)

/-! The three projections of one position, per lane. -/

def qraw (X : S2x2048x1024.Idx → EReal) (W : S3072x1024.Idx → EReal) (qb : S1024.Idx → EReal) (b : Fin 2) (l : Fin 2048) (c : Fin 1024) : EReal :=
  (∑ c' : Fin 1024, X (ix3 b l c') * W (ix2 (⟨0 + c.val, by have := c.isLt; omega⟩ : Fin 3072) c')) + qb (ix1 c)

def kraw (X : S2x2048x1024.Idx → EReal) (W : S3072x1024.Idx → EReal) (b : Fin 2) (l : Fin 2048) (c : Fin 1024) : EReal :=
  ∑ c' : Fin 1024, X (ix3 b l c') * W (ix2 (⟨1024 + c.val, by have := c.isLt; omega⟩ : Fin 3072) c')

def vraw (X : S2x2048x1024.Idx → EReal) (W : S3072x1024.Idx → EReal) (vb : S1024.Idx → EReal) (b : Fin 2) (l : Fin 2048) (c : Fin 1024) : EReal :=
  (∑ c' : Fin 1024, X (ix3 b l c') * W (ix2 (⟨2048 + c.val, by have := c.isLt; omega⟩ : Fin 3072) c')) + vb (ix1 c)

/-- An entry times the reciprocal of its head's norm floored at ε, written as rsqrt of the squared norm floored at ε². -/
def nrm (Y : Fin 1024 → EReal) (c : Fin 1024) : EReal :=
  Y c * Ideal.rsqrt (max (∑ d : Fin 64, Y (lane (head c) d) * Y (lane (head c) d)) epsSq)

/-- The per-head scale: exp of scale_mul clamped at the word of log 100. -/
def smul (s5 : S1x16x1x1.Idx → EReal) (h : Fin 16) : EReal :=
  Ideal.exp (min (s5 (ix4 (0 : Fin 1) h (0 : Fin 1) (0 : Fin 1))) (Ideal.ofBits .f32 0x40935D8E#32))

def qhat (X : S2x2048x1024.Idx → EReal) (W : S3072x1024.Idx → EReal) (qb : S1024.Idx → EReal) (s5 : S1x16x1x1.Idx → EReal)
    (b : Fin 2) (h : Fin 16) (l : Fin 2048) (d : Fin 64) : EReal :=
  nrm (qraw X W qb b l) (lane h d) * smul s5 h

def khat (X : S2x2048x1024.Idx → EReal) (W : S3072x1024.Idx → EReal) (b : Fin 2) (h : Fin 16) (l : Fin 2048) (d : Fin 64) : EReal :=
  nrm (kraw X W b l) (lane h d)

def vhat (X : S2x2048x1024.Idx → EReal) (W : S3072x1024.Idx → EReal) (vb : S1024.Idx → EReal) (b : Fin 2) (h : Fin 16) (l : Fin 2048) (d : Fin 64) : EReal :=
  vraw X W vb b l (lane h d)

/-! Attention over any three [2, 16, 2048, 64] tensors and the bias. -/

abbrev T4 := Fin 2 → Fin 16 → Fin 2048 → Fin 64 → EReal

def sc (Q K : T4) (B : S1x1x2048x2048.Idx → EReal) (b : Fin 2) (h : Fin 16) (l mm : Fin 2048) : EReal :=
  (∑ d : Fin 64, Q b h l d * K b h mm d) + B (ix4 (0 : Fin 1) (0 : Fin 1) l mm)

def tp (Q K : T4) (B : S1x1x2048x2048.Idx → EReal) (b : Fin 2) (h : Fin 16) (l : Fin 2048) : EReal :=
  (Finset.univ : Finset (Fin 2048)).fold max (Ideal.ofBits .f32 0xFF800000#32) (fun mm => sc Q K B b h l mm)

def ex (Q K : T4) (B : S1x1x2048x2048.Idx → EReal) (b : Fin 2) (h : Fin 16) (l mm : Fin 2048) : EReal :=
  Ideal.exp (sc Q K B b h l mm - tp Q K B b h l)

def zs (Q K : T4) (B : S1x1x2048x2048.Idx → EReal) (b : Fin 2) (h : Fin 16) (l : Fin 2048) : EReal :=
  ∑ mm : Fin 2048, ex Q K B b h l mm

/-- softmax (Q Kᵀ + B) V at (b, h, l, d). -/
def att (Q K Vv : T4) (B : S1x1x2048x2048.Idx → EReal) : T4 :=
  fun b h l d => ∑ mm : Fin 2048, Ideal.div (ex Q K B b h l mm) (zs Q K B b h l) * Vv b h mm d

/-- The output projection of a [2, 16, 2048, 64] tensor A: heads re-joined into 1024 lanes, times W_projᵀ, plus b_proj. -/
def outOf (A : T4) (Wp : S1024x1024.Idx → EReal) (bp : S1024.Idx → EReal) (b : Fin 2) (l : Fin 2048) (o : Fin 1024) : EReal :=
  (∑ c : Fin 1024, A b (head c) l (sub c) * Wp (ix2 o c)) + bp (ix1 o)

/-- THE RESULT at (b, l, o), from the eight arguments. -/
def out (X : S2x2048x1024.Idx → EReal) (B : S1x1x2048x2048.Idx → EReal) (W : S3072x1024.Idx → EReal) (qb vb : S1024.Idx → EReal)
    (s5 : S1x16x1x1.Idx → EReal) (Wp : S1024x1024.Idx → EReal) (bp : S1024.Idx → EReal) (b : Fin 2) (l : Fin 2048) (o : Fin 1024) : EReal :=
  outOf (att (qhat X W qb s5) (khat X W) (vhat X W vb) B) Wp bp b l o

/-- The result array. -/
def result (X : S2x2048x1024.Idx → EReal) (B : S1x1x2048x2048.Idx → EReal) (W : S3072x1024.Idx → EReal) (qb vb : S1024.Idx → EReal)
    (s5 : S1x16x1x1.Idx → EReal) (Wp : S1024x1024.Idx → EReal) (bp : S1024.Idx → EReal) : S2x2048x1024.Idx → EReal :=
  fun i => out X B W qb vb s5 Wp bp (i 0) (i 1) (i 2)

end Cert.Spec

end
-- ==== Proof.Relay.lean ====
/-
  The three re-layings between the calls, read at an index. Lane c of 1024 is lane (c mod 64) of head (c / 64); row R of 4096
  is position (R mod 2048) of batch (R / 2048).
    • [2, 2048, 1024] split into heads and the head axis moved in front of the positions: entry (b, h, l, d) is the source's (b, l, d + 64·h);
    • [2, 16, 2048, 64] with the head axis moved back behind the positions and batch × position merged: entry (2048·b + l, c) is the
      source's (b, c / 64, l, c mod 64);
    • [4096, 1024] viewed as [2, 2048, 1024]: entry (b, l, o) is the source's (2048·b + l, o).
-/
import proofs.«123132_j13383118095010_2_alg».proof.Proof.Spec
import Idealize.ShloMosaic.Lib.ValueIdx
import Idealize.ShloMosaic.Lib.Pipeline.Value

noncomputable section

namespace Cert.KernelIdeal.Relay

open Cert.KernelIdeal Cert.KernelIdeal.KeyNorm Cert.Spec
open Idealize.ShloMosaic Idealize.ShloMosaic.TcCoe Idealize.ShloMosaic.ValueIdx

/-- Row 2048·b + l of the 4096. -/
def row (b : Fin 2) (l : Fin 2048) : Fin 4096 := ⟨2048 * b.val + l.val, by have := b.isLt; have := l.isLt; omega⟩

/-- Heads split off the lanes and moved in front of the positions. -/
theorem toHeads_apply {α : Type} (X : S2x2048x1024.Idx → α)
    (hs : S2x2048x1024.ShapeCasts S2x2048x16x64) (ht : S2x2048x16x64.Transposes [0, 2, 1, 3] S2x16x2048x64)
    (b : Fin 2) (h : Fin 16) (l : Fin 2048) (d : Fin 64) :
    transpose S2x16x2048x64 [0, 2, 1, 3] (shapeCast S2x2048x16x64 X hs) ht (ix4 b h l d) = X (ix3 b l (lane h d)) := by
  refine (transpose_apply _ _ ht (ix4 b h l d) (ix4 b l h d : S2x2048x16x64.Idx) (fun a => by
    match a with
    | ⟨0, _⟩ => rfl
    | ⟨1, _⟩ => rfl
    | ⟨2, _⟩ => rfl
    | ⟨3, _⟩ => rfl)).trans ?_
  refine shapeCast_apply X hs (ix4 b l h d) (ix3 b l (lane h d)) ?_
  rw [Shape.rowMajor_val_three, Shape.rowMajor_val_four]
  show (b.val * 2048 + l.val) * 1024 + (d.val + 64 * h.val) = ((b.val * 2048 + l.val) * 16 + h.val) * 64 + d.val
  omega

/-- Heads moved back behind the positions, then batch × position merged into 4096 rows of 1024 lanes. -/
theorem toRows_apply {α : Type} (A : S2x16x2048x64.Idx → α)
    (ht : S2x16x2048x64.Transposes [0, 2, 1, 3] S2x2048x16x64) (hs : S2x2048x16x64.ShapeCasts S4096x1024)
    (b : Fin 2) (l : Fin 2048) (c : Fin 1024) :
    shapeCast S4096x1024 (transpose S2x2048x16x64 [0, 2, 1, 3] A ht) hs (ix2 (row b l) c) = A (ix4 b (head c) l (sub c)) := by
  refine (shapeCast_apply _ hs (ix2 (row b l) c) (ix4 b l (head c) (sub c) : S2x2048x16x64.Idx) ?_).trans ?_
  · rw [Shape.rowMajor_val_four, Shape.rowMajor_val_two]
    show ((b.val * 2048 + l.val) * 16 + c.val / 64) * 64 + c.val % 64 = (2048 * b.val + l.val) * 1024 + c.val
    omega
  · exact transpose_apply _ A ht (ix4 b l (head c) (sub c)) (ix4 b (head c) l (sub c) : S2x16x2048x64.Idx) (fun a => by
      match a with
      | ⟨0, _⟩ => rfl
      | ⟨1, _⟩ => rfl
      | ⟨2, _⟩ => rfl
      | ⟨3, _⟩ => rfl)

/-- The 4096 rows viewed as 2 batches of 2048 positions. -/
theorem toBatches_apply {α : Type} (R : S4096x1024.Idx → α) (hs : S4096x1024.ShapeCasts S2x2048x1024)
    (b : Fin 2) (l : Fin 2048) (o : Fin 1024) :
    shapeCast S2x2048x1024 R hs (ix3 b l o) = R (ix2 (row b l) o) := by
  refine shapeCast_apply R hs (ix3 b l o) (ix2 (row b l) o) ?_
  rw [Shape.rowMajor_val_two, Shape.rowMajor_val_three]
  show (2048 * b.val + l.val) * 1024 + o.val = (b.val * 2048 + l.val) * 1024 + o.val
  omega

end Cert.KernelIdeal.Relay

end
-- ==== Proof.AttnRun.lean ====
/-
  What one point of the attention call leaves in its output block: the block of attention computed from the point's query,
  key and value blocks and from the 512 rows of the bias that start at row 512 · (the point's query-tile coordinate).
-/
import proofs.«123132_j13383118095010_2_alg».proof.Proof.Gen.KernelIdeal.Frame
import Idealize.ShloMosaic.Lib.Pipeline.Value

set_option maxRecDepth 16384

noncomputable section

namespace Cert.KernelIdeal.AttnRun

open Cert.KernelIdeal Cert.KernelIdeal.Gen
open Idealize.ShloMosaic Idealize.ShloMosaic.TcCoe Idealize.ShloMosaic.Tactic

theorem hz4 : (![0, 0, 0, 0] : Fin 4 → Nat) = fun _ => 0 := funext fun a => by fin_cases a <;> rfl

/-- The run's one store is the whole block, its payload computed from the four loads. -/
theorem out_eq (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x2048x2048 .f32) (harg6 : arg6.IsWhole) (arg7 : Memref sig .tc .vmem S1x1x512x64 .bf16) (harg7 : arg7.IsWhole)
    (x0 : Vec Ideal S1x1x512x64 .bf16) (x1 : Vec Ideal S1x1x2048x64 .bf16) (x2 : Vec Ideal S1x1x2048x64 .bf16) (x3 : Vec Ideal S1x1x2048x2048 .f32) :
    out1_A_4 (F := Ideal) c i arg3 harg3 arg4 harg4 arg5 harg5 arg6 harg6 arg7 harg7 x0 x1 x2 x3
      = k1_pay1 (F := Ideal) x0 x1 x2 (View.ld x3 (Rect.unit (s := S1x1x2048x2048) (k1_off1 i) S1x1x512x2048.size (k1_off1_inb i))) := by
  unfold out1_A_4
  rw [View.read_writes_eq_canon _ _ _ (cover1_A_4 (F := Ideal) c i arg3 harg3 arg4 harg4 arg5 harg5 arg6 harg6 arg7 harg7 x0 x1 x2 x3)]
  unfold kernelRun1_A
  dsimp only
  rw [View.canon_unit_zero hz4]
  simp only [View.readAt_eq_ld, harg3.read_unread, harg4.read_unread, harg5.read_unread, harg6.read_unread,
    View.ld_unit_zero (S := S1x1x512x64) hz4, View.ld_unit_zero (S := S1x1x2048x64) hz4]

end Cert.KernelIdeal.AttnRun

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.Attn.lean ====
/-
  One block of attention, entry by entry. For 512 query rows q (64 lanes each), 2048 key rows k and value rows v, and a
  [512, 2048] bias block:
    score r m = (∑ over the 64 lanes d of q r d · k m d) + bias r m
    rowMax r  = the maximum over the 2048 keys m of score r m, taken from −∞
    expo r m  = exp (score r m − rowMax r),     rowSum r = ∑ over m of expo r m
    out r d   = ∑ over m of (expo r m / rowSum r) · v m d.
-/
import proofs.«123132_j13383118095010_2_alg».proof.Proof.Gen.KernelIdeal.Skeleton
import proofs.«123132_j13383118095010_2_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Attn

open Cert.KernelIdeal Cert.KernelIdeal.Gen
open Idealize.ShloMosaic Idealize.ShloMosaic.TcCoe Idealize.ShloMosaic.ValueIdx

/-! Query times key: the operand indices at output (r, m) and lane d are (r, d) and (m, d). -/

theorem qk_lhs0 (j : S512x2048.Idx) (q : dot_S512x64_S2048x64_S512x2048_1_1_0_0_n_n.contr.Idx) : (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs1 (j : S512x2048.Idx) (q : dot_S512x64_S2048x64_S512x2048_1_1_0_0_n_n.contr.Idx) : (dot_S512x64_S2048x64_S512x2048_1_1_0_0_n_n.lhsIdx j q 1).val = (q ⟨0, by decide⟩).val :=
  dot_S512x64_S2048x64_S512x2048_1_1_0_0_n_n.lhsIdx_val_of_single rfl j q
theorem qk_rhs0 (j : S512x2048.Idx) (q : dot_S512x64_S2048x64_S512x2048_1_1_0_0_n_n.contr.Idx) : (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs1 (j : S512x2048.Idx) (q : dot_S512x64_S2048x64_S512x2048_1_1_0_0_n_n.contr.Idx) : (dot_S512x64_S2048x64_S512x2048_1_1_0_0_n_n.rhsIdx j q 1).val = (q ⟨0, by decide⟩).val :=
  dot_S512x64_S2048x64_S512x2048_1_1_0_0_n_n.rhsIdx_val_of_single rfl j q

/-- The query–key product at (r, m): the sum over the 64 lanes. -/
theorem qk_apply (Q : FVec Ideal S512x64 .bf16) (K : FVec Ideal S2048x64 .bf16) (r : Fin 512) (mm : Fin 2048) :
    matmul dot_S512x64_S2048x64_S512x2048_1_1_0_0_n_n none Q K (constant S512x2048 .f32 0x00000000#32) (ix2 r mm) = ∑ d : Fin 64, Q (ix2 r d) * K (ix2 mm d) := by
  refine (Ideal.matmul_constant_zero_apply (φ₁ := .bf16) (φ₂ := .bf16) dot_S512x64_S2048x64_S512x2048_1_1_0_0_n_n none Q K (ix2 r mm)).trans ?_
  rw [← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r mm) ((contrEquiv1 dot_S512x64_S2048x64_S512x2048_1_1_0_0_n_n 64 rfl rfl).symm d) = ix2 r d := funext fun a => Fin.ext (by
    match a with
    | ⟨0, _⟩ => exact qk_lhs0 _ _
    | ⟨1, _⟩ => exact (qk_lhs1 _ _).trans hk)
  have er : dot_S512x64_S2048x64_S512x2048_1_1_0_0_n_n.rhsIdx (ix2 r mm) ((contrEquiv1 dot_S512x64_S2048x64_S512x2048_1_1_0_0_n_n 64 rfl rfl).symm d) = ix2 mm d := funext fun a => Fin.ext (by
    match a with
    | ⟨0, _⟩ => exact qk_rhs0 _ _
    | ⟨1, _⟩ => exact (qk_rhs1 _ _).trans hk)
  rw [el, er]

/-! Probabilities times values: the operand indices at output (r, d) and key m are (r, m) and (m, d). -/

theorem pv_lhs0 (j : S512x64.Idx) (q : dot_S512x2048_S2048x64_S512x64_1_0_0_1_n_n.contr.Idx) : (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (j : S512x64.Idx) (q : dot_S512x2048_S2048x64_S512x64_1_0_0_1_n_n.contr.Idx) : (dot_S512x2048_S2048x64_S512x64_1_0_0_1_n_n.lhsIdx j q 1).val = (q ⟨0, by decide⟩).val :=
  dot_S512x2048_S2048x64_S512x64_1_0_0_1_n_n.lhsIdx_val_of_single rfl j q
theorem pv_rhs0 (j : S512x64.Idx) (q : dot_S512x2048_S2048x64_S512x64_1_0_0_1_n_n.contr.Idx) : (dot_S512x2048_S2048x64_S512x64_1_0_0_1_n_n.rhsIdx j q 0).val = (q ⟨0, by decide⟩).val :=
  dot_S512x2048_S2048x64_S512x64_1_0_0_1_n_n.rhsIdx_val_of_single rfl j q
theorem pv_rhs1 (j : S512x64.Idx) (q : dot_S512x2048_S2048x64_S512x64_1_0_0_1_n_n.contr.Idx) : (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The probability–value product at (r, d): the sum over the 2048 keys. -/
theorem pv_apply (P : FVec Ideal S512x2048 .bf16) (Vv : FVec Ideal S2048x64 .bf16) (r : Fin 512) (d : Fin 64) :
    matmul dot_S512x2048_S2048x64_S512x64_1_0_0_1_n_n none P Vv (constant S512x64 .f32 0x00000000#32) (ix2 r d) = ∑ mm : Fin 2048, P (ix2 r mm) * Vv (ix2 mm d) := by
  refine (Ideal.matmul_constant_zero_apply (φ₁ := .bf16) (φ₂ := .bf16) dot_S512x2048_S2048x64_S512x64_1_0_0_1_n_n none P Vv (ix2 r d)).trans ?_
  rw [← Equiv.sum_comp (contrEquiv1 dot_S512x2048_S2048x64_S512x64_1_0_0_1_n_n 2048 rfl rfl).symm]
  refine Finset.sum_congr rfl fun mm _ => ?_
  have hk := contrEquiv1_symm_val dot_S512x2048_S2048x64_S512x64_1_0_0_1_n_n 2048 rfl rfl mm
  have el : dot_S512x2048_S2048x64_S512x64_1_0_0_1_n_n.lhsIdx (ix2 r d) ((contrEquiv1 dot_S512x2048_S2048x64_S512x64_1_0_0_1_n_n 2048 rfl rfl).symm mm) = ix2 r mm := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm mm) = ix2 mm d := funext fun a => Fin.ext (by
    match a with
    | ⟨0, _⟩ => exact (pv_rhs0 _ _).trans hk
    | ⟨1, _⟩ => exact pv_rhs1 _ _)
  rw [el, er]

/-! The row reductions over the 2048 keys. -/

/-- The key axis put back: the reduced index r with key m inserted is (r, m). -/
theorem lift_eq (r : Fin 512) (mm : Fin 2048) : reduces_S512x2048_S512.lift (ix1 r) mm = (ix2 r mm : S512x2048.Idx) :=
  funext fun a => Fin.ext (by
    match a with
    | ⟨0, _⟩ => rfl
    | ⟨1, _⟩ => rfl)

/-- A row's sum over the keys. -/
theorem rowSum_apply (X : FVec Ideal S512x2048 .f32) (hφ : FKind.Formats .f32) (hacc : (0x00000000#32 : BitVec 32) = FKind.add.neutral .f32 hφ) (r : Fin 512) :
    multiReduction .add [1] S512 X 0x00000000#32 reduces_S512x2048_S512 hφ hacc (ix1 r) = ∑ mm : Fin 2048, X (ix2 r mm) := by
  refine (Ideal.multiReduction_add_single X 0x00000000#32 reduces_S512x2048_S512 hφ hacc (ix1 r)).trans ?_
  exact Finset.sum_congr rfl fun mm _ => congrArg X (lift_eq r mm)

/-- A row's maximum over the keys, taken from −∞. -/
theorem rowMax_apply (X : FVec Ideal S512x2048 .f32) (hφ : FKind.Formats .f32) (hacc : (0xFF800000#32 : BitVec 32) = FKind.maximumf.neutral .f32 hφ) (r : Fin 512) :
    multiReduction .maximumf [1] S512 X 0xFF800000#32 reduces_S512x2048_S512 hφ hacc (ix1 r)
      = (Finset.univ : Finset (Fin 2048)).fold max (Ideal.ofBits .f32 0xFF800000#32) (fun mm => X (ix2 r mm)) := by
  refine (Ideal.multiReduction_maximumf_single X 0xFF800000#32 reduces_S512x2048_S512 hφ hacc (ix1 r)).trans ?_
  have hf : (X ∘ reduces_S512x2048_S512.lift (ix1 r)) = fun mm => X (ix2 r mm) := funext fun mm => congrArg X (lift_eq r mm)
  rw [hf]
  rfl

end Cert.KernelIdeal.Attn

end
-- ==== Proof.AttnBlock.lean ====
/-
  One block of attention as a function of its four operand blocks. Writing, for query row r, key m and lane d,
    score r m = (∑ d, q r d · k m d) + bias r m,      top r = the maximum over m of score r m (from −∞),
    e r m = exp (score r m − top r),                  z r = ∑ m, e r m,
  the block's entry (r, d) is ∑ m, (e r m / z r) · v m d. The blocks carry two leading unit axes.
-/
import proofs.«123132_j13383118095010_2_alg».proof.Proof.Attn
import proofs.«123132_j13383118095010_2_alg».proof.Proof.LibKeepDims

noncomputable section

namespace Cert.KernelIdeal.Attn

open Cert.KernelIdeal Cert.KernelIdeal.Gen Cert.Lib.KeepDims
open Idealize.ShloMosaic Idealize.ShloMosaic.TcCoe Idealize.ShloMosaic.ValueIdx

/-! Two leading unit axes dropped or added by a shape cast. -/

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one])

theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add, Nat.mul_one])

/-! The mathematics, over the four blocks. -/

def score (Q : S1x1x512x64.Idx → EReal) (K : S1x1x2048x64.Idx → EReal) (B : S1x1x512x2048.Idx → EReal) (r : Fin 512) (mm : Fin 2048) : EReal :=
  (∑ d : Fin 64, Q (ix4 (0 : Fin 1) (0 : Fin 1) r d) * K (ix4 (0 : Fin 1) (0 : Fin 1) mm d)) + B (ix4 (0 : Fin 1) (0 : Fin 1) r mm)

def top (Q : S1x1x512x64.Idx → EReal) (K : S1x1x2048x64.Idx → EReal) (B : S1x1x512x2048.Idx → EReal) (r : Fin 512) : EReal :=
  (Finset.univ : Finset (Fin 2048)).fold max (Ideal.ofBits .f32 0xFF800000#32) (fun mm => score Q K B r mm)

def expo (Q : S1x1x512x64.Idx → EReal) (K : S1x1x2048x64.Idx → EReal) (B : S1x1x512x2048.Idx → EReal) (r : Fin 512) (mm : Fin 2048) : EReal :=
  Ideal.exp (score Q K B r mm - top Q K B r)

def zsum (Q : S1x1x512x64.Idx → EReal) (K : S1x1x2048x64.Idx → EReal) (B : S1x1x512x2048.Idx → EReal) (r : Fin 512) : EReal :=
  ∑ mm : Fin 2048, expo Q K B r mm

/-- The block of attention at (r, d). -/
def attnOut (Q : S1x1x512x64.Idx → EReal) (K Vv : S1x1x2048x64.Idx → EReal) (B : S1x1x512x2048.Idx → EReal) (r : Fin 512) (d : Fin 64) : EReal :=
  ∑ mm : Fin 2048, Ideal.div (expo Q K B r mm) (zsum Q K B r) * Vv (ix4 (0 : Fin 1) (0 : Fin 1) mm d)

/-! The printed body, one step at a time, over variables. -/

/-- A value minus its row's maximum kept as a column and spread back over the row. -/
theorem shifted_apply (X : FVec Ideal S512x2048 .f32) (hφ : FKind.Formats .f32) (hacc : (0xFF800000#32 : BitVec 32) = FKind.maximumf.neutral .f32 hφ)
    (r : Fin 512) (mm : Fin 2048) :
    subf X (broadcastTo S512x2048 (shapeCast S512x1 (multiReduction .maximumf [1] S512 X 0xFF800000#32 reduces_S512x2048_S512 hφ hacc) shapeCasts_S512_S512x1) broadcasts_S512x1_S512x2048) (ix2 r mm)
      = X (ix2 r mm) - (Finset.univ : Finset (Fin 2048)).fold max (Ideal.ofBits .f32 0xFF800000#32) (fun m' => X (ix2 r m')) := by
  refine congrArg (X (ix2 r mm) - ·) ?_
  refine (broadcastTo_a1_ab_apply _ broadcasts_S512x1_S512x2048 r mm).trans ?_
  refine (shapeCast_a_a1_apply _ shapeCasts_S512_S512x1 r (0 : Fin 1)).trans ?_
  exact rowMax_apply X hφ hacc r

/-- A value over its row's sum kept as a column and spread back over the row. -/
theorem normed_apply (E : FVec Ideal S512x2048 .f32) (hφ : FKind.Formats .f32) (hacc : (0x00000000#32 : BitVec 32) = FKind.add.neutral .f32 hφ)
    (r : Fin 512) (mm : Fin 2048) :
    divf E (broadcastTo S512x2048 (shapeCast S512x1 (multiReduction .add [1] S512 E 0x00000000#32 reduces_S512x2048_S512 hφ hacc) shapeCasts_S512_S512x1) broadcasts_S512x1_S512x2048) (ix2 r mm)
      = Ideal.div (E (ix2 r mm)) (∑ m' : Fin 2048, E (ix2 r m')) := by
  refine congrArg (Ideal.div (E (ix2 r mm)) ·) ?_
  refine (broadcastTo_a1_ab_apply _ broadcasts_S512x1_S512x2048 r mm).trans ?_
  refine (shapeCast_a_a1_apply _ shapeCasts_S512_S512x1 r (0 : Fin 1)).trans ?_
  exact rowSum_apply E hφ hacc r

/-- The score with its bias at (r, m). -/
theorem score_apply (v2 : Vec Ideal S1x1x512x64 .bf16) (v4 : Vec Ideal S1x1x2048x64 .bf16) (v9 : Vec Ideal S1x1x512x2048 .f32) (r : Fin 512) (mm : Fin 2048) :
    addf (matmul (φ₁ := .bf16) (φ₂ := .bf16) dot_S512x64_S2048x64_S512x2048_1_1_0_0_n_n none (shapeCast S512x64 v2 shapeCasts_S1x1x512x64_S512x64) (shapeCast S2048x64 v4 shapeCasts_S1x1x2048x64_S2048x64) (constant (F := Ideal) S512x2048 .f32 0x00000000#32))
        (shapeCast S512x2048 v9 shapeCasts_S1x1x512x2048_S512x2048) (ix2 r mm)
      = score v2 v4 v9 r mm := by
  refine congrArg₂ (· + ·) ?_ (shapeCast_11ab_ab_apply v9 _ r mm)
  refine (qk_apply _ _ r mm).trans (Finset.sum_congr rfl fun d _ => ?_)
  exact congrArg₂ (· * ·) (shapeCast_11ab_ab_apply v2 _ r d) (shapeCast_11ab_ab_apply v4 _ mm d)

/-- THE BLOCK: the printed body's stored value at (0, 0, r, d) is the attention output there. -/
theorem pay_apply (v2 : Vec Ideal S1x1x512x64 .bf16) (v4 v6 : Vec Ideal S1x1x2048x64 .bf16) (v9 : Vec Ideal S1x1x512x2048 .f32) (r : Fin 512) (d : Fin 64) :
    k1_pay1 (F := Ideal) v2 v4 v6 v9 (ix4 (0 : Fin 1) (0 : Fin 1) r d) = attnOut v2 v4 v6 v9 r d := by
  unfold k1_pay1
  refine (shapeCast_ab_11ab_apply _ shapeCasts_S512x64_S1x1x512x64 (0 : Fin 1) (0 : Fin 1) r d).trans ?_
  refine (pv_apply _ _ r d).trans (Finset.sum_congr rfl fun mm _ => ?_)
  refine congrArg₂ (· * ·) ?_ (shapeCast_11ab_ab_apply v6 _ mm d)
  refine (normed_apply _ (.inl rfl) rfl r mm).trans ?_
  have hE : ∀ m' : Fin 2048, _ = expo v2 v4 v9 r m' := fun m' =>
    congrArg Ideal.exp ((shifted_apply _ (.inl rfl) rfl r m').trans
      (congrArg₂ (· - ·) (score_apply v2 v4 v9 r m')
        (congrArg (fun f => (Finset.univ : Finset (Fin 2048)).fold max (Ideal.ofBits .f32 0xFF800000#32) f) (funext fun m'' => score_apply v2 v4 v9 r m''))))
  exact congrArg₂ Ideal.div (hE mm) (Finset.sum_congr rfl fun m' _ => hE m')

end Cert.KernelIdeal.Attn

end
-- ==== Proof.AttnArray.lean ====
/-
  The attention call as ONE function of its four operand arrays. Grid point (b, h, qi) computes rows 512·qi … 512·qi + 511 of
  head h of batch b from that head's queries at those rows, all of that head's keys and values, and rows 512·qi … of the
  bias, which is the same [2048, 2048] array for every batch and head. The 2 · 16 · 4 blocks tile the [2, 16, 2048, 64] result.
-/
import proofs.«123132_j13383118095010_2_alg».proof.Proof.Gen.KernelIdeal.Frame
import proofs.«123132_j13383118095010_2_alg».proof.Proof.AttnRun
import proofs.«123132_j13383118095010_2_alg».proof.Proof.AttnBlock
import Idealize.ShloMosaic.Lib.Pipeline.Value

set_option maxRecDepth 16384

noncomputable section

namespace Cert.KernelIdeal.AttnArray

open Cert.KernelIdeal Cert.KernelIdeal.Gen
open Idealize.ShloMosaic Idealize.ShloMosaic.TcCoe Idealize.ShloMosaic.ValueIdx
open Idealize.ShloMosaic.Pipeline (Dat Cfg Window)

/-- The printed index maps over the 128 points, in the point's own coordinates (b, h, qi). -/
theorem idx_facts : ∀ t : Fin cfg1.N,
    win1_0.index t (0 : Fin 4) = (grid1.coords t 0).val ∧ win1_0.index t (1 : Fin 4) = (grid1.coords t 1).val
    ∧ win1_0.index t (2 : Fin 4) = (grid1.coords t 2).val ∧ win1_0.index t (3 : Fin 4) = 0
    ∧ win1_1.index t (0 : Fin 4) = (grid1.coords t 0).val ∧ win1_1.index t (1 : Fin 4) = (grid1.coords t 1).val
    ∧ win1_1.index t (2 : Fin 4) = 0 ∧ win1_1.index t (3 : Fin 4) = 0
    ∧ win1_2.index t (0 : Fin 4) = (grid1.coords t 0).val ∧ win1_2.index t (1 : Fin 4) = (grid1.coords t 1).val
    ∧ win1_2.index t (2 : Fin 4) = 0 ∧ win1_2.index t (3 : Fin 4) = 0
    ∧ win1_3.index t (0 : Fin 4) = 0 ∧ win1_3.index t (1 : Fin 4) = 0 ∧ win1_3.index t (2 : Fin 4) = 0 ∧ win1_3.index t (3 : Fin 4) = 0
    ∧ win1_4.index t (0 : Fin 4) = (grid1.coords t 0).val ∧ win1_4.index t (1 : Fin 4) = (grid1.coords t 1).val
    ∧ win1_4.index t (2 : Fin 4) = (grid1.coords t 2).val ∧ win1_4.index t (3 : Fin 4) = 0 :=
  (by decide +kernel : ∀ t : Fin grid1.N, _)

/-- The bias rows a point reads start at 512 times its query-tile coordinate. -/
theorem off_facts : ∀ t : Fin cfg1.N, k1_off1 (grid1.coords t) (0 : Fin 4) = 0 ∧ k1_off1 (grid1.coords t) (1 : Fin 4) = 0
    ∧ k1_off1 (grid1.coords t) (2 : Fin 4) = 512 * (grid1.coords t 2).val ∧ k1_off1 (grid1.coords t) (3 : Fin 4) = 0 :=
  (by decide +kernel : ∀ t : Fin grid1.N, _)

variable (V : (c : Dev nD) → (b : Ref sig .tc) → Buf (Elt Ideal) ((c : Thread nD τ).loc b))

/-- The query block of point t at (0, 0, r, d): the query array at (b, h, 512·qi + r, d). -/
theorem q_read (c : Dev nD) (t : Fin cfg1.N) (b : Fin 2) (h : Fin 16) (qi : Fin 4)
    (hb : (grid1.coords t 0).val = b.val) (hh : (grid1.coords t 1).val = h.val) (hq : (grid1.coords t 2).val = qi.val)
    (r : Fin 512) (d : Fin 64) (hR : 512 * qi.val + r.val < 2048) :
    iblk1 V c 0 t (ix4 (0 : Fin 1) (0 : Fin 1) r d)
      = V c (Pipeline.arrRef spec1 0) (ix4 b h (⟨512 * qi.val + r.val, hR⟩ : Fin 2048) d : S2x16x2048x64.Idx) := by
  obtain ⟨e00, e01, e02, e03, -⟩ := idx_facts t
  show V c (Pipeline.arrRef spec1 0) (((cfg1.win 0).blk t).view.emb (ix4 (0 : Fin 1) (0 : Fin 1) r d)) = _
  refine congrArg _ (funext fun a => Fin.ext ?_)
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 512 + 1 * r.val = 512 * qi.val + r.val; omega
  | ⟨3, _⟩ => show win1_0.index t (3 : Fin 4) * 64 + 1 * d.val = d.val; omega

/-- The key block of point t at (0, 0, m, d): the key array at (b, h, m, d). -/
theorem k_read (c : Dev nD) (t : Fin cfg1.N) (b : Fin 2) (h : Fin 16)
    (hb : (grid1.coords t 0).val = b.val) (hh : (grid1.coords t 1).val = h.val) (mm : Fin 2048) (d : Fin 64) :
    iblk1 V c 1 t (ix4 (0 : Fin 1) (0 : Fin 1) mm d) = V c (Pipeline.arrRef spec1 1) (ix4 b h mm d : S2x16x2048x64.Idx) := by
  obtain ⟨-, -, -, -, e10, e11, e12, e13, -⟩ := idx_facts t
  show V c (Pipeline.arrRef spec1 1) (((cfg1.win 1).blk t).view.emb (ix4 (0 : Fin 1) (0 : Fin 1) mm d)) = _
  refine congrArg _ (funext fun a => Fin.ext ?_)
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 2048 + 1 * mm.val = mm.val; omega
  | ⟨3, _⟩ => show win1_1.index t (3 : Fin 4) * 64 + 1 * d.val = d.val; omega

/-- The value block of point t at (0, 0, m, d): the value array at (b, h, m, d). -/
theorem v_read (c : Dev nD) (t : Fin cfg1.N) (b : Fin 2) (h : Fin 16)
    (hb : (grid1.coords t 0).val = b.val) (hh : (grid1.coords t 1).val = h.val) (mm : Fin 2048) (d : Fin 64) :
    iblk1 V c 2 t (ix4 (0 : Fin 1) (0 : Fin 1) mm d) = V c (Pipeline.arrRef spec1 2) (ix4 b h mm d : S2x16x2048x64.Idx) := by
  obtain ⟨-, -, -, -, -, -, -, -, e20, e21, e22, e23, -⟩ := idx_facts t
  show V c (Pipeline.arrRef spec1 2) (((cfg1.win 2).blk t).view.emb (ix4 (0 : Fin 1) (0 : Fin 1) mm d)) = _
  refine congrArg _ (funext fun a => Fin.ext ?_)
  match a with
  | ⟨0, _⟩ => show win1_2.index t (0 : Fin 4) * 1 + 1 * 0 = b.val; omega
  | ⟨1, _⟩ => show win1_2.index t (1 : Fin 4) * 1 + 1 * 0 = h.val; omega
  | ⟨2, _⟩ => show win1_2.index t (2 : Fin 4) * 2048 + 1 * mm.val = mm.val; omega
  | ⟨3, _⟩ => show win1_2.index t (3 : Fin 4) * 64 + 1 * d.val = d.val; omega

/-- The bias rows the body loads at point t, at (0, 0, r, m): the bias array at (0, 0, 512·qi + r, m). -/
theorem bias_read (c : Dev nD) (t : Fin cfg1.N) (qi : Fin 4) (hq : (grid1.coords t 2).val = qi.val)
    (r : Fin 512) (mm : Fin 2048) (hR : 512 * qi.val + r.val < 2048) :
    View.ld (iblk1 V c 3 t) (Rect.unit (s := S1x1x2048x2048) (k1_off1 (grid1.coords t)) S1x1x512x2048.size (k1_off1_inb (grid1.coords t)))
        (ix4 (0 : Fin 1) (0 : Fin 1) r mm)
      = V c (Pipeline.arrRef spec1 3) (ix4 (0 : Fin 1) (0 : Fin 1) (⟨512 * qi.val + r.val, hR⟩ : Fin 2048) mm : S1x1x2048x2048.Idx) := by
  obtain ⟨-, -, -, -, -, -, -, -, -, -, -, -, e30, e31, e32, e33, -⟩ := idx_facts t
  obtain ⟨o0, o1, o2, o3⟩ := off_facts t
  show V c (Pipeline.arrRef spec1 3) (((cfg1.win 3).blk t).view.emb
    ((Rect.unit (s := S1x1x2048x2048) (k1_off1 (grid1.coords t)) S1x1x512x2048.size (k1_off1_inb (grid1.coords t))).emb (ix4 (0 : Fin 1) (0 : Fin 1) r mm))) = _
  refine congrArg _ (funext fun a => Fin.ext ?_)
  match a with
  | ⟨0, _⟩ => show win1_3.index t (0 : Fin 4) * 1 + 1 * (k1_off1 (grid1.coords t) (0 : Fin 4) + 1 * 0) = 0; omega
  | ⟨1, _⟩ => show win1_3.index t (1 : Fin 4) * 1 + 1 * (k1_off1 (grid1.coords t) (1 : Fin 4) + 1 * 0) = 0; omega
  | ⟨2, _⟩ => show win1_3.index t (2 : Fin 4) * 2048 + 1 * (k1_off1 (grid1.coords t) (2 : Fin 4) + 1 * r.val) = 512 * qi.val + r.val; omega
  | ⟨3, _⟩ => show win1_3.index t (3 : Fin 4) * 2048 + 1 * (k1_off1 (grid1.coords t) (3 : Fin 4) + 1 * mm.val) = mm.val; omega

/-- The output window's rectangle at point t sends block entry (0, 0, r, d) to array entry (b, h, 512·qi + r, d). -/
theorem out_emb (t : Fin cfg1.N) (b : Fin 2) (h : Fin 16) (qi : Fin 4)
    (hb : (grid1.coords t 0).val = b.val) (hh : (grid1.coords t 1).val = h.val) (hq : (grid1.coords t 2).val = qi.val)
    (r : Fin 512) (d : Fin 64) (hR : 512 * qi.val + r.val < 2048) :
    ((cfg1.win 4).blk t).view.emb (ix4 (0 : Fin 1) (0 : Fin 1) r d) = (ix4 b h (⟨512 * qi.val + r.val, hR⟩ : Fin 2048) d : S2x16x2048x64.Idx) := by
  obtain ⟨-, -, -, -, -, -, -, -, -, -, -, -, -, -, -, -, e40, e41, e42, e43⟩ := idx_facts t
  funext a; apply Fin.ext
  match a with
  | ⟨0, _⟩ => show win1_4.index t (0 : Fin 4) * 1 + 1 * 0 = b.val; omega
  | ⟨1, _⟩ => show win1_4.index t (1 : Fin 4) * 1 + 1 * 0 = h.val; omega
  | ⟨2, _⟩ => show win1_4.index t (2 : Fin 4) * 512 + 1 * r.val = 512 * qi.val + r.val; omega
  | ⟨3, _⟩ => show win1_4.index t (3 : Fin 4) * 64 + 1 * d.val = d.val; omega

/-- Every (batch, head, query tile) is some grid point's. -/
theorem idx_onto : ∀ (b : Fin 2) (h : Fin 16) (q : Fin 4), ∃ t : Fin cfg1.N,
    (grid1.coords t 0).val = b.val ∧ (grid1.coords t 1).val = h.val ∧ (grid1.coords t 2).val = q.val :=
  (by decide +kernel : ∀ (b : Fin 2) (h : Fin 16) (q : Fin 4), ∃ t : Fin grid1.N,
    (grid1.coords t 0).val = b.val ∧ (grid1.coords t 1).val = h.val ∧ (grid1.coords t 2).val = q.val)

/-- WHAT POINT t WRITES BACK, entry by entry: the block of attention computed from the point's blocks. -/
theorem flushed_apply (c : Dev nD) (t : Fin cfg1.N) (r : Fin 512) (d : Fin 64) :
    (dat1 (F := Ideal) V c).flushed 4 t (ix4 (0 : Fin 1) (0 : Fin 1) r d)
      = Attn.attnOut (iblk1 V c 0 t) (iblk1 V c 1 t) (iblk1 V c 2 t)
          (View.ld (iblk1 V c 3 t) (Rect.unit (s := S1x1x2048x2048) (k1_off1 (grid1.coords t)) S1x1x512x2048.size (k1_off1_inb (grid1.coords t)))) r d := by
  show (cfg1.win 4).cut (grid1.coords t) ((dat1 (F := Ideal) V c).after 4 t) (ix4 (0 : Fin 1) (0 : Fin 1) r d) = _
  rw [after1_4]
  unfold outsAt1
  rw [AttnRun.out_eq]
  exact Attn.pay_apply _ _ _ _ r d

/-! The attention call's result, entry by entry, from its four operand arrays. -/

def sc (Qa Ka : S2x16x2048x64.Idx → EReal) (Ba : S1x1x2048x2048.Idx → EReal) (b : Fin 2) (h : Fin 16) (l mm : Fin 2048) : EReal :=
  (∑ d : Fin 64, Qa (ix4 b h l d) * Ka (ix4 b h mm d)) + Ba (ix4 (0 : Fin 1) (0 : Fin 1) l mm)

def tp (Qa Ka : S2x16x2048x64.Idx → EReal) (Ba : S1x1x2048x2048.Idx → EReal) (b : Fin 2) (h : Fin 16) (l : Fin 2048) : EReal :=
  (Finset.univ : Finset (Fin 2048)).fold max (Ideal.ofBits .f32 0xFF800000#32) (fun mm => sc Qa Ka Ba b h l mm)

def ex (Qa Ka : S2x16x2048x64.Idx → EReal) (Ba : S1x1x2048x2048.Idx → EReal) (b : Fin 2) (h : Fin 16) (l mm : Fin 2048) : EReal :=
  Ideal.exp (sc Qa Ka Ba b h l mm - tp Qa Ka Ba b h l)

def zs (Qa Ka : S2x16x2048x64.Idx → EReal) (Ba : S1x1x2048x2048.Idx → EReal) (b : Fin 2) (h : Fin 16) (l : Fin 2048) : EReal :=
  ∑ mm : Fin 2048, ex Qa Ka Ba b h l mm

/-- softmax (q kᵀ + bias) v, per batch and head. -/
def attn (Qa Ka Va : S2x16x2048x64.Idx → EReal) (Ba : S1x1x2048x2048.Idx → EReal) : S2x16x2048x64.Idx → EReal :=
  fun i => ∑ mm : Fin 2048, Ideal.div (ex Qa Ka Ba (i 0) (i 1) (i 2) mm) (zs Qa Ka Ba (i 0) (i 1) (i 2)) * Va (ix4 (i 0) (i 1) mm (i 3))

theorem attn_apply (Qa Ka Va : S2x16x2048x64.Idx → EReal) (Ba : S1x1x2048x2048.Idx → EReal) (b : Fin 2) (h : Fin 16) (l : Fin 2048) (d : Fin 64) :
    attn Qa Ka Va Ba (ix4 b h l d) = ∑ mm : Fin 2048, Ideal.div (ex Qa Ka Ba b h l mm) (zs Qa Ka Ba b h l) * Va (ix4 b h mm d) := rfl

/-- The block mathematics at a point's blocks and row r is the array mathematics at row 512·qi + r. -/
theorem score_blk (c : Dev nD) (t : Fin cfg1.N) (b : Fin 2) (h : Fin 16) (qi : Fin 4)
    (hb : (grid1.coords t 0).val = b.val) (hh : (grid1.coords t 1).val = h.val) (hq : (grid1.coords t 2).val = qi.val)
    (r : Fin 512) (hR : 512 * qi.val + r.val < 2048) (mm : Fin 2048) :
    Attn.score (iblk1 V c 0 t) (iblk1 V c 1 t)
        (View.ld (iblk1 V c 3 t) (Rect.unit (s := S1x1x2048x2048) (k1_off1 (grid1.coords t)) S1x1x512x2048.size (k1_off1_inb (grid1.coords t)))) r mm
      = sc (V c (Pipeline.arrRef spec1 0)) (V c (Pipeline.arrRef spec1 1)) (V c (Pipeline.arrRef spec1 3)) b h (⟨512 * qi.val + r.val, hR⟩ : Fin 2048) mm := by
  unfold Attn.score sc
  refine congrArg₂ (· + ·) (Finset.sum_congr rfl fun d _ => ?_) (bias_read V c t qi hq r mm hR)
  rw [q_read V c t b h qi hb hh hq r d hR, k_read V c t b h hb hh mm d]

/-- WHAT POINT t WRITES BACK: block t of the attention of the four arrays as the call finds them. -/
theorem flushed_eq (c : Dev nD) (t : Fin cfg1.N) :
    (dat1 (F := Ideal) V c).flushed 4 t
      = ((cfg1.win 4).blk t).view.read (Elt Ideal)
          (attn (V c (Pipeline.arrRef spec1 0)) (V c (Pipeline.arrRef spec1 1)) (V c (Pipeline.arrRef spec1 2)) (V c (Pipeline.arrRef spec1 3))) := by
  funext j
  obtain ⟨u, w, r, d, rfl⟩ : ∃ (u w : Fin 1) (r : Fin 512) (d : Fin 64), j = ix4 u w r d := ⟨j 0, j 1, j 2, j 3, eq_ix4 j⟩
  obtain rfl : u = 0 := Subsingleton.elim _ _
  obtain rfl : w = 0 := Subsingleton.elim _ _
  -- the point's own coordinates, as literal values
  have h0 : (grid1.coords t 0).val < 2 := (grid1.coords t 0).isLt
  have h1 : (grid1.coords t 1).val < 16 := (grid1.coords t 1).isLt
  have h2 : (grid1.coords t 2).val < 4 := (grid1.coords t 2).isLt
  let b : Fin 2 := ⟨(grid1.coords t 0).val, h0⟩
  let h : Fin 16 := ⟨(grid1.coords t 1).val, h1⟩
  let qi : Fin 4 := ⟨(grid1.coords t 2).val, h2⟩
  have hR : 512 * qi.val + r.val < 2048 := by have := r.isLt; show 512 * (grid1.coords t 2).val + r.val < 2048; omega
  rw [flushed_apply V c t r d]
  show _ = attn _ _ _ _ (((cfg1.win 4).blk t).view.emb (ix4 (0 : Fin 1) (0 : Fin 1) r d))
  rw [out_emb t b h qi rfl rfl rfl r d hR, attn_apply]
  have hs : ∀ mm, _ = _ := fun mm => score_blk V c t b h qi rfl rfl rfl r hR mm
  have ht : Attn.top (iblk1 V c 0 t) (iblk1 V c 1 t)
        (View.ld (iblk1 V c 3 t) (Rect.unit (s := S1x1x2048x2048) (k1_off1 (grid1.coords t)) S1x1x512x2048.size (k1_off1_inb (grid1.coords t)))) r
      = tp (V c (Pipeline.arrRef spec1 0)) (V c (Pipeline.arrRef spec1 1)) (V c (Pipeline.arrRef spec1 3)) b h (⟨512 * qi.val + r.val, hR⟩ : Fin 2048) := by
    unfold Attn.top tp
    exact congrArg (fun f => (Finset.univ : Finset (Fin 2048)).fold max (Ideal.ofBits .f32 0xFF800000#32) f) (funext hs)
  have he : ∀ mm, Attn.expo (iblk1 V c 0 t) (iblk1 V c 1 t)
        (View.ld (iblk1 V c 3 t) (Rect.unit (s := S1x1x2048x2048) (k1_off1 (grid1.coords t)) S1x1x512x2048.size (k1_off1_inb (grid1.coords t)))) r mm
      = ex (V c (Pipeline.arrRef spec1 0)) (V c (Pipeline.arrRef spec1 1)) (V c (Pipeline.arrRef spec1 3)) b h (⟨512 * qi.val + r.val, hR⟩ : Fin 2048) mm := fun mm => by
    unfold Attn.expo ex
    rw [hs mm, ht]
  have hz : Attn.zsum (iblk1 V c 0 t) (iblk1 V c 1 t)
        (View.ld (iblk1 V c 3 t) (Rect.unit (s := S1x1x2048x2048) (k1_off1 (grid1.coords t)) S1x1x512x2048.size (k1_off1_inb (grid1.coords t)))) r
      = zs (V c (Pipeline.arrRef spec1 0)) (V c (Pipeline.arrRef spec1 1)) (V c (Pipeline.arrRef spec1 3)) b h (⟨512 * qi.val + r.val, hR⟩ : Fin 2048) := by
    unfold Attn.zsum zs
    exact Finset.sum_congr rfl fun mm _ => he mm
  unfold Attn.attnOut
  refine Finset.sum_congr rfl fun mm _ => ?_
  rw [he mm, hz, v_read V c t b h rfl rfl mm d]

/-- An entry of the result array is in point t's block iff each coordinate is in the block's range on its axis. -/
theorem mem_blk (t : Fin cfg1.N) (i : S2x16x2048x64.Idx) :
    i ∈ ((cfg1.win 4).blk t).view.set ↔ ∀ a : Fin 4, win1_4.index t a * S1x1x512x64.size a ≤ (i a).val ∧ (i a).val < win1_4.index t a * S1x1x512x64.size a + S1x1x512x64.size a := by
  show i ∈ ((View.whole main_v28).slice (win1_4.rect t)).set ↔ _
  rw [View.set_slice_whole, Rect.mem_set_unit]
  exact Iff.rfl

/-- The 2 · 16 · 4 blocks tile the array: entry (b, h, l, d) lies in the block of the point (b, h, l / 512). -/
theorem cover (i : S2x16x2048x64.Idx) : ∃ t : Fin cfg1.N, (cfg1.win 4).flush t = true ∧ i ∈ ((cfg1.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, hb, hh, hq⟩ := idx_onto ⟨(i 0).val, hi0⟩ ⟨(i 1).val, hi1⟩ ⟨(i 2).val / 512, by omega⟩
  refine ⟨t, flush1_4 t, ?_⟩
  rw [mem_blk]
  obtain ⟨-, -, -, -, -, -, -, -, -, -, -, -, -, -, -, -, e40, e41, e42, e43⟩ := idx_facts t
  have hb' : (grid1.coords t 0).val = (i 0).val := hb
  have hh' : (grid1.coords t 1).val = (i 1).val := hh
  have hq' : (grid1.coords t 2).val = (i 2).val / 512 := hq
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 512 ≤ (i 2).val ∧ (i 2).val < win1_4.index t (2 : Fin 4) * 512 + 512; omega
  | ⟨3, _⟩ => show win1_4.index t (3 : Fin 4) * 64 ≤ (i 3).val ∧ (i 3).val < win1_4.index t (3 : Fin 4) * 64 + 64; omega

/-- THE ARRAY after the call: the attention of the four operand arrays as the call finds them. -/
theorem final (c : Dev nD) :
    (dat1 (F := Ideal) V c).arrAt 4 cfg1.N
      = attn (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed_eq V c t) cover

end Cert.KernelIdeal.AttnArray

end
-- ==== Proof.Proj.lean ====
/-
  The output projection's block, entry by entry: row r, column o of a block is the sum over the 1024 lanes k of the
  attention output's row r at k times the transposed weight at (k, o), plus the bias at o.
-/
import proofs.«123132_j13383118095010_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Proj

open Cert.KernelIdeal Cert.KernelIdeal.Gen
open Idealize.ShloMosaic Idealize.ShloMosaic.TcCoe Idealize.ShloMosaic.ValueIdx

/-! The matrix product's operand indices at output (r, o) and lane k are (r, k) and (k, o). -/

theorem lhs0 (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs1 (j : S512x1024.Idx) (q : dot_S512x1024_S1024x1024_S512x1024_1_0_0_1_n_n.contr.Idx) : (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs0 (j : S512x1024.Idx) (q : dot_S512x1024_S1024x1024_S512x1024_1_0_0_1_n_n.contr.Idx) : (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs1 (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A block of the projection at (r, o): the row's product with the weight's column, plus the bias. -/
theorem pay_apply (v0 : Vec Ideal S512x1024 .bf16) (v2 : Vec Ideal S1024x1024 .bf16) (v5 : Vec Ideal S1x1024 .f32)
    (r : Fin 512) (o : Fin 1024) :
    k2_pay1 (F := Ideal) v0 v2 v5 (ix2 r o)
      = (∑ k : Fin 1024, v0 (ix2 r k) * v2 (ix2 k o)) + v5 (ix2 (0 : Fin 1) o) := by
  unfold k2_pay1
  rw [addf_apply, shapeCast_self, shapeCast_self, shapeCast_self]
  refine congrArg₂ (· + ·) ?_ (broadcastTo_1b_ab_apply v5 _ r o)
  refine (Ideal.matmul_constant_zero_apply (φ₁ := .bf16) (φ₂ := .bf16) dot_S512x1024_S1024x1024_S512x1024_1_0_0_1_n_n none v0 v2 (ix2 r o)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r o) ((contrEquiv1 dot_S512x1024_S1024x1024_S512x1024_1_0_0_1_n_n 1024 rfl rfl).symm k) = ix2 r k := funext fun a => Fin.ext (by
    match a with
    | ⟨0, _⟩ => exact lhs0 _ _
    | ⟨1, _⟩ => exact (lhs1 _ _).trans hk)
  have er : dot_S512x1024_S1024x1024_S512x1024_1_0_0_1_n_n.rhsIdx (ix2 r o) ((contrEquiv1 dot_S512x1024_S1024x1024_S512x1024_1_0_0_1_n_n 1024 rfl rfl).symm k) = ix2 k o := funext fun a => Fin.ext (by
    match a with
    | ⟨0, _⟩ => exact (rhs0 _ _).trans hk
    | ⟨1, _⟩ => exact rhs1 _ _)
  rw [el, er]

end Cert.KernelIdeal.Proj

end
-- ==== Proof.ProjArray.lean ====
/-
  The output projection as ONE function of its three operand arrays: entry (R, o) of the [4096, 1024] result is the sum
  over the 1024 lanes k of the attention output at (R, k) times the transposed weight at (k, o), plus the bias at o.
  Grid point t computes rows 512·t … 512·t + 511 of it from rows 512·t … of the attention output, the weight and the
  bias being the same at every point; the eight row blocks tile the array.
-/
import proofs.«123132_j13383118095010_2_alg».proof.Proof.Gen.KernelIdeal.Frame
import proofs.«123132_j13383118095010_2_alg».proof.Proof.Proj
import Idealize.ShloMosaic.Lib.Pipeline.Value

set_option maxRecDepth 16384

noncomputable section

namespace Cert.KernelIdeal.ProjArray

open Cert.KernelIdeal Cert.KernelIdeal.Gen
open Idealize.ShloMosaic Idealize.ShloMosaic.TcCoe Idealize.ShloMosaic.ValueIdx
open Idealize.ShloMosaic.Pipeline (Dat Cfg Window)

/-- The projection of a whole [4096, 1024] array by a [1024, 1024] matrix and a [1, 1024] row. -/
def proj (A : S4096x1024.Idx → EReal) (Wt : S1024x1024.Idx → EReal) (b : S1x1024.Idx → EReal) : S4096x1024.Idx → EReal :=
  fun i => (∑ k : Fin 1024, A (ix2 (i 0) k) * Wt (ix2 k (i 1))) + b (ix2 (0 : Fin 1) (i 1))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the row operand moves with the output, the other two stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A: the output window's rectangle at point t sends block entry (r, o) to array entry (512·t + r, o). -/
theorem out_emb (t : Fin cfg2.N) (r : Fin 512) (o : Fin 1024) (hR : 512 * t.val + r.val < 4096) :
    ((cfg2.win 3).blk t).view.emb (ix2 r o) = (ix2 (⟨512 * t.val + r.val, hR⟩ : Fin 4096) o : S4096x1024.Idx) := by
  obtain ⟨e00, e01, e10, e11, e20, e21, e30, e31⟩ := idx_facts t
  funext a; apply Fin.ext
  match a with
  | ⟨0, _⟩ => show win2_3.index t (0 : Fin 2) * 512 + 1 * r.val = 512 * t.val + r.val; omega
  | ⟨1, _⟩ => show win2_3.index t (1 : Fin 2) * 1024 + 1 * o.val = o.val; omega

/-- B: the row operand's block at point t, entry (r, k), is the array's entry (512·t + r, k). -/
theorem blk0_read (c : Dev nD) (t : Fin cfg2.N) (r : Fin 512) (k : Fin 1024) (hR : 512 * t.val + r.val < 4096) :
    iblk2 V c 0 t (ix2 r k) = V c (Pipeline.arrRef spec2 0) (ix2 (⟨512 * t.val + r.val, hR⟩ : Fin 4096) k : S4096x1024.Idx) := by
  obtain ⟨e00, e01, e10, e11, e20, e21, e30, e31⟩ := idx_facts t
  show V c (Pipeline.arrRef spec2 0) (((cfg2.win 0).blk t).view.emb (ix2 r k)) = _
  refine congrArg _ (funext fun a => Fin.ext ?_)
  match a with
  | ⟨0, _⟩ => show win2_0.index t (0 : Fin 2) * 512 + 1 * r.val = 512 * t.val + r.val; omega
  | ⟨1, _⟩ => show win2_0.index t (1 : Fin 2) * 1024 + 1 * k.val = k.val; omega

/-- C: the projection read at an explicit entry. -/
theorem proj_apply (A : S4096x1024.Idx → EReal) (Wt : S1024x1024.Idx → EReal) (b : S1x1024.Idx → EReal) (R : Fin 4096) (o : Fin 1024) :
    proj A Wt b (ix2 R o) = (∑ k : Fin 1024, A (ix2 R k) * Wt (ix2 k o)) + b (ix2 (0 : Fin 1) o) := rfl

/-- The weight operand's block is the whole array at every point. -/
theorem blk1_read (c : Dev nD) (t : Fin cfg2.N) (k o : Fin 1024) :
    iblk2 V c 1 t (ix2 k o) = V c (Pipeline.arrRef spec2 1) (ix2 k o : S1024x1024.Idx) := by
  obtain ⟨e00, e01, e10, e11, e20, e21, e30, e31⟩ := idx_facts t
  show V c (Pipeline.arrRef spec2 1) (((cfg2.win 1).blk t).view.emb (ix2 k o)) = _
  refine congrArg _ (funext fun a => Fin.ext ?_)
  match a with
  | ⟨0, _⟩ => show win2_1.index t (0 : Fin 2) * 1024 + 1 * k.val = k.val; omega
  | ⟨1, _⟩ => show win2_1.index t (1 : Fin 2) * 1024 + 1 * o.val = o.val; omega

/-- The bias operand's block is the whole row at every point. -/
theorem blk2_read (c : Dev nD) (t : Fin cfg2.N) (o : Fin 1024) :
    iblk2 V c 2 t (ix2 (0 : Fin 1) o) = V c (Pipeline.arrRef spec2 2) (ix2 (0 : Fin 1) o : S1x1024.Idx) := by
  obtain ⟨e00, e01, e10, e11, e20, e21, e30, e31⟩ := idx_facts t
  show V c (Pipeline.arrRef spec2 2) (((cfg2.win 2).blk t).view.emb (ix2 (0 : Fin 1) o)) = _
  refine congrArg _ (funext fun a => Fin.ext ?_)
  match a with
  | ⟨0, _⟩ => show win2_2.index t (0 : Fin 2) * 1 + 1 * 0 = 0; omega
  | ⟨1, _⟩ => show win2_2.index t (1 : Fin 2) * 1024 + 1 * o.val = o.val; omega

/-- WHAT POINT t WRITES BACK: block t of the projection of the three arrays as the call finds them. -/
theorem flushed_eq (c : Dev nD) (t : Fin cfg2.N) :
    (dat2 (F := Ideal) V c).flushed 3 t
      = ((cfg2.win 3).blk t).view.read (Elt Ideal)
          (proj (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero hz]
  simp only [View.ld_unit_zero (S := S512x1024) hz, View.ld_unit_zero (S := S1024x1024) hz, View.ld_unit_zero (S := S1x1024) hz]
  funext j
  obtain ⟨r, o, rfl⟩ : ∃ (r : Fin 512) (o : Fin 1024), j = ix2 r o := ⟨j 0, j 1, eq_ix2 j⟩
  have hN : cfg2.N = 8 := rfl
  have ht : t.val < 8 := hN ▸ t.isLt
  have hR : 512 * t.val + r.val < 4096 := by have := r.isLt; omega
  show k2_pay1 (F := Ideal) (iblk2 V c 0 t) (iblk2 V c 1 t) (iblk2 V c 2 t) (ix2 r o) = proj _ _ _ (((cfg2.win 3).blk t).view.emb (ix2 r o))
  rw [Proj.pay_apply, out_emb t r o hR, proj_apply, blk2_read V c t o]
  refine congrArg (· + _) (Finset.sum_congr rfl fun k _ => ?_)
  rw [blk0_read V c t r k hR, blk1_read V c t k o]

/-- An entry of the result array is in point t's block iff its row is one of the block's 512 rows. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v34).slice (win2_3.rect t)).set ↔ _
  rw [View.set_slice_whole, Rect.mem_set_unit]
  exact Iff.rfl

/-- The eight row blocks tile the array: row R lies in the block of point R / 512. -/
theorem cover (i : S4096x1024.Idx) : ∃ t : Fin cfg2.N, (cfg2.win 3).flush t = true ∧ i ∈ ((cfg2.win 3).blk t).view.set := by
  have hN : cfg2.N = 8 := rfl
  have hi0 : (i 0).val < 4096 := (i 0).isLt
  have hi1 : (i 1).val < 1024 := (i 1).isLt
  refine ⟨⟨(i 0).val / 512, by rw [hN]; omega⟩, flush2_3 _, ?_⟩
  rw [mem_blk]
  obtain ⟨e00, e01, e10, e11, e20, e21, e30, e31⟩ := idx_facts ⟨(i 0).val / 512, by rw [hN]; omega⟩
  intro a
  match a with
  | ⟨0, _⟩ =>
    show win2_3.index _ (0 : Fin 2) * 512 ≤ (i 0).val ∧ (i 0).val < win2_3.index _ (0 : Fin 2) * 512 + 512
    rw [e30]; show (i 0).val / 512 * 512 ≤ (i 0).val ∧ (i 0).val < (i 0).val / 512 * 512 + 512; omega
  | ⟨1, _⟩ =>
    show win2_3.index _ (1 : Fin 2) * 1024 ≤ (i 1).val ∧ (i 1).val < win2_3.index _ (1 : Fin 2) * 1024 + 1024
    rw [e31]; omega

/-- THE ARRAY after the call: the projection of the three operand arrays as the call finds them. -/
theorem final (c : Dev nD) :
    (dat2 (F := Ideal) V c).arrAt 3 cfg2.N
      = proj (V c (Pipeline.arrRef spec2 0)) (V c (Pipeline.arrRef spec2 1)) (V c (Pipeline.arrRef spec2 2)) :=
  (dat2 (F := Ideal) V c).arrAt_eq_of_cover 3 _ (fun t _ => flushed_eq V c t) (cover)

end Cert.KernelIdeal.ProjArray

end
-- ==== Proof.QkStore.lean ====
/-
  The query and key blocks the first call stores, entry by entry. With x the block's 256 positions, w the transposed weight,
  and for lane c of head h = c / 64:
    k r c = ∑ c', x r c' · w c' (1024 + c),          q r c = ∑ c', x r c' · w c' c + q_bias c,
    the stored key   is k r c · rsqrt (max (∑ over head h's lanes of k², ε²)),
    the stored query is q r c · rsqrt (max (∑ over head h's lanes of q², ε²)) · sm c.
-/
import proofs.«123132_j13383118095010_2_alg».proof.Proof.KeyNorm

noncomputable section

namespace Cert.KernelIdeal.QkStore

open Cert.KernelIdeal Cert.KernelIdeal.Gen Cert.Lib.HeadMembership Cert.KernelIdeal.KeyNorm
open Idealize.ShloMosaic Idealize.ShloMosaic.TcCoe Idealize.ShloMosaic.ValueIdx

/-- The key columns of the fused product, at (r, c). -/
theorem k_apply (v0 : Vec Ideal S1x256x1024 .f32) (v2 : Vec Ideal S1024x3072 .bf16) (r : Fin 256) (c : Fin 1024) (hc : 1024 + c.val < 3072) :
    k0_pay6 (F := Ideal) v0 v2 (ix2 r c) = ∑ c' : Fin 1024, v0 (ix3 (0 : Fin 1) r c') * v2 (ix2 c' (⟨1024 + c.val, hc⟩ : Fin 3072)) := by
  unfold k0_pay6
  refine (slice2_axis1_apply 1024 _ slices_S256x3072_o0_1024_S256x1024 r c (⟨1024 + c.val, hc⟩ : Fin 3072) rfl).trans ?_
  exact Qkv.fused_apply v0 v2 r _

/-- The query columns of the fused product plus the query bias, at (r, c). -/
theorem q_apply (v0 : Vec Ideal S1x256x1024 .f32) (v2 : Vec Ideal S1024x3072 .bf16) (v7 : Vec Ideal S1x1024 .f32) (r : Fin 256) (c : Fin 1024) (hc : 0 + c.val < 3072) :
    k0_pay5 (F := Ideal) v0 v2 v7 (ix2 r c)
      = (∑ c' : Fin 1024, v0 (ix3 (0 : Fin 1) r c') * v2 (ix2 c' (⟨0 + c.val, hc⟩ : Fin 3072))) + v7 (ix2 (0 : Fin 1) c) := by
  unfold k0_pay5
  refine congrArg₂ (· + ·) ?_ ?_
  · refine (slice2_axis1_apply 0 _ slices_S256x3072_o0_0_S256x1024 r c (⟨0 + c.val, hc⟩ : Fin 3072) rfl).trans ?_
    exact Qkv.fused_apply v0 v2 r _
  · refine (broadcastTo_1b_ab_apply _ broadcasts_S1x1024_S256x1024 r c).trans ?_
    exact congrFun (shapeCast_self v7 _) (ix2 (0 : Fin 1) c)

/-- THE STORED KEY BLOCK at (0, r, c): the key times the reciprocal floored norm of its head. -/
theorem key_store (v0 : Vec Ideal S1x256x1024 .f32) (v2 : Vec Ideal S1024x3072 .bf16) (v17 : Vec Ideal S1024x16 .bf16) (v19 : Vec Ideal S16x1024 .bf16)
    (hE : ∀ (c : Fin 1024) (h : Fin 16), v17 (ix2 c h) = mem 64 c.val h.val)
    (hET : ∀ (h : Fin 16) (c : Fin 1024), v19 (ix2 h c) = mem 64 c.val h.val) (r : Fin 256) (c : Fin 1024) :
    k0_pay2 (F := Ideal) (k0_pay6 (F := Ideal) v0 v2) (k0_pay11 (F := Ideal) v0 v2 v17 v19) (ix3 (0 : Fin 1) r c)
      = k0_pay6 (F := Ideal) v0 v2 (ix2 r c)
          * Ideal.rsqrt (max (∑ d : Fin 64, k0_pay6 (F := Ideal) v0 v2 (ix2 r (lane (head c) d)) * k0_pay6 (F := Ideal) v0 v2 (ix2 r (lane (head c) d))) epsSq) := by
  unfold k0_pay2
  refine (shapeCast_ab_1ab_apply _ shapeCasts_S256x1024_S1x256x1024 (0 : Fin 1) r c).trans ?_
  refine congrArg (k0_pay6 (F := Ideal) v0 v2 (ix2 r c) * ·) ?_
  unfold k0_pay11 k0_pay8 k0_pay9
  have hE' : ∀ (c : Fin 1024) (h : Fin 16), (shapeCast S1024x16 v17 shapeCasts_S1024x16_S1024x16) (ix2 c h) = mem 64 c.val h.val :=
    fun c h => (congrFun (shapeCast_self v17 _) (ix2 c h)).trans (hE c h)
  have hET' : ∀ (h : Fin 16) (c : Fin 1024), (shapeCast S16x1024 v19 shapeCasts_S16x1024_S16x1024) (ix2 h c) = mem 64 c.val h.val :=
    fun h c => (congrFun (shapeCast_self v19 _) (ix2 h c)).trans (hET h c)
  exact invNorm_apply (k0_pay6 (F := Ideal) v0 v2) _ _ hE' hET' r c

/-- THE STORED QUERY BLOCK at (0, r, c): the query times the reciprocal floored norm of its head, times the scale row at c. -/
theorem query_store (v0 : Vec Ideal S1x256x1024 .f32) (v2 : Vec Ideal S1024x3072 .bf16) (v7 : Vec Ideal S1x1024 .f32)
    (v17 : Vec Ideal S1024x16 .bf16) (v19 : Vec Ideal S16x1024 .bf16) (v37 : Vec Ideal S1x1024 .f32)
    (hE : ∀ (c : Fin 1024) (h : Fin 16), v17 (ix2 c h) = mem 64 c.val h.val)
    (hET : ∀ (h : Fin 16) (c : Fin 1024), v19 (ix2 h c) = mem 64 c.val h.val) (r : Fin 256) (c : Fin 1024) :
    k0_pay1 (F := Ideal) (k0_pay5 (F := Ideal) v0 v2 v7) (k0_pay10 (F := Ideal) v0 v2 v7 v17 v19) v37 (ix3 (0 : Fin 1) r c)
      = k0_pay5 (F := Ideal) v0 v2 v7 (ix2 r c)
          * Ideal.rsqrt (max (∑ d : Fin 64, k0_pay5 (F := Ideal) v0 v2 v7 (ix2 r (lane (head c) d)) * k0_pay5 (F := Ideal) v0 v2 v7 (ix2 r (lane (head c) d))) epsSq)
          * v37 (ix2 (0 : Fin 1) c) := by
  unfold k0_pay1
  refine (shapeCast_ab_1ab_apply _ shapeCasts_S256x1024_S1x256x1024 (0 : Fin 1) r c).trans ?_
  refine congrArg₂ (· * ·) (congrArg (k0_pay5 (F := Ideal) v0 v2 v7 (ix2 r c) * ·) ?_) ?_
  · unfold k0_pay10 k0_pay8 k0_pay9
    have hE' : ∀ (c : Fin 1024) (h : Fin 16), (shapeCast S1024x16 v17 shapeCasts_S1024x16_S1024x16) (ix2 c h) = mem 64 c.val h.val :=
      fun c h => (congrFun (shapeCast_self v17 _) (ix2 c h)).trans (hE c h)
    have hET' : ∀ (h : Fin 16) (c : Fin 1024), (shapeCast S16x1024 v19 shapeCasts_S16x1024_S16x1024) (ix2 h c) = mem 64 c.val h.val :=
      fun h c => (congrFun (shapeCast_self v19 _) (ix2 h c)).trans (hET h c)
    exact invNorm_apply (k0_pay5 (F := Ideal) v0 v2 v7) _ _ hE' hET' r c
  · refine (broadcastTo_1b_ab_apply _ broadcasts_S1x1024_S256x1024 r c).trans ?_
    exact congrFun (shapeCast_self v37 _) (ix2 (0 : Fin 1) c)

end Cert.KernelIdeal.QkStore

end
-- ==== Proof.QkvArray.lean ====
/-
  The first call as three functions of its seven operand arrays. Grid point (b, lt) computes positions 256·lt … 256·lt + 255
  of batch b: the three [2, 2048, 1024] results' blocks at (b, lt) from the input's block at (b, lt), the other six operands —
  the transposed weight, the two bias rows, the scale row and the two head-membership matrices — being whole arrays at every
  point. The 2 · 8 blocks tile each result.
-/
import proofs.«123132_j13383118095010_2_alg».proof.Proof.Gen.KernelIdeal.Frame
import proofs.«123132_j13383118095010_2_alg».proof.Proof.QkStore
import Idealize.ShloMosaic.Lib.Pipeline.Value

set_option maxRecDepth 16384

noncomputable section

namespace Cert.KernelIdeal.QkvArray

open Cert.KernelIdeal Cert.KernelIdeal.Gen Cert.Lib.HeadMembership Cert.KernelIdeal.KeyNorm
open Idealize.ShloMosaic Idealize.ShloMosaic.TcCoe Idealize.ShloMosaic.ValueIdx
open Idealize.ShloMosaic.Pipeline (Dat Cfg Window)

/-- The printed index maps over the 16 points, in the point's own coordinates (b, lt). -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = (grid0.coords t 0).val ∧ win0_7.index t (1 : Fin 3) = (grid0.coords t 1).val ∧ win0_7.index t (2 : Fin 3) = 0
    ∧ win0_8.index t (0 : Fin 3) = (grid0.coords t 0).val ∧ win0_8.index t (1 : Fin 3) = (grid0.coords t 1).val ∧ win0_8.index t (2 : Fin 3) = 0
    ∧ win0_9.index t (0 : Fin 3) = (grid0.coords t 0).val ∧ win0_9.index t (1 : Fin 3) = (grid0.coords t 1).val ∧ win0_9.index t (2 : Fin 3) = 0 :=
  (by decide +kernel : ∀ t : Fin grid0.N, _)

/-- Every (batch, position tile) is some grid point's. -/
theorem idx_onto : ∀ (b : Fin 2) (lt : Fin 8), ∃ t : Fin cfg0.N, (grid0.coords t 0).val = b.val ∧ (grid0.coords t 1).val = lt.val :=
  (by decide +kernel : ∀ (b : Fin 2) (lt : Fin 8), ∃ t : Fin grid0.N, (grid0.coords t 0).val = b.val ∧ (grid0.coords t 1).val = lt.val)

variable (V : (c : Dev nD) → (b : Ref sig .tc) → Buf (Elt Ideal) ((c : Thread nD τ).loc b))

/-- The input block of point t at (0, r, c): the input array at (b, 256·lt + r, c). -/
theorem x_read (c : Dev nD) (t : Fin cfg0.N) (b : Fin 2) (lt : Fin 8)
    (hb : (grid0.coords t 0).val = b.val) (hl : (grid0.coords t 1).val = lt.val) (r : Fin 256) (cc : Fin 1024) (hR : 256 * lt.val + r.val < 2048) :
    iblk0 V c 0 t (ix3 (0 : Fin 1) r cc) = V c (Pipeline.arrRef spec0 0) (ix3 b (⟨256 * lt.val + r.val, hR⟩ : Fin 2048) cc : S2x2048x1024.Idx) := by
  obtain ⟨e00, e01, e02, -⟩ := idx_facts t
  show V c (Pipeline.arrRef spec0 0) (((cfg0.win 0).blk t).view.emb (ix3 (0 : Fin 1) r cc)) = _
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * r.val = 256 * lt.val + r.val; omega
  | ⟨2, _⟩ => show win0_0.index t (2 : Fin 3) * 1024 + 1 * cc.val = cc.val; omega

/-- The weight block is the whole [1024, 3072] array at every point. -/
theorem w_read (c : Dev nD) (t : Fin cfg0.N) (k : Fin 1024) (o : Fin 3072) :
    iblk0 V c 1 t (ix2 k o) = V c (Pipeline.arrRef spec0 1) (ix2 k o : S1024x3072.Idx) := by
  obtain ⟨-, -, -, e10, e11, -⟩ := idx_facts t
  show V c (Pipeline.arrRef spec0 1) (((cfg0.win 1).blk t).view.emb (ix2 k o)) = _
  refine congrArg _ (funext fun a => Fin.ext ?_)
  match a with
  | ⟨0, _⟩ => show win0_1.index t (0 : Fin 2) * 1024 + 1 * k.val = k.val; omega
  | ⟨1, _⟩ => show win0_1.index t (1 : Fin 2) * 3072 + 1 * o.val = o.val; omega

/-- The query-bias block is the whole row at every point. -/
theorem qb_read (c : Dev nD) (t : Fin cfg0.N) (cc : Fin 1024) :
    iblk0 V c 2 t (ix2 (0 : Fin 1) cc) = V c (Pipeline.arrRef spec0 2) (ix2 (0 : Fin 1) cc : S1x1024.Idx) := by
  have hf := idx_facts t
  have e0 : win0_2.index t (0 : Fin 2) = 0 := by
    obtain ⟨-, -, -, -, -, a20, a21, a30, a31, a40, a41, -⟩ := hf; first | exact a20
  have e1 : win0_2.index t (1 : Fin 2) = 0 := by
    obtain ⟨-, -, -, -, -, a20, a21, a30, a31, a40, a41, -⟩ := hf; first | exact a21
  show V c (Pipeline.arrRef spec0 2) (((cfg0.win 2).blk t).view.emb (ix2 (0 : Fin 1) cc)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * cc.val = cc.val; omega

/-- The value-bias block is the whole row at every point. -/
theorem vb_read (c : Dev nD) (t : Fin cfg0.N) (cc : Fin 1024) :
    iblk0 V c 3 t (ix2 (0 : Fin 1) cc) = V c (Pipeline.arrRef spec0 3) (ix2 (0 : Fin 1) cc : S1x1024.Idx) := by
  have hf := idx_facts t
  have e0 : win0_3.index t (0 : Fin 2) = 0 := by
    obtain ⟨-, -, -, -, -, a20, a21, a30, a31, a40, a41, -⟩ := hf; first | exact a30
  have e1 : win0_3.index t (1 : Fin 2) = 0 := by
    obtain ⟨-, -, -, -, -, a20, a21, a30, a31, a40, a41, -⟩ := hf; first | exact a31
  show V c (Pipeline.arrRef spec0 3) (((cfg0.win 3).blk t).view.emb (ix2 (0 : Fin 1) cc)) = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * cc.val = cc.val; omega

/-- The scale block is the whole row at every point. -/
theorem sm_read (c : Dev nD) (t : Fin cfg0.N) (cc : Fin 1024) :
    iblk0 V c 4 t (ix2 (0 : Fin 1) cc) = V c (Pipeline.arrRef spec0 4) (ix2 (0 : Fin 1) cc : S1x1024.Idx) := by
  have hf := idx_facts t
  have e0 : win0_4.index t (0 : Fin 2) = 0 := by
    obtain ⟨-, -, -, -, -, a20, a21, a30, a31, a40, a41, -⟩ := hf; first | exact a40
  have e1 : win0_4.index t (1 : Fin 2) = 0 := by
    obtain ⟨-, -, -, -, -, a20, a21, a30, a31, a40, a41, -⟩ := hf; first | exact a41
  show V c (Pipeline.arrRef spec0 4) (((cfg0.win 4).blk t).view.emb (ix2 (0 : Fin 1) cc)) = _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * cc.val = cc.val; omega

/-- The membership-column block is the whole [1024, 16] array at every point. -/
theorem e_read (c : Dev nD) (t : Fin cfg0.N) (cc : Fin 1024) (h : Fin 16) :
    iblk0 V c 5 t (ix2 cc h) = V c (Pipeline.arrRef spec0 5) (ix2 cc h : S1024x16.Idx) := by
  obtain ⟨-, -, -, -, -, -, -, -, -, -, -, e50, e51, -⟩ := idx_facts t
  show V c (Pipeline.arrRef spec0 5) (((cfg0.win 5).blk t).view.emb (ix2 cc h)) = _
  refine congrArg _ (funext fun a => Fin.ext ?_)
  match a with
  | ⟨0, _⟩ => show win0_5.index t (0 : Fin 2) * 1024 + 1 * cc.val = cc.val; omega
  | ⟨1, _⟩ => show win0_5.index t (1 : Fin 2) * 16 + 1 * h.val = h.val; omega

/-- The membership-row block is the whole [16, 1024] array at every point. -/
theorem et_read (c : Dev nD) (t : Fin cfg0.N) (h : Fin 16) (cc : Fin 1024) :
    iblk0 V c 6 t (ix2 h cc) = V c (Pipeline.arrRef spec0 6) (ix2 h cc : S16x1024.Idx) := by
  obtain ⟨-, -, -, -, -, -, -, -, -, -, -, -, -, e60, e61, -⟩ := idx_facts t
  show V c (Pipeline.arrRef spec0 6) (((cfg0.win 6).blk t).view.emb (ix2 h cc)) = _
  refine congrArg _ (funext fun a => Fin.ext ?_)
  match a with
  | ⟨0, _⟩ => show win0_6.index t (0 : Fin 2) * 16 + 1 * h.val = h.val; omega
  | ⟨1, _⟩ => show win0_6.index t (1 : Fin 2) * 1024 + 1 * cc.val = cc.val; omega

/-! The value result, entry by entry. -/

/-- The values: the input times the weight's value columns, plus the value bias. -/
def vvAt (X : S2x2048x1024.Idx → EReal) (Wt : S1024x3072.Idx → EReal) (vb : S1x1024.Idx → EReal) (b : Fin 2) (l : Fin 2048) (c : Fin 1024) : EReal :=
  (∑ c' : Fin 1024, X (ix3 b l c') * Wt (ix2 c' (⟨2048 + c.val, by have := c.isLt; omega⟩ : Fin 3072))) + vb (ix2 (0 : Fin 1) c)

def vv (X : S2x2048x1024.Idx → EReal) (Wt : S1024x3072.Idx → EReal) (vb : S1x1024.Idx → EReal) : S2x2048x1024.Idx → EReal :=
  fun i => vvAt X Wt vb (i 0) (i 1) (i 2)

theorem vv_apply (X : S2x2048x1024.Idx → EReal) (Wt : S1024x3072.Idx → EReal) (vb : S1x1024.Idx → EReal) (b : Fin 2) (l : Fin 2048) (c : Fin 1024) :
    vv X Wt vb (ix3 b l c) = vvAt X Wt vb b l c := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The value window's rectangle at point t sends block entry (0, r, c) to array entry (b, 256·lt + r, c). -/
theorem out9_emb (t : Fin cfg0.N) (b : Fin 2) (lt : Fin 8) (hb : (grid0.coords t 0).val = b.val) (hl : (grid0.coords t 1).val = lt.val)
    (r : Fin 256) (cc : Fin 1024) (hR : 256 * lt.val + r.val < 2048) :
    ((cfg0.win 9).blk t).view.emb (ix3 (0 : Fin 1) r cc) = (ix3 b (⟨256 * lt.val + r.val, hR⟩ : Fin 2048) cc : S2x2048x1024.Idx) := by
  obtain ⟨-, -, -, -, -, -, -, -, -, -, -, -, -, -, -, -, -, -, -, -, -, e0, e1, e2⟩ := idx_facts t
  funext a; apply Fin.ext
  match a with
  | ⟨0, _⟩ => show win0_9.index t (0 : Fin 3) * 1 + 1 * 0 = b.val; omega
  | ⟨1, _⟩ => show win0_9.index t (1 : Fin 3) * 256 + 1 * r.val = 256 * lt.val + r.val; omega
  | ⟨2, _⟩ => show win0_9.index t (2 : Fin 3) * 1024 + 1 * cc.val = cc.val; omega

/-- WHAT POINT t WRITES BACK to the value result: block t of the values of the arrays as the call finds them. -/
theorem flushed9_eq (c : Dev nD) (t : Fin cfg0.N) :
    (dat0 (F := Ideal) V c).flushed 9 t
      = ((cfg0.win 9).blk t).view.read (Elt Ideal)
          (vv (V c (Pipeline.arrRef spec0 0)) (V c (Pipeline.arrRef spec0 1)) (V c (Pipeline.arrRef spec0 3))) := by
  show (cfg0.win 9).cut (grid0.coords t) ((dat0 (F := Ideal) V c).after 9 t) = _
  rw [after0_9]
  unfold out0_9
  rw [View.canon_unit_zero hz3]
  simp only [View.ld_unit_zero (S := S1x256x1024) hz3, View.ld_unit_zero (S := S1024x3072) hz2, View.ld_unit_zero (S := S1x1024) hz2]
  funext j
  obtain ⟨u, r, cc, rfl⟩ : ∃ (u : Fin 1) (r : Fin 256) (cc : Fin 1024), j = ix3 u r cc := ⟨j 0, j 1, j 2, eq_ix3 j⟩
  obtain rfl : u = 0 := Subsingleton.elim _ _
  have h0 : (grid0.coords t 0).val < 2 := (grid0.coords t 0).isLt
  have h1 : (grid0.coords t 1).val < 8 := (grid0.coords t 1).isLt
  let b : Fin 2 := ⟨(grid0.coords t 0).val, h0⟩
  let lt : Fin 8 := ⟨(grid0.coords t 1).val, h1⟩
  have hR : 256 * lt.val + r.val < 2048 := by have := r.isLt; show 256 * (grid0.coords t 1).val + r.val < 2048; omega
  have hc : 2048 + cc.val < 3072 := by have := cc.isLt; omega
  show k0_pay3 (F := Ideal) (k0_pay7 (F := Ideal) (iblk0 V c 0 t) (iblk0 V c 1 t) (iblk0 V c 3 t)) (ix3 (0 : Fin 1) r cc)
    = vv _ _ _ (((cfg0.win 9).blk t).view.emb (ix3 (0 : Fin 1) r cc))
  rw [Qkv.v_apply _ _ _ r cc hc, out9_emb t b lt rfl rfl r cc hR, vv_apply, vb_read V c t cc]
  unfold vvAt
  refine congrArg (· + _) (Finset.sum_congr rfl fun c' _ => ?_)
  rw [x_read V c t b lt rfl rfl r c' hR, w_read V c t c' _]

/-- An entry of a [2, 2048, 1024] result is in point t's block of window 9 iff each coordinate is in the block's range. -/
theorem mem_blk9 (t : Fin cfg0.N) (i : S2x2048x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v21_2).slice (win0_9.rect t)).set ↔ _
  rw [View.set_slice_whole, Rect.mem_set_unit]
  exact Iff.rfl

/-- The 2 · 8 blocks tile the value result: entry (b, l, c) lies in the block of the point (b, l / 256). -/
theorem cover9 (i : S2x2048x1024.Idx) : ∃ t : Fin cfg0.N, (cfg0.win 9).flush t = true ∧ i ∈ ((cfg0.win 9).blk t).view.set := by
  have hi0 : (i 0).val < 2 := (i 0).isLt
  have hi1 : (i 1).val < 2048 := (i 1).isLt
  have hi2 : (i 2).val < 1024 := (i 2).isLt
  obtain ⟨t, hb, hl⟩ := idx_onto ⟨(i 0).val, hi0⟩ ⟨(i 1).val / 256, by omega⟩
  refine ⟨t, flush0_9 t, ?_⟩
  rw [mem_blk9]
  obtain ⟨-, -, -, -, -, -, -, -, -, -, -, -, -, -, -, -, -, -, -, -, -, e0, e1, e2⟩ := idx_facts t
  have hb' : (grid0.coords t 0).val = (i 0).val := hb
  have hl' : (grid0.coords t 1).val = (i 1).val / 256 := hl
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

/-- THE VALUE ARRAY after the call: the values of the operand arrays as the call finds them. -/
theorem final9 (c : Dev nD) :
    (dat0 (F := Ideal) V c).arrAt 9 cfg0.N
      = vv (V c (Pipeline.arrRef spec0 0)) (V c (Pipeline.arrRef spec0 1)) (V c (Pipeline.arrRef spec0 3)) :=
  (dat0 (F := Ideal) V c).arrAt_eq_of_cover 9 _ (fun t _ => flushed9_eq V c t) cover9

end Cert.KernelIdeal.QkvArray

end
-- ==== Proof.QkArray.lean ====
/-
  The first call's key and query results as functions of its operand arrays. For lane c of head h = c / 64 at batch b, position l:
    the stored key   is k b l c · rsqrt (max (∑ over head h's 64 lanes of k², ε²)),
    the stored query is q b l c · rsqrt (max (∑ over head h's 64 lanes of q², ε²)) · sm c,
  with k and q the input times the weight's key and query columns (q with its bias), when the two membership operands are
  the 0/1 head-membership matrix and its transpose. The 2 · 8 blocks tile each [2, 2048, 1024] result.
-/
import proofs.«123132_j13383118095010_2_alg».proof.Proof.QkvArray

set_option maxRecDepth 16384

noncomputable section

namespace Cert.KernelIdeal.QkvArray

open Cert.KernelIdeal Cert.KernelIdeal.Gen Cert.Lib.HeadMembership Cert.KernelIdeal.KeyNorm
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! The key and query results, entry by entry. -/

/-- The keys before normalisation: the input times the weight's key columns. -/
def kkAt (X : S2x2048x1024.Idx → EReal) (Wt : S1024x3072.Idx → EReal) (b : Fin 2) (l : Fin 2048) (c : Fin 1024) : EReal :=
  ∑ c' : Fin 1024, X (ix3 b l c') * Wt (ix2 c' (⟨1024 + c.val, by have := c.isLt; omega⟩ : Fin 3072))

/-- The queries before normalisation: the input times the weight's query columns, plus the query bias. -/
def qqAt (X : S2x2048x1024.Idx → EReal) (Wt : S1024x3072.Idx → EReal) (qb : S1x1024.Idx → EReal) (b : Fin 2) (l : Fin 2048) (c : Fin 1024) : EReal :=
  (∑ c' : Fin 1024, X (ix3 b l c') * Wt (ix2 c' (⟨0 + c.val, by have := c.isLt; omega⟩ : Fin 3072))) + qb (ix2 (0 : Fin 1) c)

/-- An entry times the reciprocal of its head's norm floored at ε (as rsqrt of the squared norm floored at ε²). -/
def normed (Y : Fin 2 → Fin 2048 → Fin 1024 → EReal) (b : Fin 2) (l : Fin 2048) (c : Fin 1024) : EReal :=
  Y b l c * Ideal.rsqrt (max (∑ d : Fin 64, Y b l (lane (head c) d) * Y b l (lane (head c) d)) epsSq)

def kn (X : S2x2048x1024.Idx → EReal) (Wt : S1024x3072.Idx → EReal) : S2x2048x1024.Idx → EReal :=
  fun i => normed (kkAt X Wt) (i 0) (i 1) (i 2)

def qn (X : S2x2048x1024.Idx → EReal) (Wt : S1024x3072.Idx → EReal) (qb sm : S1x1024.Idx → EReal) : S2x2048x1024.Idx → EReal :=
  fun i => normed (qqAt X Wt qb) (i 0) (i 1) (i 2) * sm (ix2 (0 : Fin 1) (i 2))

theorem kn_apply (X : S2x2048x1024.Idx → EReal) (Wt : S1024x3072.Idx → EReal) (b : Fin 2) (l : Fin 2048) (c : Fin 1024) :
    kn X Wt (ix3 b l c) = normed (kkAt X Wt) b l c := rfl
theorem qn_apply (X : S2x2048x1024.Idx → EReal) (Wt : S1024x3072.Idx → EReal) (qb sm : S1x1024.Idx → EReal) (b : Fin 2) (l : Fin 2048) (c : Fin 1024) :
    qn X Wt qb sm (ix3 b l c) = normed (qqAt X Wt qb) b l c * sm (ix2 (0 : Fin 1) c) := rfl

/-- Window 8's rectangle at point t sends block entry (0, r, c) to array entry (b, 256·lt + r, c). -/
theorem out8_emb (t : Fin cfg0.N) (b : Fin 2) (lt : Fin 8) (hb : (grid0.coords t 0).val = b.val) (hl : (grid0.coords t 1).val = lt.val)
    (r : Fin 256) (cc : Fin 1024) (hR : 256 * lt.val + r.val < 2048) :
    ((cfg0.win 8).blk t).view.emb (ix3 (0 : Fin 1) r cc) = (ix3 b (⟨256 * lt.val + r.val, hR⟩ : Fin 2048) cc : S2x2048x1024.Idx) := by
  obtain ⟨-, -, -, -, -, -, -, -, -, -, -, -, -, -, -, -, -, -, e0, e1, e2, -⟩ := idx_facts t
  funext a; apply Fin.ext
  match a with
  | ⟨0, _⟩ => show win0_8.index t (0 : Fin 3) * 1 + 1 * 0 = b.val; omega
  | ⟨1, _⟩ => show win0_8.index t (1 : Fin 3) * 256 + 1 * r.val = 256 * lt.val + r.val; omega
  | ⟨2, _⟩ => show win0_8.index t (2 : Fin 3) * 1024 + 1 * cc.val = cc.val; omega

theorem mem_blk8 (t : Fin cfg0.N) (i : S2x2048x1024.Idx) :
    i ∈ ((cfg0.win 8).blk t).view.set ↔ ∀ a : Fin 3, win0_8.index t a * S1x256x1024.size a ≤ (i a).val ∧ (i a).val < win0_8.index t a * S1x256x1024.size a + S1x256x1024.size a := by
  show i ∈ ((View.whole main_v21_1).slice (win0_8.rect t)).set ↔ _
  rw [View.set_slice_whole, Rect.mem_set_unit]
  exact Iff.rfl

theorem cover8 (i : S2x2048x1024.Idx) : ∃ t : Fin cfg0.N, (cfg0.win 8).flush t = true ∧ i ∈ ((cfg0.win 8).blk t).view.set := by
  have hi0 : (i 0).val < 2 := (i 0).isLt
  have hi1 : (i 1).val < 2048 := (i 1).isLt
  have hi2 : (i 2).val < 1024 := (i 2).isLt
  obtain ⟨t, hb, hl⟩ := idx_onto ⟨(i 0).val, hi0⟩ ⟨(i 1).val / 256, by omega⟩
  refine ⟨t, flush0_8 t, ?_⟩
  rw [mem_blk8]
  obtain ⟨-, -, -, -, -, -, -, -, -, -, -, -, -, -, -, -, -, -, e0, e1, e2, -⟩ := idx_facts t
  have hb' : (grid0.coords t 0).val = (i 0).val := hb
  have hl' : (grid0.coords t 1).val = (i 1).val / 256 := hl
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1024 ≤ (i 2).val ∧ (i 2).val < win0_8.index t (2 : Fin 3) * 1024 + 1024; omega

/-- Window 7's rectangle at point t sends block entry (0, r, c) to array entry (b, 256·lt + r, c). -/
theorem out7_emb (t : Fin cfg0.N) (b : Fin 2) (lt : Fin 8) (hb : (grid0.coords t 0).val = b.val) (hl : (grid0.coords t 1).val = lt.val)
    (r : Fin 256) (cc : Fin 1024) (hR : 256 * lt.val + r.val < 2048) :
    ((cfg0.win 7).blk t).view.emb (ix3 (0 : Fin 1) r cc) = (ix3 b (⟨256 * lt.val + r.val, hR⟩ : Fin 2048) cc : S2x2048x1024.Idx) := by
  obtain ⟨-, -, -, -, -, -, -, -, -, -, -, -, -, -, -, e0, e1, e2, -⟩ := idx_facts t
  funext a; apply Fin.ext
  match a with
  | ⟨0, _⟩ => show win0_7.index t (0 : Fin 3) * 1 + 1 * 0 = b.val; omega
  | ⟨1, _⟩ => show win0_7.index t (1 : Fin 3) * 256 + 1 * r.val = 256 * lt.val + r.val; omega
  | ⟨2, _⟩ => show win0_7.index t (2 : Fin 3) * 1024 + 1 * cc.val = cc.val; omega

theorem mem_blk7 (t : Fin cfg0.N) (i : S2x2048x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v21_0).slice (win0_7.rect t)).set ↔ _
  rw [View.set_slice_whole, Rect.mem_set_unit]
  exact Iff.rfl

theorem cover7 (i : S2x2048x1024.Idx) : ∃ t : Fin cfg0.N, (cfg0.win 7).flush t = true ∧ i ∈ ((cfg0.win 7).blk t).view.set := by
  have hi0 : (i 0).val < 2 := (i 0).isLt
  have hi1 : (i 1).val < 2048 := (i 1).isLt
  have hi2 : (i 2).val < 1024 := (i 2).isLt
  obtain ⟨t, hb, hl⟩ := idx_onto ⟨(i 0).val, hi0⟩ ⟨(i 1).val / 256, by omega⟩
  refine ⟨t, flush0_7 t, ?_⟩
  rw [mem_blk7]
  obtain ⟨-, -, -, -, -, -, -, -, -, -, -, -, -, -, -, e0, e1, e2, -⟩ := idx_facts t
  have hb' : (grid0.coords t 0).val = (i 0).val := hb
  have hl' : (grid0.coords t 1).val = (i 1).val / 256 := hl
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- The key columns of a point's fused product at (r, c) are the keys of the arrays at (b, 256·lt + r, c), for any lane c. -/
theorem kk_blk (c : Dev nD) (t : Fin cfg0.N) (b : Fin 2) (lt : Fin 8) (hb : (grid0.coords t 0).val = b.val) (hl : (grid0.coords t 1).val = lt.val)
    (r : Fin 256) (hR : 256 * lt.val + r.val < 2048) (cc : Fin 1024) :
    k0_pay6 (F := Ideal) (iblk0 V c 0 t) (iblk0 V c 1 t) (ix2 r cc)
      = kkAt (V c (Pipeline.arrRef spec0 0)) (V c (Pipeline.arrRef spec0 1)) b (⟨256 * lt.val + r.val, hR⟩ : Fin 2048) cc := by
  have hc : 1024 + cc.val < 3072 := by have := cc.isLt; omega
  rw [QkStore.k_apply _ _ r cc hc]
  unfold kkAt
  refine Finset.sum_congr rfl fun c' _ => ?_
  rw [x_read V c t b lt hb hl r c' hR, w_read V c t c' _]

/-- The query columns of a point's fused product plus bias at (r, c) are the queries of the arrays at (b, 256·lt + r, c). -/
theorem qq_blk (c : Dev nD) (t : Fin cfg0.N) (b : Fin 2) (lt : Fin 8) (hb : (grid0.coords t 0).val = b.val) (hl : (grid0.coords t 1).val = lt.val)
    (r : Fin 256) (hR : 256 * lt.val + r.val < 2048) (cc : Fin 1024) :
    k0_pay5 (F := Ideal) (iblk0 V c 0 t) (iblk0 V c 1 t) (iblk0 V c 2 t) (ix2 r cc)
      = qqAt (V c (Pipeline.arrRef spec0 0)) (V c (Pipeline.arrRef spec0 1)) (V c (Pipeline.arrRef spec0 2)) b (⟨256 * lt.val + r.val, hR⟩ : Fin 2048) cc := by
  have hc : 0 + cc.val < 3072 := by have := cc.isLt; omega
  rw [QkStore.q_apply _ _ _ r cc hc, qb_read V c t cc]
  unfold qqAt
  refine congrArg (· + _) (Finset.sum_congr rfl fun c' _ => ?_)
  rw [x_read V c t b lt hb hl r c' hR, w_read V c t c' _]

/-- WHAT POINT t WRITES BACK to the key result: block t of the normalised keys, when the two membership operands are the
    head-membership matrix and its transpose. -/
theorem flushed8_eq (c : Dev nD)
    (hE : ∀ (cc : Fin 1024) (h : Fin 16), V c (Pipeline.arrRef spec0 5) (ix2 cc h : S1024x16.Idx) = mem 64 cc.val h.val)
    (hET : ∀ (h : Fin 16) (cc : Fin 1024), V c (Pipeline.arrRef spec0 6) (ix2 h cc : S16x1024.Idx) = mem 64 cc.val h.val)
    (t : Fin cfg0.N) :
    (dat0 (F := Ideal) V c).flushed 8 t
      = ((cfg0.win 8).blk t).view.read (Elt Ideal) (kn (V c (Pipeline.arrRef spec0 0)) (V c (Pipeline.arrRef spec0 1))) := by
  show (cfg0.win 8).cut (grid0.coords t) ((dat0 (F := Ideal) V c).after 8 t) = _
  rw [after0_8]
  unfold out0_8
  rw [View.canon_unit_zero hz3]
  simp only [View.ld_unit_zero (S := S1x256x1024) hz3, View.ld_unit_zero (S := S1024x3072) hz2, View.ld_unit_zero (S := S1024x16) hz2, View.ld_unit_zero (S := S16x1024) hz2]
  funext j
  obtain ⟨u, r, cc, rfl⟩ : ∃ (u : Fin 1) (r : Fin 256) (cc : Fin 1024), j = ix3 u r cc := ⟨j 0, j 1, j 2, eq_ix3 j⟩
  obtain rfl : u = 0 := Subsingleton.elim _ _
  have h0 : (grid0.coords t 0).val < 2 := (grid0.coords t 0).isLt
  have h1 : (grid0.coords t 1).val < 8 := (grid0.coords t 1).isLt
  let b : Fin 2 := ⟨(grid0.coords t 0).val, h0⟩
  let lt : Fin 8 := ⟨(grid0.coords t 1).val, h1⟩
  have hR : 256 * lt.val + r.val < 2048 := by have := r.isLt; show 256 * (grid0.coords t 1).val + r.val < 2048; omega
  show k0_pay2 (F := Ideal) (k0_pay6 (F := Ideal) (iblk0 V c 0 t) (iblk0 V c 1 t)) (k0_pay11 (F := Ideal) (iblk0 V c 0 t) (iblk0 V c 1 t) (iblk0 V c 5 t) (iblk0 V c 6 t)) (ix3 (0 : Fin 1) r cc)
    = kn _ _ (((cfg0.win 8).blk t).view.emb (ix3 (0 : Fin 1) r cc))
  rw [QkStore.key_store _ _ _ _ (fun c' h => (e_read V c t c' h).trans (hE c' h)) (fun h c' => (et_read V c t h c').trans (hET h c')) r cc,
    out8_emb t b lt rfl rfl r cc hR, kn_apply]
  unfold normed
  rw [kk_blk V c t b lt rfl rfl r hR cc]
  refine congrArg (fun s => _ * Ideal.rsqrt (max s epsSq)) (Finset.sum_congr rfl fun d _ => ?_)
  rw [kk_blk V c t b lt rfl rfl r hR (lane (head cc) d)]

/-- THE KEY ARRAY after the call, under the two membership hypotheses. -/
theorem final8 (c : Dev nD)
    (hE : ∀ (cc : Fin 1024) (h : Fin 16), V c (Pipeline.arrRef spec0 5) (ix2 cc h : S1024x16.Idx) = mem 64 cc.val h.val)
    (hET : ∀ (h : Fin 16) (cc : Fin 1024), V c (Pipeline.arrRef spec0 6) (ix2 h cc : S16x1024.Idx) = mem 64 cc.val h.val) :
    (dat0 (F := Ideal) V c).arrAt 8 cfg0.N = kn (V c (Pipeline.arrRef spec0 0)) (V c (Pipeline.arrRef spec0 1)) :=
  (dat0 (F := Ideal) V c).arrAt_eq_of_cover 8 _ (fun t _ => flushed8_eq V c hE hET t) cover8

/-- WHAT POINT t WRITES BACK to the query result: block t of the normalised, scaled queries, under the same hypotheses. -/
theorem flushed7_eq (c : Dev nD)
    (hE : ∀ (cc : Fin 1024) (h : Fin 16), V c (Pipeline.arrRef spec0 5) (ix2 cc h : S1024x16.Idx) = mem 64 cc.val h.val)
    (hET : ∀ (h : Fin 16) (cc : Fin 1024), V c (Pipeline.arrRef spec0 6) (ix2 h cc : S16x1024.Idx) = mem 64 cc.val h.val)
    (t : Fin cfg0.N) :
    (dat0 (F := Ideal) V c).flushed 7 t
      = ((cfg0.win 7).blk t).view.read (Elt Ideal)
          (qn (V c (Pipeline.arrRef spec0 0)) (V c (Pipeline.arrRef spec0 1)) (V c (Pipeline.arrRef spec0 2)) (V c (Pipeline.arrRef spec0 4))) := by
  show (cfg0.win 7).cut (grid0.coords t) ((dat0 (F := Ideal) V c).after 7 t) = _
  rw [after0_7]
  unfold out0_7
  rw [View.canon_unit_zero hz3]
  simp only [View.ld_unit_zero (S := S1x256x1024) hz3, View.ld_unit_zero (S := S1024x3072) hz2, View.ld_unit_zero (S := S1x1024) hz2, View.ld_unit_zero (S := S1024x16) hz2, View.ld_unit_zero (S := S16x1024) hz2]
  funext j
  obtain ⟨u, r, cc, rfl⟩ : ∃ (u : Fin 1) (r : Fin 256) (cc : Fin 1024), j = ix3 u r cc := ⟨j 0, j 1, j 2, eq_ix3 j⟩
  obtain rfl : u = 0 := Subsingleton.elim _ _
  have h0 : (grid0.coords t 0).val < 2 := (grid0.coords t 0).isLt
  have h1 : (grid0.coords t 1).val < 8 := (grid0.coords t 1).isLt
  let b : Fin 2 := ⟨(grid0.coords t 0).val, h0⟩
  let lt : Fin 8 := ⟨(grid0.coords t 1).val, h1⟩
  have hR : 256 * lt.val + r.val < 2048 := by have := r.isLt; show 256 * (grid0.coords t 1).val + r.val < 2048; omega
  show k0_pay1 (F := Ideal) (k0_pay5 (F := Ideal) (iblk0 V c 0 t) (iblk0 V c 1 t) (iblk0 V c 2 t))
      (k0_pay10 (F := Ideal) (iblk0 V c 0 t) (iblk0 V c 1 t) (iblk0 V c 2 t) (iblk0 V c 5 t) (iblk0 V c 6 t)) (iblk0 V c 4 t) (ix3 (0 : Fin 1) r cc)
    = qn _ _ _ _ (((cfg0.win 7).blk t).view.emb (ix3 (0 : Fin 1) r cc))
  rw [QkStore.query_store _ _ _ _ _ _ (fun c' h => (e_read V c t c' h).trans (hE c' h)) (fun h c' => (et_read V c t h c').trans (hET h c')) r cc,
    out7_emb t b lt rfl rfl r cc hR, qn_apply, sm_read V c t cc]
  unfold normed
  rw [qq_blk V c t b lt rfl rfl r hR cc]
  refine congrArg (fun s => _ * Ideal.rsqrt (max s epsSq) * _) (Finset.sum_congr rfl fun d _ => ?_)
  rw [qq_blk V c t b lt rfl rfl r hR (lane (head cc) d)]

/-- THE QUERY ARRAY after the call, under the two membership hypotheses. -/
theorem final7 (c : Dev nD)
    (hE : ∀ (cc : Fin 1024) (h : Fin 16), V c (Pipeline.arrRef spec0 5) (ix2 cc h : S1024x16.Idx) = mem 64 cc.val h.val)
    (hET : ∀ (h : Fin 16) (cc : Fin 1024), V c (Pipeline.arrRef spec0 6) (ix2 h cc : S16x1024.Idx) = mem 64 cc.val h.val) :
    (dat0 (F := Ideal) V c).arrAt 7 cfg0.N
      = qn (V c (Pipeline.arrRef spec0 0)) (V c (Pipeline.arrRef spec0 1)) (V c (Pipeline.arrRef spec0 2)) (V c (Pipeline.arrRef spec0 4)) :=
  (dat0 (F := Ideal) V c).arrAt_eq_of_cover 7 _ (fun t _ => flushed7_eq V c hE hET t) cover7

end Cert.KernelIdeal.QkvArray

end
-- ==== Proof.KernelSpec.lean ====
/-
  The three calls' array functions are the specification's. The attention of four [2, 16, 2048, 64]-indexed arrays is the
  specification's attention of the same tensors written with separate coordinates; the projection of a [4096, 1024] array whose row
  2048·b + l, lane c is a tensor's entry (b, c / 64, l, c mod 64), by a weight whose (c, o) entry is W_proj (o, c) and a bias row, is
  the specification's output projection of that tensor.
-/
import proofs.«123132_j13383118095010_2_alg».proof.Proof.Spec
import proofs.«123132_j13383118095010_2_alg».proof.Proof.Relay
import proofs.«123132_j13383118095010_2_alg».proof.Proof.AttnArray
import proofs.«123132_j13383118095010_2_alg».proof.Proof.ProjArray
import proofs.«123132_j13383118095010_2_alg».proof.Proof.QkArray

noncomputable section

namespace Cert.KernelIdeal.KernelSpec

open Cert.KernelIdeal Cert.KernelIdeal.KeyNorm Cert.Spec Cert.KernelIdeal.Relay
open Idealize.ShloMosaic Idealize.ShloMosaic.TcCoe Idealize.ShloMosaic.ValueIdx

/-- An index-typed [2, 16, 2048, 64] array as a tensor with separate coordinates. -/
def cur (A : S2x16x2048x64.Idx → EReal) : T4 := fun b h l d => A (ix4 b h l d)

/-- The second call's attention is the specification's. -/
theorem attn_eq (Qa Ka Va : S2x16x2048x64.Idx → EReal) (Ba : S1x1x2048x2048.Idx → EReal) (b : Fin 2) (h : Fin 16) (l : Fin 2048) (d : Fin 64) :
    AttnArray.attn Qa Ka Va Ba (ix4 b h l d) = att (cur Qa) (cur Ka) (cur Va) Ba b h l d := rfl

/-- The third call's projection of the re-laid tensor is the specification's output projection. -/
theorem proj_eq (A : S2x16x2048x64.Idx → EReal) (Arows : S4096x1024.Idx → EReal) (Wt : S1024x1024.Idx → EReal) (brow : S1x1024.Idx → EReal)
    (Wp : S1024x1024.Idx → EReal) (bp : S1024.Idx → EReal)
    (hA : ∀ (b : Fin 2) (l : Fin 2048) (c : Fin 1024), Arows (ix2 (row b l) c) = A (ix4 b (head c) l (sub c)))
    (hW : ∀ (c o : Fin 1024), Wt (ix2 c o) = Wp (ix2 o c)) (hb : ∀ o : Fin 1024, brow (ix2 (0 : Fin 1) o) = bp (ix1 o))
    (b : Fin 2) (l : Fin 2048) (o : Fin 1024) :
    ProjArray.proj Arows Wt brow (ix2 (row b l) o) = outOf (cur A) Wp bp b l o := by
  rw [ProjArray.proj_apply]
  unfold outOf cur
  rw [hb o]
  refine congrArg (· + _) (Finset.sum_congr rfl fun c _ => ?_)
  rw [hA b l c, hW c o]

/-! The first call's three results, at a head index, are the specification's q̂, k̂, v̂ — given what its operands are. -/

section FirstCall
variable (X : S2x2048x1024.Idx → EReal) (Wt : S1024x3072.Idx → EReal) (W : S3072x1024.Idx → EReal)
  (hW : ∀ (k : Fin 1024) (o : Fin 3072), Wt (ix2 k o) = W (ix2 o k))

include hW in
theorem kk_eq (b : Fin 2) (l : Fin 2048) (c : Fin 1024) : QkvArray.kkAt X Wt b l c = kraw X W b l c := by
  unfold QkvArray.kkAt kraw
  exact Finset.sum_congr rfl fun c' _ => by rw [hW c' _]

include hW in
theorem qq_eq (qrow : S1x1024.Idx → EReal) (qb : S1024.Idx → EReal) (hq : ∀ c : Fin 1024, qrow (ix2 (0 : Fin 1) c) = qb (ix1 c))
    (b : Fin 2) (l : Fin 2048) (c : Fin 1024) : QkvArray.qqAt X Wt qrow b l c = qraw X W qb b l c := by
  unfold QkvArray.qqAt qraw
  rw [hq c]
  exact congrArg (· + _) (Finset.sum_congr rfl fun c' _ => by rw [hW c' _])

include hW in
theorem vv_eq (vrow : S1x1024.Idx → EReal) (vb : S1024.Idx → EReal) (hv : ∀ c : Fin 1024, vrow (ix2 (0 : Fin 1) c) = vb (ix1 c))
    (b : Fin 2) (l : Fin 2048) (c : Fin 1024) : QkvArray.vvAt X Wt vrow b l c = vraw X W vb b l c := by
  unfold QkvArray.vvAt vraw
  rw [hv c]
  exact congrArg (· + _) (Finset.sum_congr rfl fun c' _ => by rw [hW c' _])

/-- The two spellings of "an entry times the reciprocal floored norm of its head" agree when the entries do. -/
theorem normed_eq (Y : Fin 2 → Fin 2048 → Fin 1024 → EReal) (Z : Fin 1024 → EReal) (b : Fin 2) (l : Fin 2048)
    (hY : ∀ c, Y b l c = Z c) (c : Fin 1024) : QkvArray.normed Y b l c = nrm Z c := by
  unfold QkvArray.normed nrm
  rw [hY c]
  exact congrArg (fun s => Z c * Ideal.rsqrt (max s epsSq)) (Finset.sum_congr rfl fun d _ => by rw [hY (lane (head c) d)])

include hW in
/-- The stored values at a head index. -/
theorem vhat_eq (vrow : S1x1024.Idx → EReal) (vb : S1024.Idx → EReal) (hv : ∀ c : Fin 1024, vrow (ix2 (0 : Fin 1) c) = vb (ix1 c))
    (b : Fin 2) (h : Fin 16) (l : Fin 2048) (d : Fin 64) :
    QkvArray.vv X Wt vrow (ix3 b l (lane h d)) = vhat X W vb b h l d := by
  rw [QkvArray.vv_apply]
  exact vv_eq X Wt W hW vrow vb hv b l (lane h d)

include hW in
/-- The stored keys at a head index. -/
theorem khat_eq (b : Fin 2) (h : Fin 16) (l : Fin 2048) (d : Fin 64) :
    QkvArray.kn X Wt (ix3 b l (lane h d)) = khat X W b h l d := by
  rw [QkvArray.kn_apply]
  exact normed_eq (QkvArray.kkAt X Wt) (kraw X W b l) b l (fun c => kk_eq X Wt W hW b l c) (lane h d)

include hW in
/-- The stored queries at a head index. -/
theorem qhat_eq (qrow sm : S1x1024.Idx → EReal) (qb : S1024.Idx → EReal) (s5 : S1x16x1x1.Idx → EReal)
    (hq : ∀ c : Fin 1024, qrow (ix2 (0 : Fin 1) c) = qb (ix1 c)) (hs : ∀ c : Fin 1024, sm (ix2 (0 : Fin 1) c) = smul s5 (head c))
    (b : Fin 2) (h : Fin 16) (l : Fin 2048) (d : Fin 64) :
    QkvArray.qn X Wt qrow sm (ix3 b l (lane h d)) = qhat X W qb s5 b h l d := by
  rw [QkvArray.qn_apply, hs (lane h d), head_lane]
  unfold qhat
  exact congrArg (· * smul s5 h) (normed_eq (QkvArray.qqAt X Wt qrow) (qraw X W qb b l) b l (fun c => qq_eq X Wt W hW qrow qb hq b l c) (lane h d))

end FirstCall

end Cert.KernelIdeal.KernelSpec

end
-- ==== Proof.Tail.lean ====
/-
  The kernel's result array is the [4096, 1024] output of the projection viewed as [2, 2048, 1024]: the one host
  operation after the third call is that reshape, and the third call leaves the projection of its three operands.
-/
import proofs.«123132_j13383118095010_2_alg».proof.Proof.Gen.KernelIdeal.Frame
import proofs.«123132_j13383118095010_2_alg».proof.Proof.ProjArray
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg)

/-- The result array after the last stretch: the projection of the third call's operands, reshaped. -/
theorem result_eq (c : Dev nD) :
    (W9 (F := Ideal) m ρ c (Proc.devRef .tc main_v35) : S2x2048x1024.Idx → EReal)
      = shapeCast S2x2048x1024
          (ProjArray.proj (V7 (F := Ideal) m ρ c (Pipeline.arrRef spec2 0)) (V7 (F := Ideal) m ρ c (Pipeline.arrRef spec2 1))
            (V7 (F := Ideal) m ρ c (Pipeline.arrRef spec2 2)))
          shapeCasts_S4096x1024_S2x2048x1024 := by
  show StableHlo.after hostOps3 (W8 (F := Ideal) m ρ c) (Proc.devRef .tc main_v35) = _
  after_results
  have hW : W8 (F := Ideal) m ρ c (Proc.devRef .tc main_v34)
      = ProjArray.proj (V7 (F := Ideal) m ρ c (Pipeline.arrRef spec2 0)) (V7 (F := Ideal) m ρ c (Pipeline.arrRef spec2 1))
          (V7 (F := Ideal) m ρ c (Pipeline.arrRef spec2 2)) :=
    (W8_arr (F := Ideal) m ρ c 3).trans (ProjArray.final (V7 (F := Ideal) m ρ) c)
  rw [hW]
  rfl

end Cert.KernelIdeal.Tail

end
-- ==== Proof.ProjIn.lean ====
/-
  The third call's operands as the stretch of host operations before it leaves them: the row operand is the second
  call's [2, 16, 2048, 64] output with the head axis moved next to the lanes and the two batch axes merged into 4096 rows
  of 1024 lanes; the weight is W_proj transposed (its change of format is the identity on the extended reals); the
  bias is b_proj as one row.
-/
import proofs.«123132_j13383118095010_2_alg».proof.Proof.Gen.KernelIdeal.Frame
import Idealize.ShloMosaic.Lib.StableHlo.Run

set_option maxRecDepth 16384

noncomputable section

namespace Cert.KernelIdeal.ProjIn

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- The bias operand: b_proj as a [1, 1024] row. -/
theorem bias_eq (c : Dev nD) :
    (V7 (F := Ideal) m ρ c (Pipeline.arrRef spec2 2) : S1x1024.Idx → EReal)
      = shapeCast S1x1024 (W6 (F := Ideal) m ρ c (Proc.devRef .tc main_arg7)) shapeCasts_S1024_S1x1024 := by
  show StableHlo.after hostOps2 (W6 (F := Ideal) m ρ c) (Proc.devRef .tc main_v33) = _
  after_results
  rfl

/-- The weight operand: W_proj transposed. -/
theorem weight_eq (c : Dev nD) :
    (V7 (F := Ideal) m ρ c (Pipeline.arrRef spec2 1) : S1024x1024.Idx → EReal)
      = transpose S1024x1024 [1, 0] (W6 (F := Ideal) m ρ c (Proc.devRef .tc main_arg6)) transposes_S1024x1024_S1024x1024_1_0 := by
  show StableHlo.after hostOps2 (W6 (F := Ideal) m ρ c) (Proc.devRef .tc main_v32) = _
  after_results
  rfl

/-- The row operand: the second call's output, heads moved next to the lanes, batch and position merged. -/
theorem rows_eq (c : Dev nD) :
    (V7 (F := Ideal) m ρ c (Pipeline.arrRef spec2 0) : S4096x1024.Idx → EReal)
      = shapeCast S4096x1024
          (transpose S2x2048x16x64 [0, 2, 1, 3] (W6 (F := Ideal) m ρ c (Proc.devRef .tc main_v28)) transposes_S2x16x2048x64_S2x2048x16x64_0_2_1_3)
          shapeCasts_S2x2048x16x64_S4096x1024 := by
  show StableHlo.after hostOps2 (W6 (F := Ideal) m ρ c) (Proc.devRef .tc main_v30) = _
  after_results
  rfl

end Cert.KernelIdeal.ProjIn

end
-- ==== Proof.AttnIn.lean ====
/-
  The attention call's operands as the stretch of host operations before it leaves them: each of the first call's three
  [2, 2048, 1024] outputs with its 1024 lanes split into 16 heads of 64 and the head axis moved in front of the position
  axis, giving [2, 16, 2048, 64]; the bias operand is the attn_bias argument itself.
-/
import proofs.«123132_j13383118095010_2_alg».proof.Proof.Gen.KernelIdeal.Frame
import Idealize.ShloMosaic.Lib.StableHlo.Run

set_option maxRecDepth 16384

noncomputable section

namespace Cert.KernelIdeal.AttnIn

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- The query operand: the first call's first output, heads split off and moved in front of the positions. -/
theorem q_eq (c : Dev nD) :
    (V5 (F := Ideal) m ρ c (Pipeline.arrRef spec1 0) : S2x16x2048x64.Idx → EReal)
      = transpose S2x16x2048x64 [0, 2, 1, 3]
          (shapeCast S2x2048x16x64 (W4 (F := Ideal) m ρ c (Proc.devRef .tc main_v21_0)) shapeCasts_S2x2048x1024_S2x2048x16x64)
          transposes_S2x2048x16x64_S2x16x2048x64_0_2_1_3 := by
  show StableHlo.after hostOps1 (W4 (F := Ideal) m ρ c) (Proc.devRef .tc main_v23) = _
  after_results
  rfl

/-- The key operand: the first call's second output, re-laid the same way. -/
theorem k_eq (c : Dev nD) :
    (V5 (F := Ideal) m ρ c (Pipeline.arrRef spec1 1) : S2x16x2048x64.Idx → EReal)
      = transpose S2x16x2048x64 [0, 2, 1, 3]
          (shapeCast S2x2048x16x64 (W4 (F := Ideal) m ρ c (Proc.devRef .tc main_v21_1)) shapeCasts_S2x2048x1024_S2x2048x16x64)
          transposes_S2x2048x16x64_S2x16x2048x64_0_2_1_3 := by
  show StableHlo.after hostOps1 (W4 (F := Ideal) m ρ c) (Proc.devRef .tc main_v25) = _
  after_results
  rfl

/-- The value operand: the first call's third output, re-laid the same way. -/
theorem v_eq (c : Dev nD) :
    (V5 (F := Ideal) m ρ c (Pipeline.arrRef spec1 2) : S2x16x2048x64.Idx → EReal)
      = transpose S2x16x2048x64 [0, 2, 1, 3]
          (shapeCast S2x2048x16x64 (W4 (F := Ideal) m ρ c (Proc.devRef .tc main_v21_2)) shapeCasts_S2x2048x1024_S2x2048x16x64)
          transposes_S2x2048x16x64_S2x16x2048x64_0_2_1_3 := by
  show StableHlo.after hostOps1 (W4 (F := Ideal) m ρ c) (Proc.devRef .tc main_v27) = _
  after_results
  rfl

/-- The bias operand: attn_bias as the stretch finds it (no operation of the stretch writes it). -/
theorem bias_eq (c : Dev nD) :
    (V5 (F := Ideal) m ρ c (Pipeline.arrRef spec1 3) : S1x1x2048x2048.Idx → EReal)
      = W4 (F := Ideal) m ρ c (Proc.devRef .tc main_arg1) := by
  show StableHlo.after hostOps1 (W4 (F := Ideal) m ρ c) (Proc.devRef .tc main_arg1) = _
  after_results

end Cert.KernelIdeal.AttnIn

end
-- ==== Proof.Join.lean ====
/-
  The three calls joined: what each stretch of host operations finds in the buffers the previous call wrote. After the second
  call its output buffer holds the attention of that call's four operands; after the first call its three output buffers hold
  the scaled normalised queries, the normalised keys and the values of that call's operands; buffers a call does not touch pass
  through it unchanged.
-/
import proofs.«123132_j13383118095010_2_alg».proof.Proof.Gen.KernelIdeal.Frame
import proofs.«123132_j13383118095010_2_alg».proof.Proof.AttnArray
import proofs.«123132_j13383118095010_2_alg».proof.Proof.QkArray

set_option maxRecDepth 16384

noncomputable section

namespace Cert.KernelIdeal.Join

open Cert.KernelIdeal Cert.KernelIdeal.Gen Cert.Lib.HeadMembership
open Idealize.ShloMosaic Idealize.ShloMosaic.TcCoe Idealize.ShloMosaic.ValueIdx

variable (m : (ℓ : Loc nD τ sig) → Buf (Elt Ideal) ℓ) (ρ : Dev nD → PrngReg)

/-- After the second call, its output buffer holds the attention of the call's four operands. -/
theorem attn_out (c : Dev nD) :
    (W6 (F := Ideal) m ρ c (Proc.devRef .tc main_v28) : S2x16x2048x64.Idx → EReal)
      = AttnArray.attn (V5 (F := Ideal) m ρ c (Pipeline.arrRef spec1 0)) (V5 (F := Ideal) m ρ c (Pipeline.arrRef spec1 1))
          (V5 (F := Ideal) m ρ c (Pipeline.arrRef spec1 2)) (V5 (F := Ideal) m ρ c (Pipeline.arrRef spec1 3)) :=
  (W6_arr (F := Ideal) m ρ c 4).trans (AttnArray.final (V5 (F := Ideal) m ρ) c)

/-- After the first call, its value buffer holds the values of the call's operands. -/
theorem v_out (c : Dev nD) :
    (W4 (F := Ideal) m ρ c (Proc.devRef .tc main_v21_2) : S2x2048x1024.Idx → EReal)
      = QkvArray.vv (V3 (F := Ideal) m ρ c (Pipeline.arrRef spec0 0)) (V3 (F := Ideal) m ρ c (Pipeline.arrRef spec0 1)) (V3 (F := Ideal) m ρ c (Pipeline.arrRef spec0 3)) :=
  (W4_arr (F := Ideal) m ρ c 9).trans (QkvArray.final9 (V3 (F := Ideal) m ρ) c)

/-- After the first call, its key buffer holds the normalised keys, under the two membership hypotheses. -/
theorem k_out (c : Dev nD)
    (hE : ∀ (cc : Fin 1024) (h : Fin 16), V3 (F := Ideal) m ρ c (Pipeline.arrRef spec0 5) (ix2 cc h : S1024x16.Idx) = mem 64 cc.val h.val)
    (hET : ∀ (h : Fin 16) (cc : Fin 1024), V3 (F := Ideal) m ρ c (Pipeline.arrRef spec0 6) (ix2 h cc : S16x1024.Idx) = mem 64 cc.val h.val) :
    (W4 (F := Ideal) m ρ c (Proc.devRef .tc main_v21_1) : S2x2048x1024.Idx → EReal)
      = QkvArray.kn (V3 (F := Ideal) m ρ c (Pipeline.arrRef spec0 0)) (V3 (F := Ideal) m ρ c (Pipeline.arrRef spec0 1)) :=
  (W4_arr (F := Ideal) m ρ c 8).trans (QkvArray.final8 (V3 (F := Ideal) m ρ) c hE hET)

/-- After the first call, its query buffer holds the scaled normalised queries, under the two membership hypotheses. -/
theorem q_out (c : Dev nD)
    (hE : ∀ (cc : Fin 1024) (h : Fin 16), V3 (F := Ideal) m ρ c (Pipeline.arrRef spec0 5) (ix2 cc h : S1024x16.Idx) = mem 64 cc.val h.val)
    (hET : ∀ (h : Fin 16) (cc : Fin 1024), V3 (F := Ideal) m ρ c (Pipeline.arrRef spec0 6) (ix2 h cc : S16x1024.Idx) = mem 64 cc.val h.val) :
    (W4 (F := Ideal) m ρ c (Proc.devRef .tc main_v21_0) : S2x2048x1024.Idx → EReal)
      = QkvArray.qn (V3 (F := Ideal) m ρ c (Pipeline.arrRef spec0 0)) (V3 (F := Ideal) m ρ c (Pipeline.arrRef spec0 1))
          (V3 (F := Ideal) m ρ c (Pipeline.arrRef spec0 2)) (V3 (F := Ideal) m ρ c (Pipeline.arrRef spec0 4)) :=
  (W4_arr (F := Ideal) m ρ c 7).trans (QkvArray.final7 (V3 (F := Ideal) m ρ) c hE hET)

end Cert.KernelIdeal.Join

end
-- ==== Proof.KernelResult.lean ====
/-
  The idealized kernel's result array is the specification's result of the launch memory's eight arguments: the three calls' array
  functions are the specification's (their operands being what the host stretches leave), and the re-layings between the calls are
  the head / row bookkeeping of the specification.
-/
import proofs.«123132_j13383118095010_2_alg».proof.Proof.KernelSpec
import proofs.«123132_j13383118095010_2_alg».proof.Proof.Tail
import proofs.«123132_j13383118095010_2_alg».proof.Proof.ProjIn
import proofs.«123132_j13383118095010_2_alg».proof.Proof.AttnIn
import proofs.«123132_j13383118095010_2_alg».proof.Proof.Join

set_option maxRecDepth 16384

noncomputable section

namespace Cert.KernelIdeal.KernelResult

open Cert.KernelIdeal Cert.KernelIdeal.Gen Cert.KernelIdeal.KeyNorm Cert.Spec Cert.KernelIdeal.Relay Cert.KernelIdeal.KernelSpec Cert.Lib.HeadMembership
open Idealize.ShloMosaic Idealize.ShloMosaic.TcCoe Idealize.ShloMosaic.ValueIdx

variable (m : (ℓ : Loc nD τ sig) → Buf (Elt Ideal) ℓ) (ρ : Dev nD → PrngReg)

/-- The launch memory's argument a on core c. -/
abbrev M (c : Dev nD) (a : Ref sig .tc) := m ((c : Thread nD τ).loc a)

/-- Step 1: the result at (b, l, o) is the output projection of the attention the second call leaves, given that the weight and
    bias arguments reach the third call's stretch unchanged. -/
theorem result_to_attn (c : Dev nD)
    (h6 : (W6 (F := Ideal) m ρ c (Proc.devRef .tc main_arg6) : S1024x1024.Idx → EReal) = m ((c : Thread nD τ).loc main_arg6))
    (h7 : (W6 (F := Ideal) m ρ c (Proc.devRef .tc main_arg7) : S1024.Idx → EReal) = m ((c : Thread nD τ).loc main_arg7))
    (b : Fin 2) (l : Fin 2048) (o : Fin 1024) :
    (W9 (F := Ideal) m ρ c (Proc.devRef .tc main_v35) : S2x2048x1024.Idx → EReal) (ix3 b l o)
      = outOf (cur (W6 (F := Ideal) m ρ c (Proc.devRef .tc main_v28))) (m ((c : Thread nD τ).loc main_arg6)) (m ((c : Thread nD τ).loc main_arg7)) b l o := by
  rw [Tail.result_eq m ρ c, toBatches_apply]
  refine proj_eq (W6 (F := Ideal) m ρ c (Proc.devRef .tc main_v28)) _ _ _ _ _ (fun b l cc => ?_) (fun cc o => ?_) (fun o => ?_) b l o
  · rw [ProjIn.rows_eq m ρ c]; exact toRows_apply _ _ _ b l cc
  · rw [ProjIn.weight_eq m ρ c, h6]; exact transpose_ix2_apply _ _ cc o
  · rw [ProjIn.bias_eq m ρ c, h7]; exact shapeCast_a_1a_apply _ _ (0 : Fin 1) o

/-- The first call's three results re-laid to heads, as tensors with separate coordinates. -/
def heads (Y : S2x2048x1024.Idx → EReal) : T4 := fun b h l d => Y (ix3 b l (lane h d))

/-- Step 2: the tensor the second call leaves is the specification's attention of the first call's three results re-laid to
    heads and of attn_bias, given that attn_bias reaches the second call's stretch unchanged. -/
theorem attn_tensor (c : Dev nD)
    (h1 : (W4 (F := Ideal) m ρ c (Proc.devRef .tc main_arg1) : S1x1x2048x2048.Idx → EReal) = m ((c : Thread nD τ).loc main_arg1))
    (b : Fin 2) (h : Fin 16) (l : Fin 2048) (d : Fin 64) :
    cur (W6 (F := Ideal) m ρ c (Proc.devRef .tc main_v28)) b h l d
      = att (heads (W4 (F := Ideal) m ρ c (Proc.devRef .tc main_v21_0))) (heads (W4 (F := Ideal) m ρ c (Proc.devRef .tc main_v21_1)))
          (heads (W4 (F := Ideal) m ρ c (Proc.devRef .tc main_v21_2))) (m ((c : Thread nD τ).loc main_arg1)) b h l d := by
  show (W6 (F := Ideal) m ρ c (Proc.devRef .tc main_v28) : S2x16x2048x64.Idx → EReal) (ix4 b h l d) = _
  rw [Join.attn_out m ρ c, attn_eq, AttnIn.bias_eq m ρ c, h1]
  have hq : cur (V5 (F := Ideal) m ρ c (Pipeline.arrRef spec1 0)) = heads (W4 (F := Ideal) m ρ c (Proc.devRef .tc main_v21_0)) := by
    funext b h l d; unfold cur heads; rw [AttnIn.q_eq m ρ c]; exact toHeads_apply _ _ _ b h l d
  have hk : cur (V5 (F := Ideal) m ρ c (Pipeline.arrRef spec1 1)) = heads (W4 (F := Ideal) m ρ c (Proc.devRef .tc main_v21_1)) := by
    funext b h l d; unfold cur heads; rw [AttnIn.k_eq m ρ c]; exact toHeads_apply _ _ _ b h l d
  have hv : cur (V5 (F := Ideal) m ρ c (Pipeline.arrRef spec1 2)) = heads (W4 (F := Ideal) m ρ c (Proc.devRef .tc main_v21_2)) := by
    funext b h l d; unfold cur heads; rw [AttnIn.v_eq m ρ c]; exact toHeads_apply _ _ _ b h l d
  rw [hq, hk, hv]

end Cert.KernelIdeal.KernelResult

end
-- ==== Proof.QkvIn.lean ====
/-
  The first call's five read-only operands as the host operations before it leave them, in terms of the launch memory:
  the input x unchanged; the weight W_qkv transposed (its change of format is the identity on the extended reals);
  the two bias vectors q_bias and v_bias each as one [1, 1024] row; and the scale row, whose lane c holds
  exp (min (scale_mul (head of c), the single-precision word of log 100)).
-/
import proofs.«123132_j13383118095010_2_alg».proof.Proof.Gen.KernelIdeal.Frame
import proofs.«123132_j13383118095010_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.QkvIn

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg)

/-- Neither of the two later stretches writes this buffer: at the call's entry it holds what the first stretch left. -/
theorem pass_v1 (c : Dev nD) : W3 (F := Ideal) m ρ c (Proc.devRef .tc main_v1) = W1 (F := Ideal) m ρ c (Proc.devRef .tc main_v1) :=
  calc W3 (F := Ideal) m ρ c (Proc.devRef .tc main_v1)
    _ = W2 (F := Ideal) m ρ c (Proc.devRef .tc main_v1) := StableHlo.after_of_forall_not_mem (b := Proc.devRef .tc main_v1) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 (F := Ideal) m ρ c (Proc.devRef .tc main_v1) := StableHlo.after_of_forall_not_mem (b := Proc.devRef .tc main_v1) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- Neither of the two later stretches writes this buffer: at the call's entry it holds what the first stretch left. -/
theorem pass_v2 (c : Dev nD) : W3 (F := Ideal) m ρ c (Proc.devRef .tc main_v2) = W1 (F := Ideal) m ρ c (Proc.devRef .tc main_v2) :=
  calc W3 (F := Ideal) m ρ c (Proc.devRef .tc main_v2)
    _ = W2 (F := Ideal) m ρ c (Proc.devRef .tc main_v2) := StableHlo.after_of_forall_not_mem (b := Proc.devRef .tc main_v2) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 (F := Ideal) m ρ c (Proc.devRef .tc main_v2) := StableHlo.after_of_forall_not_mem (b := Proc.devRef .tc main_v2) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- Neither of the two later stretches writes this buffer: at the call's entry it holds what the first stretch left. -/
theorem pass_v3 (c : Dev nD) : W3 (F := Ideal) m ρ c (Proc.devRef .tc main_v3) = W1 (F := Ideal) m ρ c (Proc.devRef .tc main_v3) :=
  calc W3 (F := Ideal) m ρ c (Proc.devRef .tc main_v3)
    _ = W2 (F := Ideal) m ρ c (Proc.devRef .tc main_v3) := StableHlo.after_of_forall_not_mem (b := Proc.devRef .tc main_v3) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 (F := Ideal) m ρ c (Proc.devRef .tc main_v3) := StableHlo.after_of_forall_not_mem (b := Proc.devRef .tc main_v3) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- Neither of the two later stretches writes this buffer: at the call's entry it holds what the first stretch left. -/
theorem pass_v10 (c : Dev nD) : W3 (F := Ideal) m ρ c (Proc.devRef .tc main_v10) = W1 (F := Ideal) m ρ c (Proc.devRef .tc main_v10) :=
  calc W3 (F := Ideal) m ρ c (Proc.devRef .tc main_v10)
    _ = W2 (F := Ideal) m ρ c (Proc.devRef .tc main_v10) := StableHlo.after_of_forall_not_mem (b := Proc.devRef .tc main_v10) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 (F := Ideal) m ρ c (Proc.devRef .tc main_v10) := StableHlo.after_of_forall_not_mem (b := Proc.devRef .tc main_v10) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-! ## The input: no host operation before the call writes it -/

theorem x_eq (c : Dev nD) :
    (V3 (F := Ideal) m ρ c (Pipeline.arrRef spec0 0) : S2x2048x1024.Idx → EReal) = m ((c : Thread nD τ).loc main_arg0) :=
  calc W3 (F := Ideal) m ρ c (Proc.devRef .tc main_arg0)
    _ = W2 (F := Ideal) m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 (F := Ideal) m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 (F := Ideal) m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

/-! ## The weight: W_qkv transposed -/

/-- The weight buffer after the first stretch: W_qkv transposed, then changed of format. -/
theorem w1_v1 (c : Dev nD) :
    (W1 (F := Ideal) m ρ c (Proc.devRef .tc main_v1) : S1024x3072.Idx → EReal)
      = (truncf (F := Ideal) .bf16 (transpose S1024x3072 [1, 0] (W0 (F := Ideal) m ρ c (Proc.devRef .tc main_arg2) : FVec Ideal S3072x1024 .f32) transposes_S3072x1024_S1024x3072_1_0) bitsLt_bf16_f32 : FVec Ideal S1024x3072 .bf16) := by
  show StableHlo.after hostOps0 (W0 (F := Ideal) m ρ c) (Proc.devRef .tc main_v1) = _
  after_results

theorem wt_apply (c : Dev nD) (k : Fin 1024) (o : Fin 3072) :
    V3 (F := Ideal) m ρ c (Pipeline.arrRef spec0 1) (ix2 k o : S1024x3072.Idx)
      = m ((c : Thread nD τ).loc main_arg2) (ix2 o k : S3072x1024.Idx) := by
  refine (congrFun ((pass_v1 m ρ c).trans (w1_v1 m ρ c)) _).trans ?_
  refine (truncf_apply (s := S1024x3072) (φ := .f32) (ψ := .bf16)
    (transpose S1024x3072 [1, 0] (W0 (F := Ideal) m ρ c (Proc.devRef .tc main_arg2) : FVec Ideal S3072x1024 .f32) transposes_S3072x1024_S1024x3072_1_0)
    bitsLt_bf16_f32 (ix2 k o)).trans ?_
  exact transpose_ix2_apply (W0 (F := Ideal) m ρ c (Proc.devRef .tc main_arg2)) transposes_S3072x1024_S1024x3072_1_0 k o

/-! ## The two bias rows: each vector as one row -/

theorem w1_v2 (c : Dev nD) :
    (W1 (F := Ideal) m ρ c (Proc.devRef .tc main_v2) : S1x1024.Idx → EReal)
      = shapeCast S1x1024 (W0 (F := Ideal) m ρ c (Proc.devRef .tc main_arg3)) shapeCasts_S1024_S1x1024 := by
  show StableHlo.after hostOps0 (W0 (F := Ideal) m ρ c) (Proc.devRef .tc main_v2) = _
  after_results
  rfl

theorem qb_apply (c : Dev nD) (cc : Fin 1024) :
    V3 (F := Ideal) m ρ c (Pipeline.arrRef spec0 2) (ix2 (0 : Fin 1) cc : S1x1024.Idx)
      = m ((c : Thread nD τ).loc main_arg3) (ix1 cc : S1024.Idx) := by
  refine (congrFun ((pass_v2 m ρ c).trans (w1_v2 m ρ c)) _).trans ?_
  exact shapeCast_a_1a_apply (W0 (F := Ideal) m ρ c (Proc.devRef .tc main_arg3)) shapeCasts_S1024_S1x1024 0 cc

theorem w1_v3 (c : Dev nD) :
    (W1 (F := Ideal) m ρ c (Proc.devRef .tc main_v3) : S1x1024.Idx → EReal)
      = shapeCast S1x1024 (W0 (F := Ideal) m ρ c (Proc.devRef .tc main_arg4)) shapeCasts_S1024_S1x1024 := by
  show StableHlo.after hostOps0 (W0 (F := Ideal) m ρ c) (Proc.devRef .tc main_v3) = _
  after_results
  rfl

theorem vb_apply (c : Dev nD) (cc : Fin 1024) :
    V3 (F := Ideal) m ρ c (Pipeline.arrRef spec0 3) (ix2 (0 : Fin 1) cc : S1x1024.Idx)
      = m ((c : Thread nD τ).loc main_arg4) (ix1 cc : S1024.Idx) := by
  refine (congrFun ((pass_v3 m ρ c).trans (w1_v3 m ρ c)) _).trans ?_
  exact shapeCast_a_1a_apply (W0 (F := Ideal) m ρ c (Proc.devRef .tc main_arg4)) shapeCasts_S1024_S1x1024 0 cc

/-! ## The scale row: exp (min (scale_mul, log 100)) per head, repeated over the head's 64 lanes -/

/-- The clamped, exponentiated scale as a [1, 16, 1, 1] array. -/
def sc4 (c : Dev nD) : FVec Ideal S1x16x1x1 .f32 :=
  Host.exp (F := Ideal)
    (minimumf (F := Ideal) (W0 (F := Ideal) m ρ c (Proc.devRef .tc main_arg5) : FVec Ideal S1x16x1x1 .f32)
      (broadcastInDim S1x16x1x1 ![] bcast_S_S1x16x1x1 (constant (F := Ideal) S_ .f32 0x40935D8E#32)))

theorem w1_v10 (c : Dev nD) :
    (W1 (F := Ideal) m ρ c (Proc.devRef .tc main_v10) : S1x1024.Idx → EReal)
      = shapeCast S1x1024
          (broadcastInDim S1x16x64 ![0, 1, 2] bcast_S1x16x1_S1x16x64_0_1_2
            (broadcastInDim S1x16x1 ![0, 1] bcast_S1x16_S1x16x1_0_1
              (shapeCast S1x16 (sc4 m ρ c) shapeCasts_S1x16x1x1_S1x16)))
          shapeCasts_S1x16x64_S1x1024 := by
  show StableHlo.after hostOps0 (W0 (F := Ideal) m ρ c) (Proc.devRef .tc main_v10) = _
  after_results
  rfl

/-- The [1, 16, 1, 1] array at head h. -/
theorem sc4_apply (c : Dev nD) (h : Fin 16) :
    sc4 m ρ c (ix4 (0 : Fin 1) h (0 : Fin 1) (0 : Fin 1) : S1x16x1x1.Idx)
      = Cert.Spec.smul (m ((c : Thread nD τ).loc main_arg5)) h := by
  show Ideal.exp (min (m ((c : Thread nD τ).loc main_arg5) (ix4 (0 : Fin 1) h (0 : Fin 1) (0 : Fin 1)))
      (broadcastInDim S1x16x1x1 ![] bcast_S_S1x16x1x1 (constant (F := Ideal) S_ .f32 0x40935D8E#32) (ix4 (0 : Fin 1) h (0 : Fin 1) (0 : Fin 1)))) = _
  rw [broadcastInDim_apply (![] : Fin 0 → Fin 4) bcast_S_S1x16x1x1 (constant (F := Ideal) S_ .f32 0x40935D8E#32) (ix4 (0 : Fin 1) h (0 : Fin 1) (0 : Fin 1)) ix0 (fun a => a.elim0)]
  rfl

theorem sm_apply (c : Dev nD) (cc : Fin 1024) :
    V3 (F := Ideal) m ρ c (Pipeline.arrRef spec0 4) (ix2 (0 : Fin 1) cc : S1x1024.Idx)
      = Cert.Spec.smul (m ((c : Thread nD τ).loc main_arg5)) (Cert.KernelIdeal.KeyNorm.head cc) := by
  have hcc := cc.isLt
  refine (congrFun ((pass_v10 m ρ c).trans (w1_v10 m ρ c)) _).trans ?_
  -- lane cc of the row is entry (0, cc / 64, cc mod 64) of the [1, 16, 64] array
  refine (shapeCast_apply _ shapeCasts_S1x16x64_S1x1024 (ix2 (0 : Fin 1) cc : S1x1024.Idx)
    (ix3 (0 : Fin 1) (Cert.KernelIdeal.KeyNorm.head cc) (Cert.Spec.sub cc) : S1x16x64.Idx) (by
      rw [Shape.rowMajor_val_three, Shape.rowMajor_val_two]
      show (0 * 16 + cc.val / 64) * 64 + cc.val % 64 = 0 * 1024 + cc.val
      omega)).trans ?_
  -- which repeats entry (0, cc / 64, 0) of the [1, 16, 1] array
  refine (broadcastInDim_apply (![0, 1, 2] : Fin 3 → Fin 3) bcast_S1x16x1_S1x16x64_0_1_2 _
    (ix3 (0 : Fin 1) (Cert.KernelIdeal.KeyNorm.head cc) (Cert.Spec.sub cc) : S1x16x64.Idx)
    (ix3 (0 : Fin 1) (Cert.KernelIdeal.KeyNorm.head cc) (0 : Fin 1) : S1x16x1.Idx)
    (fun a => match a with | ⟨0, _⟩ => rfl | ⟨1, _⟩ => rfl | ⟨2, _⟩ => rfl)).trans ?_
  -- which is entry (0, cc / 64) of the [1, 16] array
  refine (broadcastInDim_apply (![0, 1] : Fin 2 → Fin 3) bcast_S1x16_S1x16x1_0_1 _
    (ix3 (0 : Fin 1) (Cert.KernelIdeal.KeyNorm.head cc) (0 : Fin 1) : S1x16x1.Idx)
    (ix2 (0 : Fin 1) (Cert.KernelIdeal.KeyNorm.head cc) : S1x16.Idx)
    (fun a => match a with | ⟨0, _⟩ => rfl | ⟨1, _⟩ => rfl)).trans ?_
  -- which is entry (0, cc / 64, 0, 0) of the [1, 16, 1, 1] array
  refine (shapeCast_apply (sc4 m ρ c) shapeCasts_S1x16x1x1_S1x16 (ix2 (0 : Fin 1) (Cert.KernelIdeal.KeyNorm.head cc) : S1x16.Idx)
    (ix4 (0 : Fin 1) (Cert.KernelIdeal.KeyNorm.head cc) (0 : Fin 1) (0 : Fin 1) : S1x16x1x1.Idx) (by
      rw [Shape.rowMajor_val_four, Shape.rowMajor_val_two]
      show ((0 * 16 + cc.val / 64) * 1 + 0) * 1 + 0 = 0 * 16 + cc.val / 64
      omega)).trans ?_
  exact sc4_apply m ρ c (Cert.KernelIdeal.KeyNorm.head cc)

end Cert.KernelIdeal.QkvIn

end
-- ==== Proof.Through.lean ====
/-
  Arguments no operation writes reach the later stretches unchanged: attn_bias as the stretch before the second call finds it,
  W_proj and b_proj as the stretch before the third call finds them, are the launch memory's.
-/
import proofs.«123132_j13383118095010_2_alg».proof.Proof.Gen.KernelIdeal.Frame

set_option maxRecDepth 16384

noncomputable section

namespace Cert.KernelIdeal.Through

open Cert.KernelIdeal Cert.KernelIdeal.Gen
open Idealize.ShloMosaic Idealize.ShloMosaic.TcCoe

variable (m : (ℓ : Loc nD τ sig) → Buf (Elt Ideal) ℓ) (ρ : Dev nD → PrngReg)

/-- A buffer none of a stretch's operations writes holds after the stretch what it held before. -/
local macro "unwritten " ops:ident " at " buf:term : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- attn_bias reaches the stretch before the second call unchanged. -/
theorem bias_W4 (c : Dev nD) : W4 (F := Ideal) m ρ c (Proc.devRef .tc main_arg1) = m ((c : Thread nD τ).loc main_arg1) :=
  calc W4 (F := Ideal) m ρ c (Proc.devRef .tc main_arg1)
    _ = W3 (F := Ideal) m ρ c (Proc.devRef .tc main_arg1) := W4_of_ne m ρ c main_arg1 (by decide)
    _ = W2 (F := Ideal) m ρ c (Proc.devRef .tc main_arg1) := unwritten hostOps0_2 at main_arg1
    _ = W1 (F := Ideal) m ρ c (Proc.devRef .tc main_arg1) := unwritten hostOps0_1 at main_arg1
    _ = W0 (F := Ideal) m ρ c (Proc.devRef .tc main_arg1) := unwritten hostOps0 at main_arg1
    _ = m ((c : Thread nD τ).loc main_arg1) := rfl

/-- W_proj reaches the stretch before the third call unchanged. -/
theorem wproj_W6 (c : Dev nD) : W6 (F := Ideal) m ρ c (Proc.devRef .tc main_arg6) = m ((c : Thread nD τ).loc main_arg6) :=
  calc W6 (F := Ideal) m ρ c (Proc.devRef .tc main_arg6)
    _ = W5 (F := Ideal) m ρ c (Proc.devRef .tc main_arg6) := W6_of_ne m ρ c main_arg6 (by decide)
    _ = W4 (F := Ideal) m ρ c (Proc.devRef .tc main_arg6) := unwritten hostOps1 at main_arg6
    _ = W3 (F := Ideal) m ρ c (Proc.devRef .tc main_arg6) := W4_of_ne m ρ c main_arg6 (by decide)
    _ = W2 (F := Ideal) m ρ c (Proc.devRef .tc main_arg6) := unwritten hostOps0_2 at main_arg6
    _ = W1 (F := Ideal) m ρ c (Proc.devRef .tc main_arg6) := unwritten hostOps0_1 at main_arg6
    _ = W0 (F := Ideal) m ρ c (Proc.devRef .tc main_arg6) := unwritten hostOps0 at main_arg6
    _ = m ((c : Thread nD τ).loc main_arg6) := rfl

/-- b_proj reaches the stretch before the third call unchanged. -/
theorem bproj_W6 (c : Dev nD) : W6 (F := Ideal) m ρ c (Proc.devRef .tc main_arg7) = m ((c : Thread nD τ).loc main_arg7) :=
  calc W6 (F := Ideal) m ρ c (Proc.devRef .tc main_arg7)
    _ = W5 (F := Ideal) m ρ c (Proc.devRef .tc main_arg7) := W6_of_ne m ρ c main_arg7 (by decide)
    _ = W4 (F := Ideal) m ρ c (Proc.devRef .tc main_arg7) := unwritten hostOps1 at main_arg7
    _ = W3 (F := Ideal) m ρ c (Proc.devRef .tc main_arg7) := W4_of_ne m ρ c main_arg7 (by decide)
    _ = W2 (F := Ideal) m ρ c (Proc.devRef .tc main_arg7) := unwritten hostOps0_2 at main_arg7
    _ = W1 (F := Ideal) m ρ c (Proc.devRef .tc main_arg7) := unwritten hostOps0_1 at main_arg7
    _ = W0 (F := Ideal) m ρ c (Proc.devRef .tc main_arg7) := unwritten hostOps0 at main_arg7
    _ = m ((c : Thread nD τ).loc main_arg7) := rfl

end Cert.KernelIdeal.Through

end
-- ==== Proof.KernelFinal.lean ====
/-
  THE KERNEL'S RESULT. With the two 0/1 operands of the first call the head-membership matrix and its transpose, the idealized
  kernel's result array is the specification's result of the launch memory's eight arguments.
-/
import proofs.«123132_j13383118095010_2_alg».proof.Proof.KernelResult
import proofs.«123132_j13383118095010_2_alg».proof.Proof.QkvIn
import proofs.«123132_j13383118095010_2_alg».proof.Proof.Through

set_option maxRecDepth 16384

noncomputable section

namespace Cert.KernelIdeal.KernelFinal

open Cert.KernelIdeal Cert.KernelIdeal.Gen Cert.KernelIdeal.KeyNorm Cert.Spec Cert.KernelIdeal.Relay Cert.KernelIdeal.KernelSpec Cert.KernelIdeal.KernelResult Cert.Lib.HeadMembership
open Idealize.ShloMosaic Idealize.ShloMosaic.TcCoe Idealize.ShloMosaic.ValueIdx

variable (m : (ℓ : Loc nD τ sig) → Buf (Elt Ideal) ℓ) (ρ : Dev nD → PrngReg)

section
variable (c : Dev nD)
  (hE : ∀ (cc : Fin 1024) (h : Fin 16), V3 (F := Ideal) m ρ c (Pipeline.arrRef spec0 5) (ix2 cc h : S1024x16.Idx) = mem 64 cc.val h.val)
  (hET : ∀ (h : Fin 16) (cc : Fin 1024), V3 (F := Ideal) m ρ c (Pipeline.arrRef spec0 6) (ix2 h cc : S16x1024.Idx) = mem 64 cc.val h.val)

include hE hET in
/-- Step 3: the first call's three results re-laid to heads are the specification's q̂, k̂, v̂ of the launch memory. -/
theorem heads_q : heads (W4 (F := Ideal) m ρ c (Proc.devRef .tc main_v21_0))
    = qhat (m ((c : Thread nD τ).loc main_arg0)) (m ((c : Thread nD τ).loc main_arg2)) (m ((c : Thread nD τ).loc main_arg3)) (m ((c : Thread nD τ).loc main_arg5)) := by
  funext b h l d
  unfold heads
  rw [Join.q_out m ρ c hE hET, QkvIn.x_eq m ρ c]
  exact qhat_eq _ _ _ (fun k o => QkvIn.wt_apply m ρ c k o) _ _ _ _ (fun cc => QkvIn.qb_apply m ρ c cc) (fun cc => QkvIn.sm_apply m ρ c cc) b h l d

include hE hET in
theorem heads_k : heads (W4 (F := Ideal) m ρ c (Proc.devRef .tc main_v21_1))
    = khat (m ((c : Thread nD τ).loc main_arg0)) (m ((c : Thread nD τ).loc main_arg2)) := by
  funext b h l d
  unfold heads
  rw [Join.k_out m ρ c hE hET, QkvIn.x_eq m ρ c]
  exact khat_eq _ _ _ (fun k o => QkvIn.wt_apply m ρ c k o) b h l d

theorem heads_v : heads (W4 (F := Ideal) m ρ c (Proc.devRef .tc main_v21_2))
    = vhat (m ((c : Thread nD τ).loc main_arg0)) (m ((c : Thread nD τ).loc main_arg2)) (m ((c : Thread nD τ).loc main_arg4)) := by
  funext b h l d
  unfold heads
  rw [Join.v_out m ρ c, QkvIn.x_eq m ρ c]
  exact vhat_eq _ _ _ (fun k o => QkvIn.wt_apply m ρ c k o) _ _ (fun cc => QkvIn.vb_apply m ρ c cc) b h l d

include hE hET in
/-- THE RESULT ARRAY of the idealized kernel is the specification's. -/
theorem result_eq : (W9 (F := Ideal) m ρ c (Proc.devRef .tc main_v35) : S2x2048x1024.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  funext i
  obtain ⟨b, l, o, rfl⟩ : ∃ (b : Fin 2) (l : Fin 2048) (o : Fin 1024), i = ix3 b l o := ⟨i 0, i 1, i 2, eq_ix3 i⟩
  rw [result_to_attn m ρ c (Through.wproj_W6 m ρ c) (Through.bproj_W6 m ρ c) b l o]
  show _ = out _ _ _ _ _ _ _ _ b l o
  unfold out
  have hA : cur (W6 (F := Ideal) m ρ c (Proc.devRef .tc main_v28))
      = att (qhat (m ((c : Thread nD τ).loc main_arg0)) (m ((c : Thread nD τ).loc main_arg2)) (m ((c : Thread nD τ).loc main_arg3)) (m ((c : Thread nD τ).loc main_arg5)))
          (khat (m ((c : Thread nD τ).loc main_arg0)) (m ((c : Thread nD τ).loc main_arg2)))
          (vhat (m ((c : Thread nD τ).loc main_arg0)) (m ((c : Thread nD τ).loc main_arg2)) (m ((c : Thread nD τ).loc main_arg4)))
          (m ((c : Thread nD τ).loc main_arg1)) := by
    funext b h l d
    rw [attn_tensor m ρ c (Through.bias_W4 m ρ c) b h l d, heads_q m ρ c hE hET, heads_k m ρ c hE hET, heads_v m ρ c]
  rw [hA]

end

end Cert.KernelIdeal.KernelFinal

end
-- ==== Proof.Membership.lean ====
/-
  The two 0/1 operand matrices of the first call, as the host operations before it leave them: the [1024, 16] matrix whose
  entry (c, h) is 1 when lane c belongs to head h (c / 64 = h) and 0 otherwise, and its [16, 1024] transpose.
-/
import proofs.«123132_j13383118095010_2_alg».proof.Proof.Gen.KernelIdeal.Frame
import proofs.«123132_j13383118095010_2_alg».proof.Proof.LibHeadMembership
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Membership

open Cert.KernelIdeal Cert.KernelIdeal.Gen
open Idealize.ShloMosaic Idealize.ShloMosaic.TcCoe Idealize.ShloMosaic.StableHlo Idealize.ShloMosaic.ValueIdx

/-! ## The word facts -/

/-- The sign word of a 32-bit word: 0, −1 or 1. -/
def sg (v : BitVec 32) : BitVec 32 := if v = 0 then 0 else if v.msb then -1 else 1

/-- The floored quotient of two signed words as the host program spells it: the quotient rounded toward zero, less one when
    the signs differ and the remainder is not zero. -/
def fd (x y : BitVec 32) : BitVec 32 :=
  Scalar.select (IntOp.andi (IntOp.cmpi .ne (sg x) (sg y)) (IntOp.cmpi .ne (IntOp.remsi .host x y) 0#32))
    (IntOp.subi (IntOp.divsi .host x y) 1#32) (IntOp.divsi .host x y)

/-- For a lane c < 1024 the floored quotient of the word of c by the word of 64 is the word of c / 64: both signs are
    non-negative, so the correction is never taken. All 1024 lanes are computed. -/
theorem fd_eq : ∀ c : Fin 1024, fd (BitVec.ofNat 32 c.val) 64#32 = BitVec.ofNat 32 (c.val / 64) := by
  decide +kernel

/-- Two head numbers below 16, as 32-bit words, compare equal exactly when they are equal; the one-bit result read as a
    natural number is 1 or 0. All 256 pairs are computed. -/
theorem cmp_toNat : ∀ a b : Fin 16,
    (IntOp.cmpi .eq (BitVec.ofNat 32 a.val) (BitVec.ofNat 32 b.val)).toNat = if a.val = b.val then 1 else 0 := by
  decide

/-- The membership indicator of lane c in head h from the words of c / 64 and of h: compare, read the bit unsigned,
    as an extended real. -/
theorem word_member (cc : Fin 1024) (h : Fin 16) :
    (((IntOp.cmpi .eq (BitVec.ofNat 32 (cc.val / 64)) (BitVec.ofNat 32 h.val)).toNat : ℝ) : EReal)
      = Cert.Lib.HeadMembership.mem 64 cc.val h.val := by
  have hlt : cc.val / 64 < 16 := by have := cc.isLt; omega
  have e : (IntOp.cmpi .eq (BitVec.ofNat 32 (cc.val / 64)) (BitVec.ofNat 32 h.val)).toNat
      = if cc.val / 64 = h.val then 1 else 0 := cmp_toNat ⟨cc.val / 64, hlt⟩ h
  rw [e]
  unfold Cert.Lib.HeadMembership.mem
  by_cases hh : cc.val / 64 = h.val
  · rw [if_pos hh, if_pos hh]; simp
  · rw [if_neg hh, if_neg hh]; simp

/-! ## The two broadcasts at an index -/

/-- A [1024] column spread along a new head axis reads, at (c, h), the column at c. -/
theorem bcast_lane (x : S1024.Idx → BitVec 32) (cc : Fin 1024) (h : Fin 16) :
    broadcastInDim S1024x16 ![0, 1] bcast_S1024x1_S1024x16_0_1 (broadcastInDim S1024x1 ![0] bcast_S1024_S1024x1_0 x) (ix2 cc h)
      = x (ix1 cc) := by
  refine (broadcastInDim_apply _ _ _ (ix2 cc h) (ix2 cc (0 : Fin 1)) ?_).trans ?_
  · intro a
    match a with
    | ⟨0, _⟩ => rfl
    | ⟨1, _⟩ => rfl
  · refine broadcastInDim_apply _ _ _ (ix2 cc (0 : Fin 1)) (ix1 cc) ?_
    intro a
    match a with
    | ⟨0, _⟩ => rfl

/-- The head numbers 0 … 15 spread along a new lane axis read, at (c, h), the word of h. -/
theorem bcast_head (cc : Fin 1024) (h : Fin 16) :
    broadcastInDim S1024x16 ![0, 1] bcast_S1x16_S1024x16_0_1 (broadcastInDim S1x16 ![1] bcast_S16_S1x16_1 (iotaInDim S16 32 0)) (ix2 cc h)
      = BitVec.ofNat 32 h.val := by
  refine (broadcastInDim_apply _ _ _ (ix2 cc h) (ix2 (0 : Fin 1) h) ?_).trans ?_
  · intro a
    match a with
    | ⟨0, _⟩ => rfl
    | ⟨1, _⟩ => rfl
  · refine (broadcastInDim_apply _ _ _ (ix2 (0 : Fin 1) h) (ix1 h) ?_).trans ?_
    · intro a
      match a with
      | ⟨0, _⟩ => rfl
    · rfl

/-- The compared and converted matrix at (c, h), for a column x holding the word of c / 64 at lane c. -/
theorem member_value (x : S1024.Idx → BitVec 32) (hx : ∀ cc : Fin 1024, x (ix1 cc) = BitVec.ofNat 32 (cc.val / 64))
    (cc : Fin 1024) (h : Fin 16) :
    (uitofp (F := Ideal) FTy.bf16
        (cmpi CmpIPredicate.eq
          (broadcastInDim S1024x16 ![0, 1] bcast_S1024x1_S1024x16_0_1 (broadcastInDim S1024x1 ![0] bcast_S1024_S1024x1_0 x))
          (broadcastInDim S1024x16 ![0, 1] bcast_S1x16_S1024x16_0_1 (broadcastInDim S1x16 ![1] bcast_S16_S1x16_1 (iotaInDim S16 32 0))))
      : FVec Ideal S1024x16 FTy.bf16) (ix2 cc h) = Cert.Lib.HeadMembership.mem 64 cc.val h.val := by
  show (((IntOp.cmpi .eq
      (broadcastInDim S1024x16 ![0, 1] bcast_S1024x1_S1024x16_0_1 (broadcastInDim S1024x1 ![0] bcast_S1024_S1024x1_0 x) (ix2 cc h))
      (broadcastInDim S1024x16 ![0, 1] bcast_S1x16_S1024x16_0_1 (broadcastInDim S1x16 ![1] bcast_S16_S1x16_1 (iotaInDim S16 32 0)) (ix2 cc h))).toNat : ℝ) : EReal) = _
  rw [bcast_lane, bcast_head, hx]
  exact word_member cc h

/-! ## The three stretches of host operations -/

/-- The floored quotient of the lane numbers by 64, as the 17 operations leave it, at lane c. -/
theorem floorDiv_at (V : Valuation τ sig (Elt Ideal))
    (hX : (V (Proc.devRef .tc main_v11) : S1024.Idx → BitVec 32) = iotaInDim S1024 32 0)
    (hC : (V (Proc.devRef .tc main_c) : S_.Idx → BitVec 32) = constantI S_ 32 64#32) (cc : Fin 1024) :
    (StableHlo.after (hostOps0_1 (F := Ideal)) V (Proc.devRef .tc main_v12) : S1024.Idx → BitVec 32) (ix1 cc)
      = BitVec.ofNat 32 (cc.val / 64) := by
  after_results
  rw [hX, hC]
  simp only [TRef.toBuf, TRef.ofBuf, cast_eq]
  exact fd_eq cc

/-- The [1024, 16] matrix the last stretch leaves, at (c, h). -/
theorem member_at (V : Valuation τ sig (Elt Ideal))
    (hV : ∀ cc : Fin 1024, (V (Proc.devRef .tc main_v12) : S1024.Idx → BitVec 32) (ix1 cc) = BitVec.ofNat 32 (cc.val / 64))
    (cc : Fin 1024) (h : Fin 16) :
    (StableHlo.after (hostOps0_2 (F := Ideal)) V (Proc.devRef .tc main_v19) : S1024x16.Idx → EReal) (ix2 cc h)
      = Cert.Lib.HeadMembership.mem 64 cc.val h.val := by
  after_results
  exact member_value _ hV cc h

/-- Its [16, 1024] transpose, at (h, c). -/
theorem memberT_at (V : Valuation τ sig (Elt Ideal))
    (hV : ∀ cc : Fin 1024, (V (Proc.devRef .tc main_v12) : S1024.Idx → BitVec 32) (ix1 cc) = BitVec.ofNat 32 (cc.val / 64))
    (h : Fin 16) (cc : Fin 1024) :
    (StableHlo.after (hostOps0_2 (F := Ideal)) V (Proc.devRef .tc main_v20) : S16x1024.Idx → EReal) (ix2 h cc)
      = Cert.Lib.HeadMembership.mem 64 cc.val h.val := by
  after_results
  refine (transpose_ix2_apply _ _ h cc).trans ?_
  exact member_value _ hV cc h

variable (m : (ℓ : Loc nD τ sig) → Buf (Elt Ideal) ℓ) (ρ : Dev nD → PrngReg)

/-- The lane numbers 0 … 1023 after the first stretch. -/
theorem w1_lanes (c : Dev nD) :
    (W1 (F := Ideal) m ρ c (Proc.devRef .tc main_v11) : S1024.Idx → BitVec 32) = iotaInDim S1024 32 0 := by
  show StableHlo.after (hostOps0 (F := Ideal)) (W0 (F := Ideal) m ρ c) (Proc.devRef .tc main_v11) = _
  after_results

/-- The constant 64 after the first stretch. -/
theorem w1_const (c : Dev nD) :
    (W1 (F := Ideal) m ρ c (Proc.devRef .tc main_c) : S_.Idx → BitVec 32) = constantI S_ 32 64#32 := by
  show StableHlo.after (hostOps0 (F := Ideal)) (W0 (F := Ideal) m ρ c) (Proc.devRef .tc main_c) = _
  after_results

/-- The first 0/1 operand: entry (c, h) is the membership of lane c in head h. -/
theorem hE (c : Dev nD) (cc : Fin 1024) (h : Fin 16) :
    V3 (F := Ideal) m ρ c (Pipeline.arrRef spec0 5) (ix2 cc h : S1024x16.Idx) = Cert.Lib.HeadMembership.mem 64 cc.val h.val :=
  member_at (W2 (F := Ideal) m ρ c)
    (fun cc => floorDiv_at (W1 (F := Ideal) m ρ c) (w1_lanes m ρ c) (w1_const m ρ c) cc) cc h

/-- The second 0/1 operand: the transpose, entry (h, c). -/
theorem hET (c : Dev nD) (h : Fin 16) (cc : Fin 1024) :
    V3 (F := Ideal) m ρ c (Pipeline.arrRef spec0 6) (ix2 h cc : S16x1024.Idx) = Cert.Lib.HeadMembership.mem 64 cc.val h.val :=
  memberT_at (W2 (F := Ideal) m ρ c)
    (fun cc => floorDiv_at (W1 (F := Ideal) m ρ c) (w1_lanes m ρ c) (w1_const m ρ c) cc) h cc

end Cert.KernelIdeal.Membership

end
-- ==== Proof.RefQkv.lean ====
/-
  The reference program's first 35 host operations read at an index. The joined bias is q_bias on rows 0 … 1023,
  zero on rows 1024 … 2047 and v_bias on rows 2048 … 3071; x times W_qkvᵀ plus that bias, reshaped to
  [2, 2048, 3, 16, 64] and transposed to [3, 2, 16, 2048, 64], has at (s, b, h, l, d) the projection of position (b, l)
  on row s · 1024 + (d + 64 · h) of W_qkv. So the three slices are the specification's q, k and v per lane; the keys' and
  queries' division by the norm floored at ε = 2305843 / 2^61 is the specification's multiplication by the reciprocal
  square root of the squared norm floored at ε², and the queries' factor is exp of the clamped scale.
-/
import proofs.«123132_j13383118095010_2_alg».proof.Proof.Gen.ReferenceIdeal.Read
import proofs.«123132_j13383118095010_2_alg».proof.Proof.Spec
import proofs.«123132_j13383118095010_2_alg».proof.Proof.LibFlooredNorm
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefQkv

open Cert.ReferenceIdeal Cert.ReferenceIdeal.Gen Cert.ReferenceIdeal.Read Idealize.ShloMosaic Idealize.ShloMosaic.ValueIdx
open Cert.KernelIdeal.KeyNorm (lane head epsSq)

/-! ## The norm floor -/

/-- The floor of the norm: 2305843 / 2^61. -/
def eps : ℝ := 2305843 / 2 ^ 61

theorem eps_pos : 0 < eps := by unfold eps; positivity

/-- The floor's single-precision word denotes it: exponent field 87, fraction 834764, so (2^23 + 834764) · 2^(87 − 150). -/
theorem eps_bits : Ideal.ofBits .f32 0x2B8CBCCC#32 = (eps : EReal) := by
  unfold eps
  simp [Ideal.ofBits, Ideal.ieee, -EReal.coe_mul]; norm_num

/-- Its square is the specification's floor of the squared norm. -/
theorem eps_sq : ((eps ^ 2 : ℝ) : EReal) = epsSq :=
  congrArg (fun r : ℝ => (r : EReal))
    (by unfold eps; norm_num : eps ^ 2 = (5316911940649 / 5316911983139663491615228241121378304 : ℝ))

/-! ## The joined bias at a row -/

/-- The three pieces joined along the one axis. -/
abbrev pieces (x3 x4 : S1024.Idx → EReal) : List ((s : Shape) × (s.Idx → EReal)) :=
  [⟨S1024, x3⟩, ⟨S1024, val_main_v0 (F := Ideal)⟩, ⟨S1024, x4⟩]

/-- Rows 0 … 1023 carry q_bias. -/
theorem bias_q (x3 x4 : S1024.Idx → EReal) (c : Fin 1024) (r : Fin 3072) (hr : r.val = c.val) :
    val_main_v1 (F := Ideal) x3 x4 (ix1 r) = x3 (ix1 c) := by
  unfold val_main_v1
  exact concatenate_apply_piece (0 : Fin S3072.rank) (pieces x3 x4) concatenates_S1024_S1024_S1024_S3072_d0 (ix1 r) 0
    (by show 0 < 3; decide) S1024 x3 rfl rfl
    0 rfl (ix1 c) (fun b hb => absurd (Fin.ext (by have hb1 : b.val < 1 := b.isLt; show b.val = 0; omega)) hb)
    (by show 0 + c.val = r.val; omega)

/-- Rows 1024 … 2047 carry zero. -/
theorem bias_k (x3 x4 : S1024.Idx → EReal) (c : Fin 1024) (r : Fin 3072) (hr : r.val = 1024 + c.val) :
    val_main_v1 (F := Ideal) x3 x4 (ix1 r) = 0 := by
  unfold val_main_v1
  refine (concatenate_apply_piece (0 : Fin S3072.rank) (pieces x3 x4) concatenates_S1024_S1024_S1024_S3072_d0 (ix1 r) 1
    (by show 1 < 3; decide) S1024
    (val_main_v0 (F := Ideal)) rfl rfl 1024 rfl (ix1 c)
    (fun b hb => absurd (Fin.ext (by have hb1 : b.val < 1 := b.isLt; show b.val = 0; omega)) hb)
    (by show 1024 + c.val = r.val; omega)).trans ?_
  exact (val_main_v0_apply (F := Ideal) _).trans Ideal.ofBits_zero_f32

/-- Rows 2048 … 3071 carry v_bias. -/
theorem bias_v (x3 x4 : S1024.Idx → EReal) (c : Fin 1024) (r : Fin 3072) (hr : r.val = 2048 + c.val) :
    val_main_v1 (F := Ideal) x3 x4 (ix1 r) = x4 (ix1 c) := by
  unfold val_main_v1
  exact concatenate_apply_piece (0 : Fin S3072.rank) (pieces x3 x4) concatenates_S1024_S1024_S1024_S3072_d0 (ix1 r) 2
    (by show 2 < 3; decide) S1024 x4 rfl rfl
    2048 rfl (ix1 c) (fun b hb => absurd (Fin.ext (by have hb1 : b.val < 1 := b.isLt; show b.val = 0; omega)) hb)
    (by show 2048 + c.val = r.val; omega)

/-! ## The projection, reshaped and transposed, at an index -/

/-- Slot s of the transposed projection at (b, h, l, d) is position (b, l) on row r = s · 1024 + (d + 64 · h): the
    contraction of x with that row of W_qkv plus the joined bias there. -/
theorem slot_apply (x0 : S2x2048x1024.Idx → EReal) (x2 : S3072x1024.Idx → EReal) (x3 x4 : S1024.Idx → EReal)
    (s : Fin 3) (b : Fin 2) (h : Fin 16) (l : Fin 2048) (d : Fin 64) (r : Fin 3072)
    (hr : r.val = s.val * 1024 + (d.val + 64 * h.val)) :
    val_main_v7 (F := Ideal) x0 x2 x3 x4 (ix5 s b h l d)
      = (∑ k : Fin 1024, x0 (ix3 b l k) * x2 (ix2 r k)) + val_main_v1 (F := Ideal) x3 x4 (ix1 r) := by
  have e67 : idx_main_v6 (idx_main_v7 (ix5 s b h l d)) = ix3 b l r := by
    funext a
    refine Fin.ext ?_
    have hs : s.val < 3 := s.isLt
    have hb : b.val < 2 := b.isLt
    have hh : h.val < 16 := h.isLt
    have hl : l.val < 2048 := l.isLt
    have hd : d.val < 64 := d.isLt
    match a with
    | ⟨0, _⟩ =>
      show ((((b.val * 2048 + l.val) * 3 + s.val) * 16 + h.val) * 64 + d.val) / 6291456 = b.val
      omega
    | ⟨1, _⟩ =>
      show ((((b.val * 2048 + l.val) * 3 + s.val) * 16 + h.val) * 64 + d.val) / 3072 % 2048 = l.val
      omega
    | ⟨2, _⟩ =>
      show ((((b.val * 2048 + l.val) * 3 + s.val) * 16 + h.val) * 64 + d.val) % 3072 = r.val
      omega
  have el : ∀ k : Fin 1024, lidx_main_v2 (ix3 b l r) k = ix3 b l k := fun k => funext fun a => by
    match a with
    | ⟨0, _⟩ => rfl
    | ⟨1, _⟩ => rfl
    | ⟨2, _⟩ => rfl
  have er : ∀ k : Fin 1024, ridx_main_v2 (ix3 b l r) k = ix2 r k := fun k => funext fun a => by
    match a with
    | ⟨0, _⟩ => rfl
    | ⟨1, _⟩ => rfl
  have e34 : idx_main_v3 (idx_main_v4 (ix3 b l r)) = ix1 r := funext fun a => by
    match a with
    | ⟨0, _⟩ => rfl
  refine (val_main_v7_apply (F := Ideal) x0 x2 x3 x4 _).trans ?_
  refine (val_main_v6_apply (F := Ideal) x0 x2 x3 x4 _).trans ?_
  rw [e67]
  show val_main_v2 (F := Ideal) x0 x2 (ix3 b l r) + val_main_v4 (F := Ideal) x3 x4 (ix3 b l r) = _
  rw [val_main_v2_apply, val_main_v4_apply, val_main_v3_apply, e34]
  simp only [el, er]

/-- The row-major position of (b, h, l, d) in [2, 16, 2048, 64] has those four coordinates back. -/
theorem flat4 (b : Fin 2) (h : Fin 16) (l : Fin 2048) (d : Fin 64) :
    (((b.val * 16 + h.val) * 2048 + l.val) * 64 + d.val) / 2097152 % 2 = b.val
    ∧ (((b.val * 16 + h.val) * 2048 + l.val) * 64 + d.val) / 131072 % 16 = h.val
    ∧ (((b.val * 16 + h.val) * 2048 + l.val) * 64 + d.val) / 64 % 2048 = l.val
    ∧ (((b.val * 16 + h.val) * 2048 + l.val) * 64 + d.val) % 64 = d.val := by
  have hb : b.val < 2 := b.isLt
  have hh : h.val < 16 := h.isLt
  have hl : l.val < 2048 := l.isLt
  have hd : d.val < 64 := d.isLt
  refine ⟨?_, ?_, ?_, ?_⟩ <;> omega

/-- The first slice, reshaped, reads slot 0 at the same (b, h, l, d). -/
theorem idx_q (b : Fin 2) (h : Fin 16) (l : Fin 2048) (d : Fin 64) :
    idx_main_v8 (idx_main_v9 (ix4 b h l d)) = ix5 (0 : Fin 3) b h l d := by
  obtain ⟨f1, f2, f3, f4⟩ := flat4 b h l d
  funext a
  refine Fin.ext ?_
  match a with
  | ⟨0, _⟩ => rfl
  | ⟨1, _⟩ => exact f1
  | ⟨2, _⟩ => exact f2
  | ⟨3, _⟩ => exact f3
  | ⟨4, _⟩ => exact f4

/-- The second slice, reshaped, reads slot 1. -/
theorem idx_k (b : Fin 2) (h : Fin 16) (l : Fin 2048) (d : Fin 64) :
    idx_main_v10 (idx_main_v11 (ix4 b h l d)) = ix5 (1 : Fin 3) b h l d := by
  obtain ⟨f1, f2, f3, f4⟩ := flat4 b h l d
  funext a
  refine Fin.ext ?_
  match a with
  | ⟨0, _⟩ => rfl
  | ⟨1, _⟩ => exact f1
  | ⟨2, _⟩ => exact f2
  | ⟨3, _⟩ => exact f3
  | ⟨4, _⟩ => exact f4

/-- The third slice, reshaped, reads slot 2. -/
theorem idx_v (b : Fin 2) (h : Fin 16) (l : Fin 2048) (d : Fin 64) :
    idx_main_v12 (idx_main_v13 (ix4 b h l d)) = ix5 (2 : Fin 3) b h l d := by
  obtain ⟨f1, f2, f3, f4⟩ := flat4 b h l d
  funext a
  refine Fin.ext ?_
  match a with
  | ⟨0, _⟩ => rfl
  | ⟨1, _⟩ => exact f1
  | ⟨2, _⟩ => exact f2
  | ⟨3, _⟩ => exact f3
  | ⟨4, _⟩ => exact f4

/-! ## The three slices are the specification's projections per lane -/

/-- The first slice is the query projection with q_bias. -/
theorem q_row (x0 : S2x2048x1024.Idx → EReal) (x2 : S3072x1024.Idx → EReal) (x3 x4 : S1024.Idx → EReal)
    (b : Fin 2) (h : Fin 16) (l : Fin 2048) (d : Fin 64) :
    val_main_v9 (F := Ideal) x0 x2 x3 x4 (ix4 b h l d) = Cert.Spec.qraw x0 x2 x3 b l (lane h d) := by
  refine (val_main_v9_apply (F := Ideal) x0 x2 x3 x4 _).trans ?_
  refine (val_main_v8_apply (F := Ideal) x0 x2 x3 x4 _).trans ?_
  rw [idx_q]
  refine (slot_apply x0 x2 x3 x4 0 b h l d ⟨0 + (lane h d).val, by have := (lane h d).isLt; omega⟩
    (by show 0 + (d.val + 64 * h.val) = 0 * 1024 + (d.val + 64 * h.val); omega)).trans ?_
  rw [bias_q x3 x4 (lane h d) _ (by show 0 + (lane h d).val = (lane h d).val; omega)]
  rfl

/-- The second slice is the key projection: its bias rows are zero. -/
theorem k_row (x0 : S2x2048x1024.Idx → EReal) (x2 : S3072x1024.Idx → EReal) (x3 x4 : S1024.Idx → EReal)
    (b : Fin 2) (h : Fin 16) (l : Fin 2048) (d : Fin 64) :
    val_main_v11 (F := Ideal) x0 x2 x3 x4 (ix4 b h l d) = Cert.Spec.kraw x0 x2 b l (lane h d) := by
  refine (val_main_v11_apply (F := Ideal) x0 x2 x3 x4 _).trans ?_
  refine (val_main_v10_apply (F := Ideal) x0 x2 x3 x4 _).trans ?_
  rw [idx_k]
  refine (slot_apply x0 x2 x3 x4 1 b h l d ⟨1024 + (lane h d).val, by have := (lane h d).isLt; omega⟩
    (by show 1024 + (d.val + 64 * h.val) = 1 * 1024 + (d.val + 64 * h.val); omega)).trans ?_
  rw [bias_k x3 x4 (lane h d) _ rfl, add_zero]
  rfl

/-- The third slice is the value projection with v_bias. -/
theorem v_row (x0 : S2x2048x1024.Idx → EReal) (x2 : S3072x1024.Idx → EReal) (x3 x4 : S1024.Idx → EReal)
    (b : Fin 2) (h : Fin 16) (l : Fin 2048) (d : Fin 64) :
    val_main_v13 (F := Ideal) x0 x2 x3 x4 (ix4 b h l d) = Cert.Spec.vraw x0 x2 x4 b l (lane h d) := by
  refine (val_main_v13_apply (F := Ideal) x0 x2 x3 x4 _).trans ?_
  refine (val_main_v12_apply (F := Ideal) x0 x2 x3 x4 _).trans ?_
  rw [idx_v]
  refine (slot_apply x0 x2 x3 x4 2 b h l d ⟨2048 + (lane h d).val, by have := (lane h d).isLt; omega⟩
    (by show 2048 + (d.val + 64 * h.val) = 2 * 1024 + (d.val + 64 * h.val); omega)).trans ?_
  rw [bias_v x3 x4 (lane h d) _ rfl]
  rfl

/-- The values are the specification's. -/
theorem v_apply (x0 : S2x2048x1024.Idx → EReal) (x2 : S3072x1024.Idx → EReal) (x3 x4 : S1024.Idx → EReal)
    (b : Fin 2) (h : Fin 16) (l : Fin 2048) (d : Fin 64) :
    val_main_v13 (F := Ideal) x0 x2 x3 x4 (ix4 b h l d) = Cert.Spec.vhat x0 x2 x4 b h l d :=
  v_row x0 x2 x3 x4 b h l d

/-! ## The floored norms -/

/-- The queries' sum of squares over a head's 64 lanes (the sum's initial value is zero). -/
theorem sumsq_q (x0 : S2x2048x1024.Idx → EReal) (x2 : S3072x1024.Idx → EReal) (x3 x4 : S1024.Idx → EReal)
    (b : Fin 2) (h : Fin 16) (l : Fin 2048) :
    val_main_v18 (F := Ideal) x0 x2 x3 x4 (ix3 b h l)
      = ∑ k : Fin 64, Cert.Spec.qraw x0 x2 x3 b l (lane h k) * Cert.Spec.qraw x0 x2 x3 b l (lane h k) := by
  have e : ∀ k : Fin 64, idx_main_v18 (ix3 b h l) k = ix4 b h l k := fun k => funext fun a => by
    match a with
    | ⟨0, _⟩ => rfl
    | ⟨1, _⟩ => rfl
    | ⟨2, _⟩ => rfl
    | ⟨3, _⟩ => rfl
  refine (val_main_v18_apply x0 x2 x3 x4 _).trans ?_
  show Ideal.ofBits .f32 0x00000000#32 + _ = _
  rw [Ideal.ofBits_zero_f32, zero_add]
  refine Finset.sum_congr rfl fun k _ => ?_
  rw [e k]
  show val_main_v9 (F := Ideal) x0 x2 x3 x4 (ix4 b h l k) * val_main_v9 (F := Ideal) x0 x2 x3 x4 (ix4 b h l k) = _
  rw [q_row]

/-- The keys' sum of squares over a head's 64 lanes. -/
theorem sumsq_k (x0 : S2x2048x1024.Idx → EReal) (x2 : S3072x1024.Idx → EReal) (x3 x4 : S1024.Idx → EReal)
    (b : Fin 2) (h : Fin 16) (l : Fin 2048) :
    val_main_v28 (F := Ideal) x0 x2 x3 x4 (ix3 b h l)
      = ∑ k : Fin 64, Cert.Spec.kraw x0 x2 b l (lane h k) * Cert.Spec.kraw x0 x2 b l (lane h k) := by
  have e : ∀ k : Fin 64, idx_main_v28 (ix3 b h l) k = ix4 b h l k := fun k => funext fun a => by
    match a with
    | ⟨0, _⟩ => rfl
    | ⟨1, _⟩ => rfl
    | ⟨2, _⟩ => rfl
    | ⟨3, _⟩ => rfl
  refine (val_main_v28_apply x0 x2 x3 x4 _).trans ?_
  show Ideal.ofBits .f32 0x00000000#32 + _ = _
  rw [Ideal.ofBits_zero_f32, zero_add]
  refine Finset.sum_congr rfl fun k _ => ?_
  rw [e k]
  show val_main_v11 (F := Ideal) x0 x2 x3 x4 (ix4 b h l k) * val_main_v11 (F := Ideal) x0 x2 x3 x4 (ix4 b h l k) = _
  rw [k_row]

/-- The queries' divisor: the head's norm floored at ε, the same on the head's 64 lanes. -/
theorem floor_q (x0 : S2x2048x1024.Idx → EReal) (x2 : S3072x1024.Idx → EReal) (x3 x4 : S1024.Idx → EReal)
    (b : Fin 2) (h : Fin 16) (l : Fin 2048) (d : Fin 64) :
    val_main_v23 (F := Ideal) x0 x2 x3 x4 (ix4 b h l d)
      = max (Ideal.sqrt (∑ k : Fin 64, Cert.Spec.qraw x0 x2 x3 b l (lane h k) * Cert.Spec.qraw x0 x2 x3 b l (lane h k))) (eps : EReal) := by
  have e23 : idx_main_v23 (ix4 b h l d) = ix4 b h l (0 : Fin 1) := funext fun a => by
    match a with
    | ⟨0, _⟩ => rfl
    | ⟨1, _⟩ => rfl
    | ⟨2, _⟩ => rfl
    | ⟨3, _⟩ => rfl
  have e19 : idx_main_v19 (ix4 b h l (0 : Fin 1)) = ix3 b h l := funext fun a => by
    match a with
    | ⟨0, _⟩ => rfl
    | ⟨1, _⟩ => rfl
    | ⟨2, _⟩ => rfl
  refine (val_main_v23_apply (F := Ideal) x0 x2 x3 x4 _).trans ?_
  rw [e23]
  show max (Ideal.sqrt (val_main_v19 (F := Ideal) x0 x2 x3 x4 (ix4 b h l (0 : Fin 1)))) (val_main_v21 (F := Ideal) (ix4 b h l (0 : Fin 1))) = _
  rw [val_main_v19_apply, e19, sumsq_q, val_main_v21_apply]
  show max _ (Ideal.ofBits .f32 0x2B8CBCCC#32) = _
  rw [eps_bits]

/-- The keys' divisor. -/
theorem floor_k (x0 : S2x2048x1024.Idx → EReal) (x2 : S3072x1024.Idx → EReal) (x3 x4 : S1024.Idx → EReal)
    (b : Fin 2) (h : Fin 16) (l : Fin 2048) (d : Fin 64) :
    val_main_v33 (F := Ideal) x0 x2 x3 x4 (ix4 b h l d)
      = max (Ideal.sqrt (∑ k : Fin 64, Cert.Spec.kraw x0 x2 b l (lane h k) * Cert.Spec.kraw x0 x2 b l (lane h k))) (eps : EReal) := by
  have e33 : idx_main_v33 (ix4 b h l d) = ix4 b h l (0 : Fin 1) := funext fun a => by
    match a with
    | ⟨0, _⟩ => rfl
    | ⟨1, _⟩ => rfl
    | ⟨2, _⟩ => rfl
    | ⟨3, _⟩ => rfl
  have e29 : idx_main_v29 (ix4 b h l (0 : Fin 1)) = ix3 b h l := funext fun a => by
    match a with
    | ⟨0, _⟩ => rfl
    | ⟨1, _⟩ => rfl
    | ⟨2, _⟩ => rfl
  refine (val_main_v33_apply (F := Ideal) x0 x2 x3 x4 _).trans ?_
  rw [e33]
  show max (Ideal.sqrt (val_main_v29 (F := Ideal) x0 x2 x3 x4 (ix4 b h l (0 : Fin 1)))) (val_main_v31 (F := Ideal) (ix4 b h l (0 : Fin 1))) = _
  rw [val_main_v29_apply, e29, sumsq_k, val_main_v31_apply]
  show max _ (Ideal.ofBits .f32 0x2B8CBCCC#32) = _
  rw [eps_bits]

/-- The queries' factor: exp of the head's scale clamped at the word of log 100. -/
theorem scale_q (x5 : S1x16x1x1.Idx → EReal) (b : Fin 2) (h : Fin 16) (l : Fin 2048) (d : Fin 64) :
    val_main_v25 (F := Ideal) x5 (ix4 b h l d) = Cert.Spec.smul x5 h := by
  have e : idx_main_v25 (ix4 b h l d) = ix4 (0 : Fin 1) h (0 : Fin 1) (0 : Fin 1) := funext fun a => by
    match a with
    | ⟨0, _⟩ => rfl
    | ⟨1, _⟩ => rfl
    | ⟨2, _⟩ => rfl
    | ⟨3, _⟩ => rfl
  refine (val_main_v25_apply (F := Ideal) x5 _).trans ?_
  rw [e]
  show Ideal.exp (min (x5 (ix4 (0 : Fin 1) h (0 : Fin 1) (0 : Fin 1))) (val_main_v14 (F := Ideal) (ix4 (0 : Fin 1) h (0 : Fin 1) (0 : Fin 1)))) = _
  rw [val_main_v14_apply]
  rfl

/-! ## The normalised keys and the normalised scaled queries -/

/-- The keys divided by their head's floored norm are the specification's normalised keys. -/
theorem k_apply (x0 : S2x2048x1024.Idx → EReal) (x2 : S3072x1024.Idx → EReal) (x3 x4 : S1024.Idx → EReal)
    (b : Fin 2) (h : Fin 16) (l : Fin 2048) (d : Fin 64) :
    val_main_v34 (F := Ideal) x0 x2 x3 x4 (ix4 b h l d) = Cert.Spec.khat x0 x2 b h l d := by
  show Ideal.div (val_main_v11 (F := Ideal) x0 x2 x3 x4 (ix4 b h l d)) (val_main_v33 (F := Ideal) x0 x2 x3 x4 (ix4 b h l d)) = _
  rw [floor_k, k_row, Cert.Lib.FlooredNorm.div_max_sqrt eps eps_pos, eps_sq]
  unfold Cert.Spec.khat Cert.Spec.nrm
  rw [Cert.Spec.head_lane]

/-- The queries divided by their head's floored norm, times the head's factor, are the specification's. -/
theorem q_apply (x0 : S2x2048x1024.Idx → EReal) (x2 : S3072x1024.Idx → EReal) (x3 x4 : S1024.Idx → EReal)
    (x5 : S1x16x1x1.Idx → EReal) (b : Fin 2) (h : Fin 16) (l : Fin 2048) (d : Fin 64) :
    val_main_v26 (F := Ideal) x0 x2 x3 x4 x5 (ix4 b h l d) = Cert.Spec.qhat x0 x2 x3 x5 b h l d := by
  show Ideal.div (val_main_v9 (F := Ideal) x0 x2 x3 x4 (ix4 b h l d)) (val_main_v23 (F := Ideal) x0 x2 x3 x4 (ix4 b h l d))
      * val_main_v25 (F := Ideal) x5 (ix4 b h l d) = _
  rw [floor_q, q_row, scale_q, Cert.Lib.FlooredNorm.div_max_sqrt eps eps_pos, eps_sq]
  unfold Cert.Spec.qhat Cert.Spec.nrm
  rw [Cert.Spec.head_lane]

end Cert.ReferenceIdeal.RefQkv

end
-- ==== Proof.RefOut.lean ====
/-
  The reference's last operations, read at an index. From any three [2, 16, 2048, 64] tensors standing for the scaled
  normalised queries Q, the normalised keys K and the values V, the reference computes

    s l m = ∑ d, Q b h l d · K b h m d + attn_bias l m,     t l = max over m of s l m (from −∞),
    e l m = exp (s l m − t l),     z l = ∑ m, e l m,     a b h l d = ∑ m, (e l m / z l) · V b h m d,
    out b l o = ∑ c, a b (c / 64) l (c mod 64) · W_proj o c + b_proj o.

  Each lemma below reads one stage at explicit coordinates and identifies it with the specification's function of the
  same name; the last one is the result at (b, l, o).
-/
import proofs.«123132_j13383118095010_2_alg».proof.Proof.Gen.ReferenceIdeal.Read
import proofs.«123132_j13383118095010_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefOut

open Cert.ReferenceIdeal Cert.ReferenceIdeal.Gen Cert.ReferenceIdeal.Read Idealize.ShloMosaic Idealize.ShloMosaic.ValueIdx

/-- The queries, by coordinates. -/
abbrev Qt (x0 : S2x2048x1024.Idx → EReal) (x2 : S3072x1024.Idx → EReal) (x3 x4 : S1024.Idx → EReal) (x5 : S1x16x1x1.Idx → EReal) : Cert.Spec.T4 :=
  fun b h l d => val_main_v26 (F := Ideal) x0 x2 x3 x4 x5 (ix4 b h l d)
/-- The keys, by coordinates. -/
abbrev Kt (x0 : S2x2048x1024.Idx → EReal) (x2 : S3072x1024.Idx → EReal) (x3 x4 : S1024.Idx → EReal) : Cert.Spec.T4 :=
  fun b h l d => val_main_v34 (F := Ideal) x0 x2 x3 x4 (ix4 b h l d)
/-- The values, by coordinates. -/
abbrev Vt (x0 : S2x2048x1024.Idx → EReal) (x2 : S3072x1024.Idx → EReal) (x3 x4 : S1024.Idx → EReal) : Cert.Spec.T4 :=
  fun b h l d => val_main_v13 (F := Ideal) x0 x2 x3 x4 (ix4 b h l d)

/-- The score of query position l against key position m: the dot product over the 64 lanes plus the bias. -/
theorem v37_at (x0 : S2x2048x1024.Idx → EReal) (x1 : S1x1x2048x2048.Idx → EReal) (x2 : S3072x1024.Idx → EReal) (x3 x4 : S1024.Idx → EReal) (x5 : S1x16x1x1.Idx → EReal) (b : Fin 2) (h : Fin 16) (l m : Fin 2048) :
    val_main_v37 (F := Ideal) x0 x1 x2 x3 x4 x5 (ix4 b h l m) = Cert.Spec.sc (Qt x0 x2 x3 x4 x5) (Kt x0 x2 x3 x4) x1 b h l m := by
  rw [val_main_v37_apply, val_main_v35_apply, val_main_v36_apply]
  have e1 : ∀ k : Fin 64, lidx_main_v35 (ix4 b h l m) k = ix4 b h l k := fun k => funext fun a => by match a with | ⟨0, _⟩ => rfl | ⟨1, _⟩ => rfl | ⟨2, _⟩ => rfl | ⟨3, _⟩ => rfl
  have e2 : ∀ k : Fin 64, ridx_main_v35 (ix4 b h l m) k = ix4 b h m k := fun k => funext fun a => by match a with | ⟨0, _⟩ => rfl | ⟨1, _⟩ => rfl | ⟨2, _⟩ => rfl | ⟨3, _⟩ => rfl
  have e3 : idx_main_v36 (ix4 b h l m) = ix4 (0 : Fin 1) (0 : Fin 1) l m := funext fun a => by match a with | ⟨0, _⟩ => rfl | ⟨1, _⟩ => rfl | ⟨2, _⟩ => rfl | ⟨3, _⟩ => rfl
  rw [e3, Finset.sum_congr rfl fun k _ => by rw [e1 k, e2 k]]
  rfl

/-- The score tensor drops its last axis onto [2, 16, 2048]. -/
theorem red : S2x16x2048x2048.Reduces [3] S2x16x2048 := by decide

/-- The reduced index (b, h, l) with key position k put back is (b, h, l, k). -/
theorem lift_at (b : Fin 2) (h : Fin 16) (l : Fin 2048) (k : Fin (S2x16x2048x2048.size 3)) :
    red.lift (ix3 b h l) k = ix4 b h l (⟨k.val, k.isLt⟩ : Fin 2048) := by
  funext c; apply Fin.ext
  fin_cases c <;> rfl

/-- The row maximum: the fold of max from −∞ over the key positions. -/
theorem v38_at (x0 : S2x2048x1024.Idx → EReal) (x1 : S1x1x2048x2048.Idx → EReal) (x2 : S3072x1024.Idx → EReal) (x3 x4 : S1024.Idx → EReal) (x5 : S1x16x1x1.Idx → EReal) (b : Fin 2) (h : Fin 16) (l : Fin 2048) :
    val_main_v38 (F := Ideal) x0 x1 x2 x3 x4 x5 (ix3 b h l)
      = (Finset.univ : Finset (Fin 2048)).fold max (Ideal.ofBits .f32 0xFF800000#32)
          (fun m => val_main_v37 (F := Ideal) x0 x1 x2 x3 x4 x5 (ix4 b h l m)) := by
  unfold val_main_v38
  refine (Host.reduce_eq_fold_single FloatOps.maximumf _ _ reducesTo_S2x16x2048x2048_S2x16x2048_d3 red h_S_ (ix3 b h l)).trans ?_
  have hf : (val_main_v37 (F := Ideal) x0 x1 x2 x3 x4 x5 ∘ red.lift (ix3 b h l))
      = fun m : Fin 2048 => val_main_v37 (F := Ideal) x0 x1 x2 x3 x4 x5 (ix4 b h l m) :=
    funext fun k => congrArg (val_main_v37 (F := Ideal) x0 x1 x2 x3 x4 x5) (lift_at b h l k)
  exact congrArg (fun f => Finset.fold max (Ideal.ofBits .f32 0xFF800000#32) f (Finset.univ : Finset (Fin 2048))) hf

/-- Against −∞ the maximum is the other operand, so the second maximum changes nothing: the row maximum is the specification's. -/
theorem v40_at (x0 : S2x2048x1024.Idx → EReal) (x1 : S1x1x2048x2048.Idx → EReal) (x2 : S3072x1024.Idx → EReal) (x3 x4 : S1024.Idx → EReal) (x5 : S1x16x1x1.Idx → EReal) (b : Fin 2) (h : Fin 16) (l : Fin 2048) :
    val_main_v40 (F := Ideal) x0 x1 x2 x3 x4 x5 (ix3 b h l) = Cert.Spec.tp (Qt x0 x2 x3 x4 x5) (Kt x0 x2 x3 x4) x1 b h l := by
  rw [val_main_v40_apply, val_main_v39_apply, val_main_cst_6_apply, v38_at]
  show max (Ideal.ofBits .f32 0xFF800000#32) _ = _
  have hb : ∀ y : EReal, max (Ideal.ofBits .f32 0xFF800000#32) y = y := fun y => by simp [Ideal.ofBits, Ideal.ieee]
  rw [hb]
  unfold Cert.Spec.tp
  exact congrArg (fun f => Finset.fold max (Ideal.ofBits .f32 0xFF800000#32) f (Finset.univ : Finset (Fin 2048)))
    (funext fun m => v37_at x0 x1 x2 x3 x4 x5 b h l m)

/-- The exponential of the score minus its row maximum. -/
theorem v44_at (x0 : S2x2048x1024.Idx → EReal) (x1 : S1x1x2048x2048.Idx → EReal) (x2 : S3072x1024.Idx → EReal) (x3 x4 : S1024.Idx → EReal) (x5 : S1x16x1x1.Idx → EReal) (b : Fin 2) (h : Fin 16) (l m : Fin 2048) :
    val_main_v44 (F := Ideal) x0 x1 x2 x3 x4 x5 (ix4 b h l m) = Cert.Spec.ex (Qt x0 x2 x3 x4 x5) (Kt x0 x2 x3 x4) x1 b h l m := by
  rw [val_main_v44_apply, val_main_v43_apply, val_main_v42_apply, val_main_v41_apply]
  have e : idx_main_v41 (idx_main_v42 (ix4 b h l m)) = ix3 b h l := funext fun a => by match a with | ⟨0, _⟩ => rfl | ⟨1, _⟩ => rfl | ⟨2, _⟩ => rfl
  rw [e, v40_at, v37_at]
  rfl

/-- The row sum of the exponentials. -/
theorem v45_at (x0 : S2x2048x1024.Idx → EReal) (x1 : S1x1x2048x2048.Idx → EReal) (x2 : S3072x1024.Idx → EReal) (x3 x4 : S1024.Idx → EReal) (x5 : S1x16x1x1.Idx → EReal) (b : Fin 2) (h : Fin 16) (l : Fin 2048) :
    val_main_v45 (F := Ideal) x0 x1 x2 x3 x4 x5 (ix3 b h l) = Cert.Spec.zs (Qt x0 x2 x3 x4 x5) (Kt x0 x2 x3 x4) x1 b h l := by
  rw [val_main_v45_apply, val_main_cst_7_apply]
  show Ideal.ofBits .f32 0x00000000#32 + _ = _
  rw [Ideal.ofBits_zero_f32, zero_add]
  unfold Cert.Spec.zs
  refine Finset.sum_congr rfl fun m _ => ?_
  have e : idx_main_v45 (ix3 b h l) m = ix4 b h l m := funext fun a => by match a with | ⟨0, _⟩ => rfl | ⟨1, _⟩ => rfl | ⟨2, _⟩ => rfl | ⟨3, _⟩ => rfl
  rw [e]
  exact v44_at x0 x1 x2 x3 x4 x5 b h l m

/-- The normalised weight of key position m for query position l. -/
theorem v48_at (x0 : S2x2048x1024.Idx → EReal) (x1 : S1x1x2048x2048.Idx → EReal) (x2 : S3072x1024.Idx → EReal) (x3 x4 : S1024.Idx → EReal) (x5 : S1x16x1x1.Idx → EReal) (b : Fin 2) (h : Fin 16) (l m : Fin 2048) :
    val_main_v48 (F := Ideal) x0 x1 x2 x3 x4 x5 (ix4 b h l m)
      = Ideal.div (Cert.Spec.ex (Qt x0 x2 x3 x4 x5) (Kt x0 x2 x3 x4) x1 b h l m) (Cert.Spec.zs (Qt x0 x2 x3 x4 x5) (Kt x0 x2 x3 x4) x1 b h l) := by
  rw [val_main_v48_apply, val_main_v47_apply, val_main_v46_apply]
  have e : idx_main_v46 (idx_main_v47 (ix4 b h l m)) = ix3 b h l := funext fun a => by match a with | ⟨0, _⟩ => rfl | ⟨1, _⟩ => rfl | ⟨2, _⟩ => rfl
  rw [e, v45_at, v44_at]
  rfl

/-- The weighted sum of the values: the specification's attention at (b, h, l, d). -/
theorem v49_at (x0 : S2x2048x1024.Idx → EReal) (x1 : S1x1x2048x2048.Idx → EReal) (x2 : S3072x1024.Idx → EReal) (x3 x4 : S1024.Idx → EReal) (x5 : S1x16x1x1.Idx → EReal) (b : Fin 2) (h : Fin 16) (l : Fin 2048) (d : Fin 64) :
    val_main_v49 (F := Ideal) x0 x1 x2 x3 x4 x5 (ix4 b h l d) = Cert.Spec.att (Qt x0 x2 x3 x4 x5) (Kt x0 x2 x3 x4) (Vt x0 x2 x3 x4) x1 b h l d := by
  rw [val_main_v49_apply]
  show _ = ∑ mm : Fin 2048, Ideal.div (Cert.Spec.ex (Qt x0 x2 x3 x4 x5) (Kt x0 x2 x3 x4) x1 b h l mm) (Cert.Spec.zs (Qt x0 x2 x3 x4 x5) (Kt x0 x2 x3 x4) x1 b h l) * Vt x0 x2 x3 x4 b h mm d
  refine Finset.sum_congr rfl fun m _ => ?_
  have e1 : lidx_main_v49 (ix4 b h l d) m = ix4 b h l m := funext fun a => by match a with | ⟨0, _⟩ => rfl | ⟨1, _⟩ => rfl | ⟨2, _⟩ => rfl | ⟨3, _⟩ => rfl
  have e2 : ridx_main_v49 (ix4 b h l d) m = ix4 b h m d := funext fun a => by match a with | ⟨0, _⟩ => rfl | ⟨1, _⟩ => rfl | ⟨2, _⟩ => rfl | ⟨3, _⟩ => rfl
  rw [e1, e2, v48_at]

/-- Heads re-joined into lanes: lane c of position (b, l) is lane c mod 64 of head c / 64. -/
theorem v51_at (x0 : S2x2048x1024.Idx → EReal) (x1 : S1x1x2048x2048.Idx → EReal) (x2 : S3072x1024.Idx → EReal) (x3 x4 : S1024.Idx → EReal) (x5 : S1x16x1x1.Idx → EReal) (b : Fin 2) (l : Fin 2048) (c : Fin 1024) :
    val_main_v51 (F := Ideal) x0 x1 x2 x3 x4 x5 (ix3 b l c)
      = val_main_v49 (F := Ideal) x0 x1 x2 x3 x4 x5 (ix4 b (Cert.KernelIdeal.KeyNorm.head c) l (Cert.Spec.sub c)) := by
  rw [val_main_v51_apply, val_main_v50_apply]
  refine congrArg (val_main_v49 (F := Ideal) x0 x1 x2 x3 x4 x5) (funext fun a => Fin.ext ?_)
  have hb : b.val < 2 := b.isLt
  have hl : l.val < 2048 := l.isLt
  have hc : c.val < 1024 := c.isLt
  match a with
  | ⟨0, _⟩ => show ((b.val * 2048 + l.val) * 1024 + c.val) / 2097152 = b.val; omega
  | ⟨1, _⟩ => show ((b.val * 2048 + l.val) * 1024 + c.val) / 64 % 16 = c.val / 64; omega
  | ⟨2, _⟩ => show ((b.val * 2048 + l.val) * 1024 + c.val) / 1024 % 2048 = l.val; omega
  | ⟨3, _⟩ => show ((b.val * 2048 + l.val) * 1024 + c.val) % 64 = c.val % 64; omega

/-- The output projection of the attention, plus its bias. -/
theorem v55_at (x0 : S2x2048x1024.Idx → EReal) (x1 : S1x1x2048x2048.Idx → EReal) (x2 : S3072x1024.Idx → EReal) (x3 x4 : S1024.Idx → EReal) (x5 : S1x16x1x1.Idx → EReal) (x6 : S1024x1024.Idx → EReal) (x7 : S1024.Idx → EReal) (b : Fin 2) (l : Fin 2048) (o : Fin 1024) :
    val_main_v55 (F := Ideal) x0 x1 x2 x3 x4 x5 x6 x7 (ix3 b l o)
      = Cert.Spec.outOf (Cert.Spec.att (Qt x0 x2 x3 x4 x5) (Kt x0 x2 x3 x4) (Vt x0 x2 x3 x4) x1) x6 x7 b l o := by
  rw [val_main_v55_apply, val_main_v52_apply, val_main_v54_apply, val_main_v53_apply]
  have e : idx_main_v53 (idx_main_v54 (ix3 b l o)) = ix1 o := funext fun a => by match a with | ⟨0, _⟩ => rfl
  rw [e]
  show (∑ k : Fin 1024, _) + x7 (ix1 o) = (∑ c : Fin 1024, _) + x7 (ix1 o)
  refine congrArg (· + x7 (ix1 o)) (Finset.sum_congr rfl fun c _ => ?_)
  have el : lidx_main_v52 (ix3 b l o) c = ix3 b l c := funext fun a => by match a with | ⟨0, _⟩ => rfl | ⟨1, _⟩ => rfl | ⟨2, _⟩ => rfl
  have er : ridx_main_v52 (ix3 b l o) c = ix2 o c := funext fun a => by match a with | ⟨0, _⟩ => rfl | ⟨1, _⟩ => rfl
  rw [el, er, v51_at, v49_at]

/-- THE REFERENCE'S RESULT at (b, l, o): the specification's attention over the reference's own queries, keys and values,
    followed by the output projection. -/
theorem out_apply (x0 : S2x2048x1024.Idx → EReal) (x1 : S1x1x2048x2048.Idx → EReal) (x2 : S3072x1024.Idx → EReal) (x3 x4 : S1024.Idx → EReal) (x5 : S1x16x1x1.Idx → EReal) (x6 : S1024x1024.Idx → EReal) (x7 : S1024.Idx → EReal) (b : Fin 2) (l : Fin 2048) (o : Fin 1024) :
    val_main_v55 (F := Ideal) x0 x1 x2 x3 x4 x5 x6 x7 (ix3 b l o)
      = Cert.Spec.outOf (Cert.Spec.att (fun b h l d => val_main_v26 (F := Ideal) x0 x2 x3 x4 x5 (ix4 b h l d))
                                        (fun b h l d => val_main_v34 (F := Ideal) x0 x2 x3 x4 (ix4 b h l d))
                                        (fun b h l d => val_main_v13 (F := Ideal) x0 x2 x3 x4 (ix4 b h l d)) x1) x6 x7 b l o :=
  v55_at x0 x1 x2 x3 x4 x5 x6 x7 b l o

end Cert.ReferenceIdeal.RefOut

end
-- ==== Proof.RefResult.lean ====
/-
  THE REFERENCE'S RESULT. The reference's composed term of its eight arguments is the specification's result of them: its last
  operations are the specification's attention and output projection over its own queries, keys and values, and those are the
  specification's q̂, k̂, v̂.
-/
import proofs.«123132_j13383118095010_2_alg».proof.Proof.RefQkv
import proofs.«123132_j13383118095010_2_alg».proof.Proof.RefOut
import proofs.«123132_j13383118095010_2_alg».proof.Proof.Gen.ReferenceIdeal.Run
import proofs.«123132_j13383118095010_2_alg».proof.Proof.Gen.ReferenceIdeal.Read

noncomputable section

namespace Cert.ReferenceIdeal.RefResult

open Cert.ReferenceIdeal Cert.ReferenceIdeal.Gen Cert.ReferenceIdeal.Read Cert.Spec
open Idealize.ShloMosaic Idealize.ShloMosaic.TcCoe Idealize.ShloMosaic.ValueIdx

/-- The reference's result, from any eight argument arrays, is the specification's. -/
theorem val_eq (x0 : S2x2048x1024.Idx → EReal) (x1 : S1x1x2048x2048.Idx → EReal) (x2 : S3072x1024.Idx → EReal) (x3 x4 : S1024.Idx → EReal)
    (x5 : S1x16x1x1.Idx → EReal) (x6 : S1024x1024.Idx → EReal) (x7 : S1024.Idx → EReal) :
    val_main_v55 (F := Ideal) x0 x1 x2 x3 x4 x5 x6 x7 = result x0 x1 x2 x3 x4 x5 x6 x7 := by
  funext i
  obtain ⟨b, l, o, rfl⟩ : ∃ (b : Fin 2) (l : Fin 2048) (o : Fin 1024), i = ix3 b l o := ⟨i 0, i 1, i 2, eq_ix3 i⟩
  rw [RefOut.out_apply]
  show _ = out x0 x1 x2 x3 x4 x5 x6 x7 b l o
  unfold out
  have hq : (fun b h l d => val_main_v26 (F := Ideal) x0 x2 x3 x4 x5 (ix4 b h l d)) = qhat x0 x2 x3 x5 :=
    funext fun b => funext fun h => funext fun l => funext fun d => RefQkv.q_apply x0 x2 x3 x4 x5 b h l d
  have hk : (fun b h l d => val_main_v34 (F := Ideal) x0 x2 x3 x4 (ix4 b h l d)) = khat x0 x2 :=
    funext fun b => funext fun h => funext fun l => funext fun d => RefQkv.k_apply x0 x2 x3 x4 b h l d
  have hv : (fun b h l d => val_main_v13 (F := Ideal) x0 x2 x3 x4 (ix4 b h l d)) = vhat x0 x2 x4 :=
    funext fun b => funext fun h => funext fun l => funext fun d => RefQkv.v_apply x0 x2 x3 x4 b h l d
  rw [hq, hk, hv]

/-- The term the reference's run names is the specification's result of the launch memory's arguments. -/
theorem res_eq (m : (ℓ : Loc nD τ sig) → Buf (Elt Ideal) ℓ) (c : Dev nD) :
    Cert.ReferenceIdeal.Value.res_main_v55 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (val_main_v55_eq (F := Ideal) m c).trans (val_eq _ _ _ _ _ _ _ _)

end Cert.ReferenceIdeal.RefResult

end
-- ==== Proof.lean ====
/-
  The attention block against its jnp reference, at the ideal instance.

  Both programs compute, for x : [2, 2048, 1024]:
    qkv   = x · W_qkvᵀ + (q_bias, 0, v_bias)            split per head h (16 heads of 64 lanes)
    q̂, k̂  = q / max(‖q‖₂, ε) · exp(min(scale_mul, log 100)),   k / max(‖k‖₂, ε)      (norms per head)
    out   = softmax(q̂ k̂ᵀ + attn_bias) · v, heads re-joined, then · W_projᵀ + b_proj.
  The kernel floors the SQUARED norm at the constant it spells ε·ε and multiplies by the reciprocal square
  root; the reference floors the norm at ε and divides. With ε the reference's own single-precision word
  (2305843 / 2^61), the kernel's floor is named ε² = 5316911940649 / 2^122, and then
  rsqrt (max (s, ε²)) = 1 / max (√s, ε) for every extended real s, since the square root is monotone and both
  sides are 0 at s = ⊤. The kernel's per-head sums and its expansion back to lanes are products with a 0/1
  head-membership matrix, which on the extended reals are exactly the sum over the head's 64 lanes and the
  selection of the lane's head. Both programs are proved equal to ONE specification of the result, entry by
  entry, as a function of the eight argument arrays (Proof/Spec.lean).
-/
import proofs.«123132_j13383118095010_2_alg».proof.Defs
import proofs.«123132_j13383118095010_2_alg».proof.Proof.Gen.Kernel
import proofs.«123132_j13383118095010_2_alg».proof.Proof.Gen.Kernel.Frame
import proofs.«123132_j13383118095010_2_alg».proof.Proof.Gen.KernelIdeal
import proofs.«123132_j13383118095010_2_alg».proof.Proof.Gen.KernelIdeal.Frame
import proofs.«123132_j13383118095010_2_alg».proof.Proof.Gen.ReferenceIdeal
import proofs.«123132_j13383118095010_2_alg».proof.Proof.Gen.Pre_finite_inputs
import proofs.«123132_j13383118095010_2_alg».proof.Proof.Gen.ReferenceIdeal.Run
import proofs.«123132_j13383118095010_2_alg».proof.Proof.Gen.ReferenceIdeal.Read
import proofs.«123132_j13383118095010_2_alg».proof.Proof.RunValue
import proofs.«123132_j13383118095010_2_alg».proof.Proof.KernelFinal
import proofs.«123132_j13383118095010_2_alg».proof.Proof.Membership
import proofs.«123132_j13383118095010_2_alg».proof.Proof.RefResult
import Idealize.ShloMosaic.Adequacy
import Idealize.ShloMosaic.Init

set_option maxRecDepth 16384

noncomputable section

namespace Cert.Proof

open Idealize.ShloMosaic Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both occurrences of the squared-norm floor denote ε² = (2305843 / 2^61)². -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl⟩

/-- Both idealized programs, run from memories agreeing on the arguments, end at the specification's result of those arguments:
    the kernel's result array is it (the three calls' array functions and the re-layings between them), and so is the
    reference's composed term. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, (θ_run Cert.KernelIdeal.defs _ _).mono (fun r h c => ⟨(h c).1.trans
        (Cert.KernelIdeal.KernelFinal.result_eq m ρ c (Cert.KernelIdeal.Membership.hE m ρ c) (Cert.KernelIdeal.Membership.hET m ρ c)), (h c).2⟩)
      (Cert.KernelIdeal.RunValue.run_result (F := Ideal) m ρ), ?_⟩
  refine (θ_run Cert.ReferenceIdeal.defs _ _).mono (fun r h c => ⟨(h c).1.trans ?_, (h c).2⟩) (Cert.ReferenceIdeal.Value.run (F := Ideal) m' ρ')
  rw [Cert.ReferenceIdeal.RefResult.res_eq m' c, (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
